-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x13 : Shape := ⟨2, ![100000, 13]⟩
abbrev S2x3200000 : Shape := ⟨2, ![2, 3200000]⟩
abbrev S100000 : Shape := ⟨1, ![100000]⟩
abbrev S16x13 : Shape := ⟨2, ![16, 13]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x8 : Shape := ⟨2, ![1, 8]⟩
abbrev S1 : Shape := ⟨1, ![1]⟩
abbrev S_ : Shape := ⟨0, ![]⟩

class Facts : Prop where
  bcast_S_S100000x13 : S_.BroadcastsInDim S100000x13 (![] : Fin 0 → Fin S100000x13.rank)
  reducesTo_S100000x13_S_d0_1 : S100000x13.ReducesTo [0, 1] S_
  h_S_ : 0 < S_.numel
  bcast_S_S16x13 : S_.BroadcastsInDim S16x13 (![] : Fin 0 → Fin S16x13.rank)
  reducesTo_S16x13_S_d0_1 : S16x13.ReducesTo [0, 1] S_
  bcast_S_S16 : S_.BroadcastsInDim S16 (![] : Fin 0 → Fin S16.rank)
  reducesTo_S16_S_d0 : S16.ReducesTo [0] S_
  bcast_S_S8x16 : S_.BroadcastsInDim S8x16 (![] : Fin 0 → Fin S8x16.rank)
  reducesTo_S8x16_S_d0_1 : S8x16.ReducesTo [0, 1] S_
  bcast_S_S8 : S_.BroadcastsInDim S8 (![] : Fin 0 → Fin S8.rank)
  reducesTo_S8_S_d0 : S8.ReducesTo [0] S_
  bcast_S_S4x8 : S_.BroadcastsInDim S4x8 (![] : Fin 0 → Fin S4x8.rank)
  reducesTo_S4x8_S_d0_1 : S4x8.ReducesTo [0, 1] S_
  bcast_S_S4 : S_.BroadcastsInDim S4 (![] : Fin 0 → Fin S4.rank)
  reducesTo_S4_S_d0 : S4.ReducesTo [0] S_
  bcast_S_S1x8 : S_.BroadcastsInDim S1x8 (![] : Fin 0 → Fin S1x8.rank)
  reducesTo_S1x8_S_d0_1 : S1x8.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S1 .f32) (main_v48 : IVec S_ 1) (main_v49 : FVec F S1x8 .f32) (main_v50 : FVec F S1x8 .f32) : IVec S_ 1 :=
  let main_v51 : IVec S1x8 1 := cmpf .olt main_v49 main_v50
  let main_c_19 : IVec S_ 1 := constantI S_ 1 1#1
  let main_v52 : IVec S_ 1 := (fun x v => Host.reduce IntOp.andi x v reducesTo_S1x8_S_d0_1 h_S_) main_v51 main_c_19
  let main_v53 : IVec S_ 1 := andi main_v48 main_v52
  let main_v54 : FVec F S1 .f32 := Host.absf main_arg13
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg9 : FVec F S4x8 .f32) (main_arg10 : FVec F S4 .f32) (main_arg11 : FVec F S4x8 .f32) (main_arg12 : FVec F S1x8 .f32) (main_arg13 : FVec F S1 .f32) (main_v33 : IVec S_ 1) : IVec S_ 1 :=
  let main_v34 : FVec F S4x8 .f32 := Host.absf main_arg9
  let main_cst_12 : FVec F S_ .f32 := constant S_ .f32 0x7F800000#32
  let main_v35 : FVec F S4x8 .f32 := broadcastInDim S4x8 ![] bcast_S_S4x8 main_cst_12
  let main_v36 : IVec S4x8 1 := cmpf .olt main_v34 main_v35
  let main_c_13 : IVec S_ 1 := constantI S_ 1 1#1
  let main_v37 : IVec S_ 1 := (fun x v => Host.reduce IntOp.andi x v reducesTo_S4x8_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x8 .f32 := Host.absf main_arg11
  let main_cst_16 : FVec F S_ .f32 := constant S_ .f32 0x7F800000#32
  let main_v45 : FVec F S4x8 .f32 := broadcastInDim S4x8 ![] bcast_S_S4x8 main_cst_16
  let main_v46 : IVec S4x8 1 := cmpf .olt main_v44 main_v45
  let main_c_17 : IVec S_ 1 := constantI S_ 1 1#1
  let main_v47 : IVec S_ 1 := (fun x v => Host.reduce IntOp.andi x v reducesTo_S4x8_S_d0_1 h_S_) main_v46 main_c_17
  let main_v48 : IVec S_ 1 := andi main_v43 main_v47
  let main_v49 : FVec F S1x8 .f32 := Host.absf main_arg12
  let main_cst_18 : FVec F S_ .f32 := constant S_ .f32 0x7F800000#32
  let main_v50 : FVec F S1x8 .f32 := broadcastInDim S1x8 ![] bcast_S_S1x8 main_cst_18
  fn_part3 (F := F) main_arg13 main_v48 main_v49 main_v50

def fn_part1 {F : FTy → Type} [FloatOps F] (main_arg6 : FVec F S8x16 .f32) (main_arg7 : FVec F S8 .f32) (main_arg8 : FVec F S8x16 .f32) (main_arg9 : FVec F S4x8 .f32) (main_arg10 : FVec F S4 .f32) (main_arg11 : FVec F S4x8 .f32) (main_arg12 : FVec F S1x8 .f32) (main_arg13 : FVec F S1 .f32) (main_v13 : IVec S_ 1) (main_v16 : IVec S16x13 1) : IVec S_ 1 :=
  let main_c_5 : IVec S_ 1 := constantI S_ 1 1#1
  let main_v17 : IVec S_ 1 := (fun x v => Host.reduce IntOp.andi x v reducesTo_S16x13_S_d0_1 h_S_) main_v16 main_c_5
  let main_v18 : IVec S_ 1 := andi main_v13 main_v17
  let main_v19 : FVec F S8x16 .f32 := Host.absf main_arg6
  let main_cst_6 : FVec F S_ .f32 := constant S_ .f32 0x7F800000#32
  let main_v20 : FVec F S8x16 .f32 := broadcastInDim S8x16 ![] bcast_S_S8x16 main_cst_6
  let main_v21 : IVec S8x16 1 := cmpf .olt main_v19 main_v20
  let main_c_7 : IVec S_ 1 := constantI S_ 1 1#1
  let main_v22 : IVec S_ 1 := (fun x v => Host.reduce IntOp.andi x v reducesTo_S8x16_S_d0_1 h_S_) main_v21 main_c_7
  let main_v23 : IVec S_ 1 := andi main_v18 main_v22
  let main_v24 : FVec F S8 .f32 := Host.absf main_arg7
  let main_cst_8 : FVec F S_ .f32 := constant S_ .f32 0x7F800000#32
  let main_v25 : FVec F S8 .f32 := broadcastInDim S8 ![] bcast_S_S8 main_cst_8
  let main_v26 : IVec S8 1 := cmpf .olt main_v24 main_v25
  let main_c_9 : IVec S_ 1 := constantI S_ 1 1#1
  let main_v27 : IVec S_ 1 := (fun x v => Host.reduce IntOp.andi x v reducesTo_S8_S_d0 h_S_) main_v26 main_c_9
  let main_v28 : IVec S_ 1 := andi main_v23 main_v27
  let main_v29 : FVec F S8x16 .f32 := Host.absf main_arg8
  let main_cst_10 : FVec F S_ .f32 := constant S_ .f32 0x7F800000#32
  let main_v30 : FVec F S8x16 .f32 := broadcastInDim S8x16 ![] bcast_S_S8x16 main_cst_10
  let main_v31 : IVec S8x16 1 := cmpf .olt main_v29 main_v30
  let main_c_11 : IVec S_ 1 := constantI S_ 1 1#1
  let main_v32 : IVec S_ 1 := (fun x v => Host.reduce IntOp.andi x v reducesTo_S8x16_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x13 .f32) (main_arg1 : IVec S2x3200000 32) (main_arg2 : IVec S100000 32) (main_arg3 : FVec F S16x13 .f32) (main_arg4 : FVec F S16 .f32) (main_arg5 : FVec F S16x13 .f32) (main_arg6 : FVec F S8x16 .f32) (main_arg7 : FVec F S8 .f32) (main_arg8 : FVec F S8x16 .f32) (main_arg9 : FVec F S4x8 .f32) (main_arg10 : FVec F S4 .f32) (main_arg11 : FVec F S4x8 .f32) (main_arg12 : FVec F S1x8 .f32) (main_arg13 : FVec F S1 .f32) : IVec S_ 1 :=
  let main_v0 : FVec F S100000x13 .f32 := Host.absf main_arg0
  let main_cst : FVec F S_ .f32 := constant S_ .f32 0x7F800000#32
  let main_v1 : FVec F S100000x13 .f32 := broadcastInDim S100000x13 ![] bcast_S_S100000x13 main_cst
  let main_v2 : IVec S100000x13 1 := cmpf .olt main_v0 main_v1
  let main_c : IVec S_ 1 := constantI S_ 1 1#1
  let main_v3 : IVec S_ 1 := (fun x v => Host.reduce IntOp.andi x v reducesTo_S100000x13_S_d0_1 h_S_) main_v2 main_c
  let main_v4 : FVec F S16x13 .f32 := Host.absf main_arg3
  let main_cst_0 : FVec F S_ .f32 := constant S_ .f32 0x7F800000#32
  let main_v5 : FVec F S16x13 .f32 := broadcastInDim S16x13 ![] bcast_S_S16x13 main_cst_0
  let main_v6 : IVec S16x13 1 := cmpf .olt main_v4 main_v5
  let main_c_1 : IVec S_ 1 := constantI S_ 1 1#1
  let main_v7 : IVec S_ 1 := (fun x v => Host.reduce IntOp.andi x v reducesTo_S16x13_S_d0_1 h_S_) main_v6 main_c_1
  let main_v8 : IVec S_ 1 := andi main_v3 main_v7
  let main_v9 : FVec F S16 .f32 := Host.absf main_arg4
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x13 .f32 := Host.absf main_arg5
  let main_cst_4 : FVec F S_ .f32 := constant S_ .f32 0x7F800000#32
  let main_v15 : FVec F S16x13 .f32 := broadcastInDim S16x13 ![] bcast_S_S16x13 main_cst_4
  let main_v16 : IVec S16x13 1 := cmpf .olt main_v14 main_v15
  fn_part1 (F := F) main_arg6 main_arg7 main_arg8 main_arg9 main_arg10 main_arg11 main_arg12 main_arg13 main_v13 main_v16
-- ==== Kernel.lean ====
abbrev S100000x13 : Shape := ⟨2, ![100000, 13]⟩
abbrev S2x3200000 : Shape := ⟨2, ![2, 3200000]⟩
abbrev S100000 : Shape := ⟨1, ![100000]⟩
abbrev S16x13 : Shape := ⟨2, ![16, 13]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x8 : Shape := ⟨2, ![1, 8]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3200000x13 : Shape := ⟨2, ![3200000, 13]⟩
abbrev S100000x1 : Shape := ⟨2, ![100000, 1]⟩
abbrev S13x16 : Shape := ⟨2, ![13, 16]⟩
abbrev S100000x16 : Shape := ⟨2, ![100000, 16]⟩
abbrev S1x16 : Shape := ⟨2, ![1, 16]⟩
abbrev S3200000x16 : Shape := ⟨2, ![3200000, 16]⟩
abbrev S16x8 : Shape := ⟨2, ![16, 8]⟩
abbrev S100000x8 : Shape := ⟨2, ![100000, 8]⟩
abbrev S3200000x8 : Shape := ⟨2, ![3200000, 8]⟩
abbrev S8x4 : Shape := ⟨2, ![8, 4]⟩
abbrev S100000x4 : Shape := ⟨2, ![100000, 4]⟩
abbrev S1x4 : Shape := ⟨2, ![1, 4]⟩
abbrev S128x4 : Shape := ⟨2, ![128, 4]⟩
abbrev S128x1 : Shape := ⟨2, ![128, 1]⟩
abbrev S128x8 : Shape := ⟨2, ![128, 8]⟩
abbrev S128 : Shape := ⟨1, ![128]⟩

abbrev nBuf : Space → Nat
  | .hbm => 190
  | .vmem => 4
  | .smem => 0
  | _ => 0

abbrev hbmTy0_0 (i : Nat) : BufTy := match i % 128 with
  | 0 => ⟨S100000x13, .f32⟩
  | 1 => ⟨S2x3200000, .i32⟩
  | 2 => ⟨S100000, .i32⟩
  | 3 => ⟨S16x13, .f32⟩
  | 4 => ⟨S16, .f32⟩
  | 5 => ⟨S16x13, .f32⟩
  | 6 => ⟨S8x16, .f32⟩
  | 7 => ⟨S8, .f32⟩
  | 8 => ⟨S8x16, .f32⟩
  | 9 => ⟨S4x8, .f32⟩
  | 10 => ⟨S4, .f32⟩
  | 11 => ⟨S4x8, .f32⟩
  | 12 => ⟨S1x8, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S1, .i32⟩
  | 27 => ⟨S_, .i32⟩
  | 28 => ⟨S3200000x1, .i32⟩
  | 29 => ⟨S3200000x1, .i1⟩
  | 30 => ⟨S1x1, .i32⟩
  | 31 => ⟨S3200000x1, .i32⟩
  | 32 => ⟨S3200000x1, .i1⟩
  | 33 => ⟨S3200000x1, .i1⟩
  | 34 => ⟨S_, .i1⟩
  | 35 => ⟨S3200000, .i1⟩
  | 36 => ⟨S3200000x13, .f32⟩
  | 37 => ⟨S3200000x13, .i1⟩
  | 38 => ⟨S_, .f32⟩
  | 39 => ⟨S3200000x13, .f32⟩
  | 40 => ⟨S3200000x13, .f32⟩
  | 41 => ⟨S_, .f32⟩
  | 42 => ⟨S100000x13, .f32⟩
  | 43 => ⟨S3200000x1, .i32⟩
  | 44 => ⟨S100000x13, .f32⟩
  | 45 => ⟨S_, .f32⟩
  | 46 => ⟨S3200000x1, .f32⟩
  | 47 => ⟨S_, .f32⟩
  | 48 => ⟨S100000x1, .f32⟩
  | 49 => ⟨S3200000x1, .i32⟩
  | 50 => ⟨S100000x1, .f32⟩
  | 51 => ⟨S_, .f32⟩
  | 52 => ⟨S100000x1, .f32⟩
  | 53 => ⟨S100000x1, .f32⟩
  | 54 => ⟨S100000x13, .f32⟩
  | 55 => ⟨S100000x13, .f32⟩
  | 56 => ⟨S13x16, .f32⟩
  | 57 => ⟨S100000x16, .f32⟩
  | 58 => ⟨S1x16, .f32⟩
  | 59 => ⟨S100000x16, .f32⟩
  | 60 => ⟨S100000x16, .f32⟩
  | 61 => ⟨S13x16, .f32⟩
  | 62 => ⟨S100000x16, .f32⟩
  | 63 => ⟨S100000x16, .f32⟩
  | 64 => ⟨S_, .f32⟩
  | 65 => ⟨S_, .f32⟩
  | 66 => ⟨S100000x16, .f32⟩
  | 67 => ⟨S100000x16, .i1⟩
  | 68 => ⟨S_, .f32⟩
  | 69 => ⟨S100000x16, .f32⟩
  | 70 => ⟨S100000x16, .f32⟩
  | 71 => ⟨S100000x16, .f32⟩
  | 72 => ⟨S_, .i32⟩
  | 73 => ⟨S3200000, .i32⟩
  | 74 => ⟨S3200000, .i1⟩
  | 75 => ⟨S_, .i32⟩
  | 76 => ⟨S3200000, .i32⟩
  | 77 => ⟨S3200000, .i32⟩
  | 78 => ⟨S3200000, .i32⟩
  | 79 => ⟨S3200000x1, .i32⟩
  | 80 => ⟨S1, .i32⟩
  | 81 => ⟨S_, .i32⟩
  | 82 => ⟨S3200000x1, .i32⟩
  | 83 => ⟨S3200000x1, .i1⟩
  | 84 => ⟨S1x1, .i32⟩
  | 85 => ⟨S3200000x1, .i32⟩
  | 86 => ⟨S3200000x1, .i1⟩
  | 87 => ⟨S3200000x1, .i1⟩
  | 88 => ⟨S_, .i1⟩
  | 89 => ⟨S3200000, .i1⟩
  | 90 => ⟨S3200000x16, .f32⟩
  | 91 => ⟨S3200000x16, .i1⟩
  | 92 => ⟨S_, .f32⟩
  | 93 => ⟨S3200000x16, .f32⟩
  | 94 => ⟨S3200000x16, .f32⟩
  | 95 => ⟨S_, .f32⟩
  | 96 => ⟨S100000x16, .f32⟩
  | 97 => ⟨S3200000x1, .i32⟩
  | 98 => ⟨S100000x16, .f32⟩
  | 99 => ⟨S_, .f32⟩
  | 100 => ⟨S3200000x1, .f32⟩
  | 101 => ⟨S_, .f32⟩
  | 102 => ⟨S100000x1, .f32⟩
  | 103 => ⟨S3200000x1, .i32⟩
  | 104 => ⟨S100000x1, .f32⟩
  | 105 => ⟨S_, .f32⟩
  | 106 => ⟨S100000x1, .f32⟩
  | 107 => ⟨S100000x1, .f32⟩
  | 108 => ⟨S100000x16, .f32⟩
  | 109 => ⟨S100000x16, .f32⟩
  | 110 => ⟨S16x8, .f32⟩
  | 111 => ⟨S100000x8, .f32⟩
  | 112 => ⟨S1x8, .f32⟩
  | 113 => ⟨S100000x8, .f32⟩
  | 114 => ⟨S100000x8, .f32⟩
  | 115 => ⟨S16x8, .f32⟩
  | 116 => ⟨S100000x8, .f32⟩
  | 117 => ⟨S100000x8, .f32⟩
  | 118 => ⟨S_, .f32⟩
  | 119 => ⟨S_, .f32⟩
  | 120 => ⟨S100000x8, .f32⟩
  | 121 => ⟨S100000x8, .i1⟩
  | 122 => ⟨S_, .f32⟩
  | 123 => ⟨S100000x8, .f32⟩
  | 124 => ⟨S100000x8, .f32⟩
  | 125 => ⟨S100000x8, .f32⟩
  | 126 => ⟨S_, .i32⟩
  | 127 => ⟨S3200000, .i32⟩
  | _ => ⟨S100000x13, .f32⟩

abbrev hbmTy0_1 (i : Nat) : BufTy := match i % 128 with
  | 0 => ⟨S3200000, .i1⟩
  | 1 => ⟨S_, .i32⟩
  | 2 => ⟨S3200000, .i32⟩
  | 3 => ⟨S3200000, .i32⟩
  | 4 => ⟨S3200000, .i32⟩
  | 5 => ⟨S3200000x1, .i32⟩
  | 6 => ⟨S1, .i32⟩
  | 7 => ⟨S_, .i32⟩
  | 8 => ⟨S3200000x1, .i32⟩
  | 9 => ⟨S3200000x1, .i1⟩
  | 10 => ⟨S1x1, .i32⟩
  | 11 => ⟨S3200000x1, .i32⟩
  | 12 => ⟨S3200000x1, .i1⟩
  | 13 => ⟨S3200000x1, .i1⟩
  | 14 => ⟨S_, .i1⟩
  | 15 => ⟨S3200000, .i1⟩
  | 16 => ⟨S3200000x8, .f32⟩
  | 17 => ⟨S3200000x8, .i1⟩
  | 18 => ⟨S_, .f32⟩
  | 19 => ⟨S3200000x8, .f32⟩
  | 20 => ⟨S3200000x8, .f32⟩
  | 21 => ⟨S_, .f32⟩
  | 22 => ⟨S100000x8, .f32⟩
  | 23 => ⟨S3200000x1, .i32⟩
  | 24 => ⟨S100000x8, .f32⟩
  | 25 => ⟨S_, .f32⟩
  | 26 => ⟨S3200000x1, .f32⟩
  | 27 => ⟨S_, .f32⟩
  | 28 => ⟨S100000x1, .f32⟩
  | 29 => ⟨S3200000x1, .i32⟩
  | 30 => ⟨S100000x1, .f32⟩
  | 31 => ⟨S_, .f32⟩
  | 32 => ⟨S100000x1, .f32⟩
  | 33 => ⟨S100000x1, .f32⟩
  | 34 => ⟨S100000x8, .f32⟩
  | 35 => ⟨S100000x8, .f32⟩
  | 36 => ⟨S8x4, .f32⟩
  | 37 => ⟨S100000x4, .f32⟩
  | 38 => ⟨S1x4, .f32⟩
  | 39 => ⟨S100000x4, .f32⟩
  | 40 => ⟨S100000x4, .f32⟩
  | 41 => ⟨S8x4, .f32⟩
  | 42 => ⟨S100000x4, .f32⟩
  | 43 => ⟨S100000x4, .f32⟩
  | 44 => ⟨S_, .f32⟩
  | 45 => ⟨S128x4, .f32⟩
  | 46 => ⟨S100000x1, .i32⟩
  | 47 => ⟨S128x4, .f32⟩
  | 48 => ⟨S_, .f32⟩
  | 49 => ⟨S100000x1, .f32⟩
  | 50 => ⟨S_, .f32⟩
  | 51 => ⟨S128x1, .f32⟩
  | 52 => ⟨S100000x1, .i32⟩
  | 53 => ⟨S128x1, .f32⟩
  | 54 => ⟨S_, .f32⟩
  | 55 => ⟨S128x1, .f32⟩
  | 56 => ⟨S128x1, .f32⟩
  | 57 => ⟨S128x4, .f32⟩
  | 58 => ⟨S128x4, .f32⟩
  | 59 => ⟨S128x8, .f32⟩
  | 60 => ⟨S1x1, .f32⟩
  | 61 => ⟨S128x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | .local _ .vmem, ⟨0, _⟩ => ⟨S128x8, .f32⟩
  | .local _ .vmem, ⟨1, _⟩ => ⟨S1x8, .f32⟩
  | .local _ .vmem, ⟨2, _⟩ => ⟨S1x1, .f32⟩
  | .local _ .vmem, ⟨3, _⟩ => ⟨S128x1, .f32⟩
  | _, _ => ⟨S100000x13, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v24 : Ref sig .tc := ⟨.hbm, 71, rfl⟩
abbrev main_call2_c : Ref sig .tc := ⟨.hbm, 72, rfl⟩
abbrev main_call2_v0 : Ref sig .tc := ⟨.hbm, 73, rfl⟩
abbrev main_call2_v1 : Ref sig .tc := ⟨.hbm, 74, rfl⟩
abbrev main_call2_c_0 : Ref sig .tc := ⟨.hbm, 75, rfl⟩
abbrev main_call2_v2 : Ref sig .tc := ⟨.hbm, 76, rfl⟩
abbrev main_call2_v3 : Ref sig .tc := ⟨.hbm, 77, rfl⟩
abbrev main_call2_v4 : Ref sig .tc := ⟨.hbm, 78, rfl⟩
abbrev main_call2_v5 : Ref sig .tc := ⟨.hbm, 79, rfl⟩
abbrev main_call2_c_1 : Ref sig .tc := ⟨.hbm, 80, rfl⟩
abbrev main_call2_c_2 : Ref sig .tc := ⟨.hbm, 81, rfl⟩
abbrev main_call2_v6 : Ref sig .tc := ⟨.hbm, 82, rfl⟩
abbrev main_call2_v7 : Ref sig .tc := ⟨.hbm, 83, rfl⟩
abbrev main_call2_v8 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_c_3 : Ref sig .tc := ⟨.hbm, 88, rfl⟩
abbrev main_call2_v12 : Ref sig .tc := ⟨.hbm, 89, rfl⟩
abbrev main_call2_v13 : Ref sig .tc := ⟨.hbm, 90, rfl⟩
abbrev main_call2_v14 : Ref sig .tc := ⟨.hbm, 91, rfl⟩
abbrev main_call2_cst : Ref sig .tc := ⟨.hbm, 92, rfl⟩
abbrev main_call2_v15 : Ref sig .tc := ⟨.hbm, 93, rfl⟩
abbrev main_v25 : Ref sig .tc := ⟨.hbm, 94, rfl⟩
abbrev main_cst_4 : Ref sig .tc := ⟨.hbm, 95, rfl⟩
abbrev main_v26 : Ref sig .tc := ⟨.hbm, 96, rfl⟩
abbrev main_v27 : Ref sig .tc := ⟨.hbm, 97, rfl⟩
abbrev main_v28 : Ref sig .tc := ⟨.hbm, 98, rfl⟩
abbrev main_cst_5 : Ref sig .tc := ⟨.hbm, 99, rfl⟩
abbrev main_v29 : Ref sig .tc := ⟨.hbm, 100, rfl⟩
abbrev main_cst_6 : Ref sig .tc := ⟨.hbm, 101, rfl⟩
abbrev main_v30 : Ref sig .tc := ⟨.hbm, 102, rfl⟩
abbrev main_v31 : Ref sig .tc := ⟨.hbm, 103, rfl⟩
abbrev main_v32 : Ref sig .tc := ⟨.hbm, 104, rfl⟩
abbrev main_cst_7 : Ref sig .tc := ⟨.hbm, 105, rfl⟩
abbrev main_v33 : Ref sig .tc := ⟨.hbm, 106, rfl⟩
abbrev main_v34 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_cst_8 : Ref sig .tc := ⟨.hbm, 118, rfl⟩
abbrev main_call3_cst : Ref sig .tc := ⟨.hbm, 119, rfl⟩
abbrev main_call3_v0 : Ref sig .tc := ⟨.hbm, 120, rfl⟩
abbrev main_call3_v1 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_v45 : Ref sig .tc := ⟨.hbm, 125, rfl⟩
abbrev main_call4_c : Ref sig .tc := ⟨.hbm, 126, rfl⟩
abbrev main_call4_v0 : Ref sig .tc := ⟨.hbm, 127, rfl⟩
abbrev main_call4_v1 : Ref sig .tc := ⟨.hbm, 128, rfl⟩
abbrev main_call4_c_0 : Ref sig .tc := ⟨.hbm, 129, rfl⟩
abbrev main_call4_v2 : Ref sig .tc := ⟨.hbm, 130, rfl⟩
abbrev main_call4_v3 : Ref sig .tc := ⟨.hbm, 131, rfl⟩
abbrev main_call4_v4 : Ref sig .tc := ⟨.hbm, 132, rfl⟩
abbrev main_call4_v5 : Ref sig .tc := ⟨.hbm, 133, rfl⟩
abbrev main_call4_c_1 : Ref sig .tc := ⟨.hbm, 134, rfl⟩
abbrev main_call4_c_2 : Ref sig .tc := ⟨.hbm, 135, rfl⟩
abbrev main_call4_v6 : Ref sig .tc := ⟨.hbm, 136, rfl⟩
abbrev main_call4_v7 : Ref sig .tc := ⟨.hbm, 137, rfl⟩
abbrev main_call4_v8 : Ref sig .tc := ⟨.hbm, 138, rfl⟩
abbrev main_call4_v9 : Ref sig .tc := ⟨.hbm, 139, rfl⟩
abbrev main_call4_v10 : Ref sig .tc := ⟨.hbm, 140, rfl⟩
abbrev main_call4_v11 : Ref sig .tc := ⟨.hbm, 141, rfl⟩
abbrev main_call4_c_3 : Ref sig .tc := ⟨.hbm, 142, rfl⟩
abbrev main_call4_v12 : Ref sig .tc := ⟨.hbm, 143, rfl⟩
abbrev main_call4_v13 : Ref sig .tc := ⟨.hbm, 144, rfl⟩
abbrev main_call4_v14 : Ref sig .tc := ⟨.hbm, 145, rfl⟩
abbrev main_call4_cst : Ref sig .tc := ⟨.hbm, 146, rfl⟩
abbrev main_call4_v15 : Ref sig .tc := ⟨.hbm, 147, rfl⟩
abbrev main_v46 : Ref sig .tc := ⟨.hbm, 148, rfl⟩
abbrev main_cst_9 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_cst_10 : Ref sig .tc := ⟨.hbm, 153, rfl⟩
abbrev main_v50 : Ref sig .tc := ⟨.hbm, 154, rfl⟩
abbrev main_cst_11 : Ref sig .tc := ⟨.hbm, 155, rfl⟩
abbrev main_v51 : Ref sig .tc := ⟨.hbm, 156, rfl⟩
abbrev main_v52 : Ref sig .tc := ⟨.hbm, 157, rfl⟩
abbrev main_v53 : Ref sig .tc := ⟨.hbm, 158, rfl⟩
abbrev main_cst_12 : Ref sig .tc := ⟨.hbm, 159, rfl⟩
abbrev main_v54 : Ref sig .tc := ⟨.hbm, 160, rfl⟩
abbrev main_v55 : Ref sig .tc := ⟨.hbm, 161, rfl⟩
abbrev main_v56 : Ref sig .tc := ⟨.hbm, 162, rfl⟩
abbrev main_v57 : Ref sig .tc := ⟨.hbm, 163, rfl⟩
abbrev main_v58 : Ref sig .tc := ⟨.hbm, 164, rfl⟩
abbrev main_v59 : Ref sig .tc := ⟨.hbm, 165, rfl⟩
abbrev main_v60 : Ref sig .tc := ⟨.hbm, 166, rfl⟩
abbrev main_v61 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_cst_13 : Ref sig .tc := ⟨.hbm, 172, rfl⟩
abbrev main_v66 : Ref sig .tc := ⟨.hbm, 173, rfl⟩
abbrev main_v67 : Ref sig .tc := ⟨.hbm, 174, rfl⟩
abbrev main_v68 : Ref sig .tc := ⟨.hbm, 175, rfl⟩
abbrev main_cst_14 : Ref sig .tc := ⟨.hbm, 176, rfl⟩
abbrev main_v69 : Ref sig .tc := ⟨.hbm, 177, rfl⟩
abbrev main_cst_15 : Ref sig .tc := ⟨.hbm, 178, rfl⟩
abbrev main_v70 : Ref sig .tc := ⟨.hbm, 179, rfl⟩
abbrev main_v71 : Ref sig .tc := ⟨.hbm, 180, rfl⟩
abbrev main_v72 : Ref sig .tc := ⟨.hbm, 181, rfl⟩
abbrev main_cst_16 : Ref sig .tc := ⟨.hbm, 182, rfl⟩
abbrev main_v73 : Ref sig .tc := ⟨.hbm, 183, rfl⟩
abbrev main_v74 : Ref sig .tc := ⟨.hbm, 184, rfl⟩
abbrev main_v75 : Ref sig .tc := ⟨.hbm, 185, rfl⟩
abbrev main_v76 : Ref sig .tc := ⟨.hbm, 186, rfl⟩
abbrev main_v77 : Ref sig .tc := ⟨.hbm, 187, rfl⟩
abbrev main_v78 : Ref sig .tc := ⟨.hbm, 188, rfl⟩
abbrev main_v79 : Ref sig .tc := ⟨.hbm, 189, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S128x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x13_0 : S3200000.BroadcastsInDim S3200000x13 (![0] : Fin 1 → Fin S3200000x13.rank)
  bcast_S_S3200000x13 : S_.BroadcastsInDim S3200000x13 (![] : Fin 0 → Fin S3200000x13.rank)
  bcast_S_S100000x13 : S_.BroadcastsInDim S100000x13 (![] : Fin 0 → Fin S100000x13.rank)
  bcast_S_S100000x1 : S_.BroadcastsInDim S100000x1 (![] : Fin 0 → Fin S100000x1.rank)
  bcast_S100000x1_S100000x13_0_1 : S100000x1.BroadcastsInDim S100000x13 (![0, 1] : Fin 2 → Fin S100000x13.rank)
  transposes_S16x13_S13x16_1_0 : S16x13.Transposes [1, 0] S13x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S100000x1_S100000x16_0_1 : S100000x1.BroadcastsInDim S100000x16 (![0, 1] : Fin 2 → Fin S100000x16.rank)
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S3200000_S3200000x8_0 : S3200000.BroadcastsInDim S3200000x8 (![0] : Fin 1 → Fin S3200000x8.rank)
  bcast_S_S3200000x8 : S_.BroadcastsInDim S3200000x8 (![] : Fin 0 → Fin S3200000x8.rank)
  bcast_S100000x1_S100000x8_0_1 : S100000x1.BroadcastsInDim S100000x8 (![0, 1] : Fin 2 → Fin S100000x8.rank)
  transposes_S4x8_S8x4_1_0 : S4x8.Transposes [1, 0] S8x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S128x4 : S_.BroadcastsInDim S128x4 (![] : Fin 0 → Fin S128x4.rank)
  bcast_S100000_S100000x1_0 : S100000.BroadcastsInDim S100000x1 (![0] : Fin 1 → Fin S100000x1.rank)
  bcast_S_S128x1 : S_.BroadcastsInDim S128x1 (![] : Fin 0 → Fin S128x1.rank)
  bcast_S128x1_S128x4_0_1 : S128x1.BroadcastsInDim S128x4 (![0, 1] : Fin 2 → Fin S128x4.rank)
  concatenates_S128x4_S128x4_S128x8_d1 : Shape.Concatenates [S128x4, S128x4] S128x8 1
  shapeCasts_S1_S1x1 : S1.ShapeCasts S1x1
  inb_S128x8_S128x8_0_0 : ∀ a, (![0, 0] : Fin 2 → Nat) a + S128x8.size a ≤ S128x8.size a
  h_S128x8 : 0 < S128x8.numel
  shapeCasts_S128x8_S128x8 : S128x8.ShapeCasts S128x8
  inb_S1x8_S1x8_0_0 : ∀ a, (![0, 0] : Fin 2 → Nat) a + S1x8.size a ≤ S1x8.size a
  h_S1x8 : 0 < S1x8.numel
  broadcasts_S1x8_S128x8 : S1x8.Broadcasts S128x8
  reduces_S128x8_S128 : S128x8.Reduces [1] S128
  shapeCasts_S128_S128x1 : S128.ShapeCasts S128x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S128x1_S128x1_0_0 : ∀ a, (![0, 0] : Fin 2 → Nat) a + S128x1.size a ≤ S128x1.size a
  h_S128x1 : 0 < S128x1.numel
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  scatter_S100000x1_S3200000x1_S3200000x1_1_0_0_1_wf : ScatterDims.WF S100000x1 S3200000x1 S3200000x1 [1] [0] [0] 1
  dot_S100000x13_S13x16_S100000x16_1_0_0_1_n_n_wf : DotDims.WF S100000x13 S13x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x8_S100000x8_1_0_0_1_n_n_wf : DotDims.WF S100000x16 S16x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x4_S100000x4_1_0_0_1_n_n_wf : DotDims.WF S100000x8 S8x4 S100000x4 [1] [0] [0] [1] [] []
  scatter_S128x4_S100000x1_S100000x4_1_0_0_1_wf : ScatterDims.WF S128x4 S100000x1 S100000x4 [1] [0] [0] 1
  scatter_S128x1_S100000x1_S100000x1_1_0_0_1_wf : ScatterDims.WF S128x1 S100000x1 S100000x1 [1] [0] [0] 1
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x13_S13x16_S100000x16_1_0_0_1_n_n : DotDims S100000x13 S13x16 S100000x16 where
  lhsContracting := [1]
  rhsContracting := [0]
  lhsNonContracting := [0]
  rhsNonContracting := [1]
  lhsBatch := []
  rhsBatch := []
  wf := dot_S100000x13_S13x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf
def scatter_S128x4_S100000x1_S100000x4_1_0_0_1 : ScatterDims S128x4 S100000x1 S100000x4 where
  updateWindowDims := [1]
  insertedWindowDims := [0]
  scatterDimsToOperandDims := [0]
  indexVectorDim := 1
  wf := scatter_S128x4_S100000x1_S100000x4_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf

abbrev win0_0 : Pipeline.Window sig grid0 :=
  Pipeline.Window.whole (Memref.whole main_v77) false false (stage0_0 0) (sem0_0 0) (Memref.isWhole_whole _) (hstage0_0 0)

abbrev win0_1 : Pipeline.Window sig grid0 :=
  Pipeline.Window.whole (Memref.whole main_arg12) false false (stage0_1 0) (sem0_1 0) (Memref.isWhole_whole _) (hstage0_1 0)

abbrev win0_2 : Pipeline.Window sig grid0 :=
  Pipeline.Window.whole (Memref.whole main_v78) false false (stage0_2 0) (sem0_2 0) (Memref.isWhole_whole _) (hstage0_2 0)

abbrev win0_3 : Pipeline.Window sig grid0 :=
  Pipeline.Window.whole (Memref.whole main_v79) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x13 : Shape := ⟨2, ![100000, 13]⟩
abbrev S2x3200000 : Shape := ⟨2, ![2, 3200000]⟩
abbrev S100000 : Shape := ⟨1, ![100000]⟩
abbrev S16x13 : Shape := ⟨2, ![16, 13]⟩
abbrev S16 : Shape := ⟨1, ![16]⟩
abbrev S8x16 : Shape := ⟨2, ![8, 16]⟩
abbrev S8 : Shape := ⟨1, ![8]⟩
abbrev S4x8 : Shape := ⟨2, ![4, 8]⟩
abbrev S4 : Shape := ⟨1, ![4]⟩
abbrev S1x8 : Shape := ⟨2, ![1, 8]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3200000x13 : Shape := ⟨2, ![3200000, 13]⟩
abbrev S100000x1 : Shape := ⟨2, ![100000, 1]⟩
abbrev S13x16 : Shape := ⟨2, ![13, 16]⟩
abbrev S100000x16 : Shape := ⟨2, ![100000, 16]⟩
abbrev S1x16 : Shape := ⟨2, ![1, 16]⟩
abbrev S3200000x16 : Shape := ⟨2, ![3200000, 16]⟩
abbrev S16x8 : Shape := ⟨2, ![16, 8]⟩
abbrev S100000x8 : Shape := ⟨2, ![100000, 8]⟩
abbrev S3200000x8 : Shape := ⟨2, ![3200000, 8]⟩
abbrev S8x4 : Shape := ⟨2, ![8, 4]⟩
abbrev S100000x4 : Shape := ⟨2, ![100000, 4]⟩
abbrev S1x4 : Shape := ⟨2, ![1, 4]⟩
abbrev S128x4 : Shape := ⟨2, ![128, 4]⟩
abbrev S128x1 : Shape := ⟨2, ![128, 1]⟩
abbrev S128x8 : Shape := ⟨2, ![128, 8]⟩
abbrev S8x1 : Shape := ⟨2, ![8, 1]⟩

abbrev nBuf : Space → Nat
  | .hbm => 201
  | .vmem => 0
  | .smem => 0
  | _ => 0

abbrev hbmTy0_0 (i : Nat) : BufTy := match i % 128 with
  | 0 => ⟨S100000x13, .f32⟩
  | 1 => ⟨S2x3200000, .i32⟩
  | 2 => ⟨S100000, .i32⟩
  | 3 => ⟨S16x13, .f32⟩
  | 4 => ⟨S16, .f32⟩
  | 5 => ⟨S16x13, .f32⟩
  | 6 => ⟨S8x16, .f32⟩
  | 7 => ⟨S8, .f32⟩
  | 8 => ⟨S8x16, .f32⟩
  | 9 => ⟨S4x8, .f32⟩
  | 10 => ⟨S4, .f32⟩
  | 11 => ⟨S4x8, .f32⟩
  | 12 => ⟨S1x8, .f32⟩
  | 13 => ⟨S1, .f32⟩
  | 14 => ⟨S1x3200000, .i32⟩
  | 15 => ⟨S3200000, .i32⟩
  | 16 => ⟨S1x3200000, .i32⟩
  | 17 => ⟨S3200000, .i32⟩
  | 18 => ⟨S_, .i32⟩
  | 19 => ⟨S3200000, .i32⟩
  | 20 => ⟨S3200000, .i1⟩
  | 21 => ⟨S_, .i32⟩
  | 22 => ⟨S3200000, .i32⟩
  | 23 => ⟨S3200000, .i32⟩
  | 24 => ⟨S3200000, .i32⟩
  | 25 => ⟨S3200000x1, .i32⟩
  | 26 => ⟨S1, .i32⟩
  | 27 => ⟨S_, .i32⟩
  | 28 => ⟨S3200000x1, .i32⟩
  | 29 => ⟨S3200000x1, .i1⟩
  | 30 => ⟨S1x1, .i32⟩
  | 31 => ⟨S3200000x1, .i32⟩
  | 32 => ⟨S3200000x1, .i1⟩
  | 33 => ⟨S3200000x1, .i1⟩
  | 34 => ⟨S_, .i1⟩
  | 35 => ⟨S3200000, .i1⟩
  | 36 => ⟨S3200000x13, .f32⟩
  | 37 => ⟨S3200000x13, .i1⟩
  | 38 => ⟨S_, .f32⟩
  | 39 => ⟨S3200000x13, .f32⟩
  | 40 => ⟨S3200000x13, .f32⟩
  | 41 => ⟨S_, .f32⟩
  | 42 => ⟨S100000x13, .f32⟩
  | 43 => ⟨S3200000x1, .i32⟩
  | 44 => ⟨S100000x13, .f32⟩
  | 45 => ⟨S_, .f32⟩
  | 46 => ⟨S3200000x1, .f32⟩
  | 47 => ⟨S_, .f32⟩
  | 48 => ⟨S100000x1, .f32⟩
  | 49 => ⟨S3200000x1, .i32⟩
  | 50 => ⟨S100000x1, .f32⟩
  | 51 => ⟨S_, .f32⟩
  | 52 => ⟨S100000x1, .f32⟩
  | 53 => ⟨S100000x1, .f32⟩
  | 54 => ⟨S100000x13, .f32⟩
  | 55 => ⟨S100000x13, .f32⟩
  | 56 => ⟨S13x16, .f32⟩
  | 57 => ⟨S100000x16, .f32⟩
  | 58 => ⟨S1x16, .f32⟩
  | 59 => ⟨S100000x16, .f32⟩
  | 60 => ⟨S100000x16, .f32⟩
  | 61 => ⟨S13x16, .f32⟩
  | 62 => ⟨S100000x16, .f32⟩
  | 63 => ⟨S100000x16, .f32⟩
  | 64 => ⟨S_, .f32⟩
  | 65 => ⟨S_, .f32⟩
  | 66 => ⟨S100000x16, .f32⟩
  | 67 => ⟨S100000x16, .i1⟩
  | 68 => ⟨S_, .f32⟩
  | 69 => ⟨S100000x16, .f32⟩
  | 70 => ⟨S100000x16, .f32⟩
  | 71 => ⟨S100000x16, .f32⟩
  | 72 => ⟨S1x3200000, .i32⟩
  | 73 => ⟨S3200000, .i32⟩
  | 74 => ⟨S1x3200000, .i32⟩
  | 75 => ⟨S3200000, .i32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S1, .i32⟩
  | 85 => ⟨S_, .i32⟩
  | 86 => ⟨S3200000x1, .i32⟩
  | 87 => ⟨S3200000x1, .i1⟩
  | 88 => ⟨S1x1, .i32⟩
  | 89 => ⟨S3200000x1, .i32⟩
  | 90 => ⟨S3200000x1, .i1⟩
  | 91 => ⟨S3200000x1, .i1⟩
  | 92 => ⟨S_, .i1⟩
  | 93 => ⟨S3200000, .i1⟩
  | 94 => ⟨S3200000x16, .f32⟩
  | 95 => ⟨S3200000x16, .i1⟩
  | 96 => ⟨S_, .f32⟩
  | 97 => ⟨S3200000x16, .f32⟩
  | 98 => ⟨S3200000x16, .f32⟩
  | 99 => ⟨S_, .f32⟩
  | 100 => ⟨S100000x16, .f32⟩
  | 101 => ⟨S3200000x1, .i32⟩
  | 102 => ⟨S100000x16, .f32⟩
  | 103 => ⟨S_, .f32⟩
  | 104 => ⟨S3200000x1, .f32⟩
  | 105 => ⟨S_, .f32⟩
  | 106 => ⟨S100000x1, .f32⟩
  | 107 => ⟨S3200000x1, .i32⟩
  | 108 => ⟨S100000x1, .f32⟩
  | 109 => ⟨S_, .f32⟩
  | 110 => ⟨S100000x1, .f32⟩
  | 111 => ⟨S100000x1, .f32⟩
  | 112 => ⟨S100000x16, .f32⟩
  | 113 => ⟨S100000x16, .f32⟩
  | 114 => ⟨S16x8, .f32⟩
  | 115 => ⟨S100000x8, .f32⟩
  | 116 => ⟨S1x8, .f32⟩
  | 117 => ⟨S100000x8, .f32⟩
  | 118 => ⟨S100000x8, .f32⟩
  | 119 => ⟨S16x8, .f32⟩
  | 120 => ⟨S100000x8, .f32⟩
  | 121 => ⟨S100000x8, .f32⟩
  | 122 => ⟨S_, .f32⟩
  | 123 => ⟨S_, .f32⟩
  | 124 => ⟨S100000x8, .f32⟩
  | 125 => ⟨S100000x8, .i1⟩
  | 126 => ⟨S_, .f32⟩
  | 127 => ⟨S100000x8, .f32⟩
  | _ => ⟨S100000x13, .f32⟩

abbrev hbmTy0_1 (i : Nat) : BufTy := match i % 128 with
  | 0 => ⟨S100000x8, .f32⟩
  | 1 => ⟨S100000x8, .f32⟩
  | 2 => ⟨S1x3200000, .i32⟩
  | 3 => ⟨S3200000, .i32⟩
  | 4 => ⟨S1x3200000, .i32⟩
  | 5 => ⟨S3200000, .i32⟩
  | 6 => ⟨S_, .i32⟩
  | 7 => ⟨S3200000, .i32⟩
  | 8 => ⟨S3200000, .i1⟩
  | 9 => ⟨S_, .i32⟩
  | 10 => ⟨S3200000, .i32⟩
  | 11 => ⟨S3200000, .i32⟩
  | 12 => ⟨S3200000, .i32⟩
  | 13 => ⟨S3200000x1, .i32⟩
  | 14 => ⟨S1, .i32⟩
  | 15 => ⟨S_, .i32⟩
  | 16 => ⟨S3200000x1, .i32⟩
  | 17 => ⟨S3200000x1, .i1⟩
  | 18 => ⟨S1x1, .i32⟩
  | 19 => ⟨S3200000x1, .i32⟩
  | 20 => ⟨S3200000x1, .i1⟩
  | 21 => ⟨S3200000x1, .i1⟩
  | 22 => ⟨S_, .i1⟩
  | 23 => ⟨S3200000, .i1⟩
  | 24 => ⟨S3200000x8, .f32⟩
  | 25 => ⟨S3200000x8, .i1⟩
  | 26 => ⟨S_, .f32⟩
  | 27 => ⟨S3200000x8, .f32⟩
  | 28 => ⟨S3200000x8, .f32⟩
  | 29 => ⟨S_, .f32⟩
  | 30 => ⟨S100000x8, .f32⟩
  | 31 => ⟨S3200000x1, .i32⟩
  | 32 => ⟨S100000x8, .f32⟩
  | 33 => ⟨S_, .f32⟩
  | 34 => ⟨S3200000x1, .f32⟩
  | 35 => ⟨S_, .f32⟩
  | 36 => ⟨S100000x1, .f32⟩
  | 37 => ⟨S3200000x1, .i32⟩
  | 38 => ⟨S100000x1, .f32⟩
  | 39 => ⟨S_, .f32⟩
  | 40 => ⟨S100000x1, .f32⟩
  | 41 => ⟨S100000x1, .f32⟩
  | 42 => ⟨S100000x8, .f32⟩
  | 43 => ⟨S100000x8, .f32⟩
  | 44 => ⟨S8x4, .f32⟩
  | 45 => ⟨S100000x4, .f32⟩
  | 46 => ⟨S1x4, .f32⟩
  | 47 => ⟨S100000x4, .f32⟩
  | 48 => ⟨S100000x4, .f32⟩
  | 49 => ⟨S8x4, .f32⟩
  | 50 => ⟨S100000x4, .f32⟩
  | 51 => ⟨S100000x4, .f32⟩
  | 52 => ⟨S_, .f32⟩
  | 53 => ⟨S128x4, .f32⟩
  | 54 => ⟨S100000x1, .i32⟩
  | 55 => ⟨S128x4, .f32⟩
  | 56 => ⟨S_, .f32⟩
  | 57 => ⟨S100000x1, .f32⟩
  | 58 => ⟨S_, .f32⟩
  | 59 => ⟨S128x1, .f32⟩
  | 60 => ⟨S100000x1, .i32⟩
  | 61 => ⟨S128x1, .f32⟩
  | 62 => ⟨S_, .f32⟩
  | 63 => ⟨S128x1, .f32⟩
  | 64 => ⟨S128x1, .f32⟩
  | 65 => ⟨S128x4, .f32⟩
  | 66 => ⟨S128x4, .f32⟩
  | 67 => ⟨S128x8, .f32⟩
  | 68 => ⟨S8x1, .f32⟩
  | 69 => ⟨S128x1, .f32⟩
  | 70 => ⟨S1x1, .f32⟩
  | 71 => ⟨S128x1, .f32⟩
  | 72 => ⟨S128x1, .f32⟩
  | _ => ⟨S100000x13, .f32⟩

abbrev hbmTy (i : Nat) : BufTy := match i / 128 with
  | 0 => hbmTy0_0 i
  | 1 => hbmTy0_1 i
  | _ => ⟨S100000x13, .f32⟩

abbrev bufTy : (tb : Table) → Fin (tcTables nBuf tb) → BufTy
  | .hbm, ⟨i, _⟩ => hbmTy i
  | _, _ => ⟨S100000x13, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v4 : Ref sig .tc := ⟨.hbm, 40, rfl⟩
abbrev main_cst : Ref sig .tc := ⟨.hbm, 41, rfl⟩
abbrev main_v5 : Ref sig .tc := ⟨.hbm, 42, rfl⟩
abbrev main_v6 : Ref sig .tc := ⟨.hbm, 43, rfl⟩
abbrev main_v7 : Ref sig .tc := ⟨.hbm, 44, rfl⟩
abbrev main_cst_0 : Ref sig .tc := ⟨.hbm, 45, rfl⟩
abbrev main_v8 : Ref sig .tc := ⟨.hbm, 46, rfl⟩
abbrev main_cst_1 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst_2 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_3 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v29 : Ref sig .tc := ⟨.hbm, 98, rfl⟩
abbrev main_cst_4 : Ref sig .tc := ⟨.hbm, 99, rfl⟩
abbrev main_v30 : Ref sig .tc := ⟨.hbm, 100, rfl⟩
abbrev main_v31 : Ref sig .tc := ⟨.hbm, 101, rfl⟩
abbrev main_v32 : Ref sig .tc := ⟨.hbm, 102, rfl⟩
abbrev main_cst_5 : Ref sig .tc := ⟨.hbm, 103, rfl⟩
abbrev main_v33 : Ref sig .tc := ⟨.hbm, 104, rfl⟩
abbrev main_cst_6 : Ref sig .tc := ⟨.hbm, 105, rfl⟩
abbrev main_v34 : Ref sig .tc := ⟨.hbm, 106, rfl⟩
abbrev main_v35 : Ref sig .tc := ⟨.hbm, 107, rfl⟩
abbrev main_v36 : Ref sig .tc := ⟨.hbm, 108, rfl⟩
abbrev main_cst_7 : Ref sig .tc := ⟨.hbm, 109, rfl⟩
abbrev main_v37 : Ref sig .tc := ⟨.hbm, 110, rfl⟩
abbrev main_v38 : Ref sig .tc := ⟨.hbm, 111, rfl⟩
abbrev main_v39 : Ref sig .tc := ⟨.hbm, 112, rfl⟩
abbrev main_v40 : Ref sig .tc := ⟨.hbm, 113, rfl⟩
abbrev main_v41 : Ref sig .tc := ⟨.hbm, 114, rfl⟩
abbrev main_v42 : Ref sig .tc := ⟨.hbm, 115, rfl⟩
abbrev main_v43 : Ref sig .tc := ⟨.hbm, 116, rfl⟩
abbrev main_v44 : Ref sig .tc := ⟨.hbm, 117, rfl⟩
abbrev main_v45 : Ref sig .tc := ⟨.hbm, 118, rfl⟩
abbrev main_v46 : Ref sig .tc := ⟨.hbm, 119, rfl⟩
abbrev main_v47 : Ref sig .tc := ⟨.hbm, 120, rfl⟩
abbrev main_v48 : Ref sig .tc := ⟨.hbm, 121, rfl⟩
abbrev main_cst_8 : Ref sig .tc := ⟨.hbm, 122, rfl⟩
abbrev main_call3_cst : Ref sig .tc := ⟨.hbm, 123, rfl⟩
abbrev main_call3_v0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_call4_c : Ref sig .tc := ⟨.hbm, 134, rfl⟩
abbrev main_call4_v0 : Ref sig .tc := ⟨.hbm, 135, rfl⟩
abbrev main_call4_v1 : Ref sig .tc := ⟨.hbm, 136, rfl⟩
abbrev main_call4_c_0 : Ref sig .tc := ⟨.hbm, 137, rfl⟩
abbrev main_call4_v2 : Ref sig .tc := ⟨.hbm, 138, rfl⟩
abbrev main_call4_v3 : Ref sig .tc := ⟨.hbm, 139, rfl⟩
abbrev main_call4_v4 : Ref sig .tc := ⟨.hbm, 140, rfl⟩
abbrev main_call4_v5 : Ref sig .tc := ⟨.hbm, 141, rfl⟩
abbrev main_call4_c_1 : Ref sig .tc := ⟨.hbm, 142, rfl⟩
abbrev main_call4_c_2 : Ref sig .tc := ⟨.hbm, 143, rfl⟩
abbrev main_call4_v6 : Ref sig .tc := ⟨.hbm, 144, rfl⟩
abbrev main_call4_v7 : Ref sig .tc := ⟨.hbm, 145, rfl⟩
abbrev main_call4_v8 : Ref sig .tc := ⟨.hbm, 146, rfl⟩
abbrev main_call4_v9 : Ref sig .tc := ⟨.hbm, 147, rfl⟩
abbrev main_call4_v10 : Ref sig .tc := ⟨.hbm, 148, rfl⟩
abbrev main_call4_v11 : Ref sig .tc := ⟨.hbm, 149, rfl⟩
abbrev main_call4_c_3 : Ref sig .tc := ⟨.hbm, 150, rfl⟩
abbrev main_call4_v12 : Ref sig .tc := ⟨.hbm, 151, rfl⟩
abbrev main_call4_v13 : Ref sig .tc := ⟨.hbm, 152, rfl⟩
abbrev main_call4_v14 : Ref sig .tc := ⟨.hbm, 153, rfl⟩
abbrev main_call4_cst : Ref sig .tc := ⟨.hbm, 154, rfl⟩
abbrev main_call4_v15 : Ref sig .tc := ⟨.hbm, 155, rfl⟩
abbrev main_v54 : Ref sig .tc := ⟨.hbm, 156, rfl⟩
abbrev main_cst_9 : Ref sig .tc := ⟨.hbm, 157, rfl⟩
abbrev main_v55 : Ref sig .tc := ⟨.hbm, 158, rfl⟩
abbrev main_v56 : Ref sig .tc := ⟨.hbm, 159, rfl⟩
abbrev main_v57 : Ref sig .tc := ⟨.hbm, 160, rfl⟩
abbrev main_cst_10 : Ref sig .tc := ⟨.hbm, 161, rfl⟩
abbrev main_v58 : Ref sig .tc := ⟨.hbm, 162, rfl⟩
abbrev main_cst_11 : Ref sig .tc := ⟨.hbm, 163, rfl⟩
abbrev main_v59 : Ref sig .tc := ⟨.hbm, 164, rfl⟩
abbrev main_v60 : Ref sig .tc := ⟨.hbm, 165, rfl⟩
abbrev main_v61 : Ref sig .tc := ⟨.hbm, 166, rfl⟩
abbrev main_cst_12 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_v65 : Ref sig .tc := ⟨.hbm, 171, rfl⟩
abbrev main_v66 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_cst_13 : Ref sig .tc := ⟨.hbm, 180, rfl⟩
abbrev main_v74 : Ref sig .tc := ⟨.hbm, 181, rfl⟩
abbrev main_v75 : Ref sig .tc := ⟨.hbm, 182, rfl⟩
abbrev main_v76 : Ref sig .tc := ⟨.hbm, 183, rfl⟩
abbrev main_cst_14 : Ref sig .tc := ⟨.hbm, 184, rfl⟩
abbrev main_v77 : Ref sig .tc := ⟨.hbm, 185, rfl⟩
abbrev main_cst_15 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_cst_16 : Ref sig .tc := ⟨.hbm, 190, rfl⟩
abbrev main_v81 : Ref sig .tc := ⟨.hbm, 191, rfl⟩
abbrev main_v82 : Ref sig .tc := ⟨.hbm, 192, rfl⟩
abbrev main_v83 : Ref sig .tc := ⟨.hbm, 193, rfl⟩
abbrev main_v84 : Ref sig .tc := ⟨.hbm, 194, rfl⟩
abbrev main_v85 : Ref sig .tc := ⟨.hbm, 195, rfl⟩
abbrev main_v86 : Ref sig .tc := ⟨.hbm, 196, rfl⟩
abbrev main_v87 : Ref sig .tc := ⟨.hbm, 197, rfl⟩
abbrev main_v88 : Ref sig .tc := ⟨.hbm, 198, rfl⟩
abbrev main_v89 : Ref sig .tc := ⟨.hbm, 199, rfl⟩
abbrev main_v90 : Ref sig .tc := ⟨.hbm, 200, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x13_0 : S3200000.BroadcastsInDim S3200000x13 (![0] : Fin 1 → Fin S3200000x13.rank)
  bcast_S_S3200000x13 : S_.BroadcastsInDim S3200000x13 (![] : Fin 0 → Fin S3200000x13.rank)
  bcast_S_S100000x13 : S_.BroadcastsInDim S100000x13 (![] : Fin 0 → Fin S100000x13.rank)
  bcast_S_S100000x1 : S_.BroadcastsInDim S100000x1 (![] : Fin 0 → Fin S100000x1.rank)
  bcast_S100000x1_S100000x13_0_1 : S100000x1.BroadcastsInDim S100000x13 (![0, 1] : Fin 2 → Fin S100000x13.rank)
  transposes_S16x13_S13x16_1_0 : S16x13.Transposes [1, 0] S13x16
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S3200000_S3200000x16_0 : S3200000.BroadcastsInDim S3200000x16 (![0] : Fin 1 → Fin S3200000x16.rank)
  bcast_S_S3200000x16 : S_.BroadcastsInDim S3200000x16 (![] : Fin 0 → Fin S3200000x16.rank)
  bcast_S100000x1_S100000x16_0_1 : S100000x1.BroadcastsInDim S100000x16 (![0, 1] : Fin 2 → Fin S100000x16.rank)
  transposes_S8x16_S16x8_1_0 : S8x16.Transposes [1, 0] S16x8
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S_S100000x8 : S_.BroadcastsInDim S100000x8 (![] : Fin 0 → Fin S100000x8.rank)
  bcast_S3200000_S3200000x8_0 : S3200000.BroadcastsInDim S3200000x8 (![0] : Fin 1 → Fin S3200000x8.rank)
  bcast_S_S3200000x8 : S_.BroadcastsInDim S3200000x8 (![] : Fin 0 → Fin S3200000x8.rank)
  bcast_S100000x1_S100000x8_0_1 : S100000x1.BroadcastsInDim S100000x8 (![0, 1] : Fin 2 → Fin S100000x8.rank)
  transposes_S4x8_S8x4_1_0 : S4x8.Transposes [1, 0] S8x4
  bcast_S4_S1x4_1 : S4.BroadcastsInDim S1x4 (![1] : Fin 1 → Fin S1x4.rank)
  bcast_S1x4_S100000x4_0_1 : S1x4.BroadcastsInDim S100000x4 (![0, 1] : Fin 2 → Fin S100000x4.rank)
  bcast_S_S128x4 : S_.BroadcastsInDim S128x4 (![] : Fin 0 → Fin S128x4.rank)
  bcast_S100000_S100000x1_0 : S100000.BroadcastsInDim S100000x1 (![0] : Fin 1 → Fin S100000x1.rank)
  bcast_S_S128x1 : S_.BroadcastsInDim S128x1 (![] : Fin 0 → Fin S128x1.rank)
  bcast_S128x1_S128x4_0_1 : S128x1.BroadcastsInDim S128x4 (![0, 1] : Fin 2 → Fin S128x4.rank)
  concatenates_S128x4_S128x4_S128x8_d1 : Shape.Concatenates [S128x4, S128x4] S128x8 1
  transposes_S1x8_S8x1_1_0 : S1x8.Transposes [1, 0] S8x1
  bcast_S1x1_S128x1_0_1 : S1x1.BroadcastsInDim S128x1 (![0, 1] : Fin 2 → Fin S128x1.rank)
  gather_S100000x13_S3200000x1_S3200000x13_1_0_n_n_0_1_113_wf : GatherDims.WF S100000x13 S3200000x1 S3200000x13 [1] [0] [] [0] [] 1 ![1, 13]
  scatter_S100000x13_S3200000x1_S3200000x13_1_0_0_1_wf : ScatterDims.WF S100000x13 S3200000x1 S3200000x13 [1] [0] [0] 1
  scatter_S100000x1_S3200000x1_S3200000x1_1_0_0_1_wf : ScatterDims.WF S100000x1 S3200000x1 S3200000x1 [1] [0] [0] 1
  dot_S100000x13_S13x16_S100000x16_1_0_0_1_n_n_wf : DotDims.WF S100000x13 S13x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x16_S16x8_S100000x8_1_0_0_1_n_n_wf : DotDims.WF S100000x16 S16x8 S100000x8 [1] [0] [0] [1] [] []
  gather_S100000x8_S3200000x1_S3200000x8_1_0_n_n_0_1_18_wf : GatherDims.WF S100000x8 S3200000x1 S3200000x8 [1] [0] [] [0] [] 1 ![1, 8]
  scatter_S100000x8_S3200000x1_S3200000x8_1_0_0_1_wf : ScatterDims.WF S100000x8 S3200000x1 S3200000x8 [1] [0] [0] 1
  dot_S100000x8_S8x4_S100000x4_1_0_0_1_n_n_wf : DotDims.WF S100000x8 S8x4 S100000x4 [1] [0] [0] [1] [] []
  scatter_S128x4_S100000x1_S100000x4_1_0_0_1_wf : ScatterDims.WF S128x4 S100000x1 S100000x4 [1] [0] [0] 1
  scatter_S128x1_S100000x1_S100000x1_1_0_0_1_wf : ScatterDims.WF S128x1 S100000x1 S100000x1 [1] [0] [0] 1
  dot_S128x8_S8x1_S128x1_1_0_0_1_n_n_wf : DotDims.WF S128x8 S8x1 S128x1 [1] [0] [0] [1] [] []

variable [Facts₀]

def gather_S100000x13_S3200000x1_S3200000x13_1_0_n_n_0_1_113 : GatherDims S100000x13 S3200000x1 S3200000x13 where
  offsetDims := [1]
  collapsedSliceDims := [0]
  operandBatchingDims := []
  startIndicesBatchingDims := []
  startIndexMap := [0]
  indexVectorDim := 1
  sliceSizes := ![1, 13]
  wf := gather_S100000x13_S3200000x1_S3200000x13_1_0_n_n_0_1_113_wf
def scatter_S100000x13_S3200000x1_S3200000x13_1_0_0_1 : ScatterDims S100000x13 S3200000x1 S3200000x13 where
  updateWindowDims := [1]
  insertedWindowDims := [0]
  scatterDimsToOperandDims := [0]
  indexVectorDim := 1
  wf := scatter_S100000x13_S3200000x1_S3200000x13_1_0_0_1_wf
def scatter_S100000x1_S3200000x1_S3200000x1_1_0_0_1 : ScatterDims S100000x1 S3200000x1 S3200000x1 where
  updateWindowDims := [1]
  insertedWindowDims := [0]
  scatterDimsToOperandDims := [0]
  indexVectorDim := 1
  wf := scatter_S100000x1_S3200000x1_S3200000x1_1_0_0_1_wf
def dot_S100000x13_S13x16_S100000x16_1_0_0_1_n_n : DotDims S100000x13 S13x16 S100000x16 where
  lhsContracting := [1]
  rhsContracting := [0]
  lhsNonContracting := [0]
  rhsNonContracting := [1]
  lhsBatch := []
  rhsBatch := []
  wf := dot_S100000x13_S13x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def scatter_S100000x8_S3200000x1_S3200000x8_1_0_0_1 : ScatterDims S100000x8 S3200000x1 S3200000x8 where
  updateWindowDims := [1]
  insertedWindowDims := [0]
  scatterDimsToOperandDims := [0]
  indexVectorDim := 1
  wf := scatter_S100000x8_S3200000x1_S3200000x8_1_0_0_1_wf
def dot_S100000x8_S8x4_S100000x4_1_0_0_1_n_n : DotDims S100000x8 S8x4 S100000x4 where
  lhsContracting := [1]
  rhsContracting := [0]
  lhsNonContracting := [0]
  rhsNonContracting := [1]
  lhsBatch := []
  rhsBatch := []
  wf := dot_S100000x8_S8x4_S100000x4_1_0_0_1_n_n_wf
def scatter_S128x4_S100000x1_S100000x4_1_0_0_1 : ScatterDims S128x4 S100000x1 S100000x4 where
  updateWindowDims := [1]
  insertedWindowDims := [0]
  scatterDimsToOperandDims := [0]
  indexVectorDim := 1
  wf := scatter_S128x4_S100000x1_S100000x4_1_0_0_1_wf
def scatter_S128x1_S100000x1_S100000x1_1_0_0_1 : ScatterDims S128x1 S100000x1 S100000x1 where
  updateWindowDims := [1]
  insertedWindowDims := [0]
  scatterDimsToOperandDims := [0]
  indexVectorDim := 1
  wf := scatter_S128x1_S100000x1_S100000x1_1_0_0_1_wf
def dot_S128x8_S8x1_S128x1_1_0_0_1_n_n : DotDims S128x8 S8x1 S128x1 where
  lhsContracting := [1]
  rhsContracting := [0]
  lhsNonContracting := [0]
  rhsNonContracting := [1]
  lhsBatch := []
  rhsBatch := []
  wf := dot_S128x8_S8x1_S128x1_1_0_0_1_n_n_wf

class Facts : Prop extends Facts₀ where

variable [Facts]
-- ==== Proof.LibSeqChain.lean ====
/-
  A host program as a list of stretches of operations.

  A host program that is only tensor operations runs as one straight line, but it is printed, and best read, as
  several stretches: the lines of the entry function between two calls, and the body of each function it calls,
  spliced in where the call stands. Three facts let a proof work stretch by stretch and still speak of the one line.

  * The stretches run one after the other are their concatenation run as one line.
  * A property that holds of every operation of every stretch holds of every operation of the concatenation.
  * What the buffers hold after the concatenation is what they hold after the first stretch, then the rest; and a
    buffer that none of a stretch's operations writes is left as it was by that stretch.

  Nothing here mentions a program.
-/
import Idealize.ShloMosaic.Lib.StableHlo.Run
import Idealize.ShloMosaic.Lib.Pipeline.Regions
import Idealize.ShloMosaic.Lib.Pipeline.Frame

noncomputable section

namespace Cert.SeqChain

open Idealize.ShloMosaic Idealize.ShloMosaic.StableHlo Idealize.SL.Sem

variable {nD : Nat} {τ : Topo} {sig : RefSig} {Val : EltTy → Type} {Λ : Labels}

/-- Stretches run in order are their concatenation run as one straight line. -/
theorem chain_map_seq (ls : List (List (HloOp τ sig Val))) :
    Pipeline.chain (ls.map fun l => (seq l : Prog (TpuEff nD τ sig Val Λ .tc) PUnit)) = seq ls.flatten := by
  induction ls with
  | nil => rfl
  | cons l ls ih => rw [List.map_cons, Pipeline.chain_cons, ih, List.flatten_cons, seq_append]

/-- What holds of every operation of every stretch holds of every operation of the concatenation. -/
theorem forall_flatten {α : Type} {p : α → Prop} (ls : List (List α)) (h : ls.Forall fun l => l.Forall p) :
    ls.flatten.Forall p :=
  List.forall_iff_forall_mem.mpr fun x hx => by
    obtain ⟨l, hl, hxl⟩ := List.mem_flatten.mp hx
    exact List.forall_iff_forall_mem.mp (List.forall_iff_forall_mem.mp h l hl) x hxl

/-- The buffers after a first stretch and then the rest. -/
theorem after_flatten_cons (l : List (HloOp τ sig Val)) (ls : List (List (HloOp τ sig Val))) (V : Valuation τ sig Val) :
    after (List.flatten (l :: ls)) V = after ls.flatten (after l V) := by
  rw [List.flatten_cons, after_append]

/-- The buffers after no stretch at all. -/
theorem after_flatten_nil (V : Valuation τ sig Val) : after (List.flatten ([] : List (List (HloOp τ sig Val)))) V = V := rfl

/-- A reference outside the list of those a stretch writes is left by the stretch as it was. -/
theorem keep {W : List (Ref sig .tc)} (ops : List (HloOp τ sig Val)) (V : Valuation τ sig Val)
    (hW : ops.Forall fun op => op.writes ⊆ (W.map (Proc.devRef (τ := τ) .tc)).toFinset) (r : Ref sig .tc) (hr : r ∉ W) :
    after ops V (Proc.devRef .tc r) = V (Proc.devRef .tc r) :=
  after_of_writes_sub ops V hW hr

end Cert.SeqChain

end
-- ==== Proof.KernelHost.lean ====
/-
  The kernel program's host side, stretch by stretch.

  Before its one launch the kernel program runs the same graph network as the reference on the host: nine stretches
  of tensor operations (the edge list sliced once; then, three times, a gather, a layer, and after the first two
  layers a leaky threshold; the third layer runs on into the pooling and the reshaping of the classifier's bias).
  For each stretch the buffers it writes are listed, so that every other buffer is known to pass through it
  unchanged, and the buffers' contents after each stretch are named.
-/
import proofs.«138927_g26774826123929_cont_8to1_2001_3_alg».proof.Proof.Gen.KernelIdeal.Launch
import proofs.«138927_g26774826123929_cont_8to1_2001_3_alg».proof.Proof.LibSeqChain
import Idealize.ShloMosaic.Lib.StableHlo.Run

set_option maxRecDepth 8192

noncomputable section

namespace Cert.KernelIdeal.HostVal

open Cert.KernelIdeal Cert.KernelIdeal.Gen Idealize.ShloMosaic Idealize.ShloMosaic.TcCoe Idealize.SL.Sem Idealize.ShloMosaic.StableHlo

variable {F : FTy → Type} [FloatOps F]

/-- The buffers the operations of `hostOps0` write. -/
abbrev wr0 : List (Ref sig .tc) := [main_v0, main_v1, main_v2, main_v3]
theorem wr0_writes : (hostOps0 : List (HloOp τ sig (Elt F))).Forall fun op => op.writes ⊆ (wr0.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_1` write. -/
abbrev wr0_1 : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem wr0_1_writes : (hostOps0_1 : List (HloOp τ sig (Elt F))).Forall fun op => op.writes ⊆ (wr0_1.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_2` write. -/
abbrev wr0_2 : List (Ref sig .tc) := [main_cst, main_v5, main_v6, main_v7, main_cst_0, main_v8, main_cst_1, main_v9, main_v10, main_v11, main_cst_2, main_v12, main_v13, main_v14, main_v15, main_v16, main_v17, main_v18, main_v19, main_v20, main_v21, main_v22, main_v23, main_cst_3]
theorem wr0_2_writes : (hostOps0_2 : List (HloOp τ sig (Elt F))).Forall fun op => op.writes ⊆ (wr0_2.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_3` write. -/
abbrev wr0_3 : List (Ref sig .tc) := [main_call1_cst, main_call1_v0, main_call1_v1, main_call1_v2, main_call1_v3, main_call1_v4, main_v24]
theorem wr0_3_writes : (hostOps0_3 : List (HloOp τ sig (Elt F))).Forall fun op => op.writes ⊆ (wr0_3.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_4` write. -/
abbrev wr0_4 : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v25]
theorem wr0_4_writes : (hostOps0_4 : List (HloOp τ sig (Elt F))).Forall fun op => op.writes ⊆ (wr0_4.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_5` write. -/
abbrev wr0_5 : List (Ref sig .tc) := [main_cst_4, main_v26, main_v27, main_v28, main_cst_5, main_v29, main_cst_6, main_v30, main_v31, main_v32, main_cst_7, main_v33, main_v34, main_v35, main_v36, main_v37, main_v38, main_v39, main_v40, main_v41, main_v42, main_v43, main_v44, main_cst_8]
theorem wr0_5_writes : (hostOps0_5 : List (HloOp τ sig (Elt F))).Forall fun op => op.writes ⊆ (wr0_5.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_6` write. -/
abbrev wr0_6 : List (Ref sig .tc) := [main_call3_cst, main_call3_v0, main_call3_v1, main_call3_v2, main_call3_v3, main_call3_v4, main_v45]
theorem wr0_6_writes : (hostOps0_6 : List (HloOp τ sig (Elt F))).Forall fun op => op.writes ⊆ (wr0_6.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_7` write. -/
abbrev wr0_7 : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v46]
theorem wr0_7_writes : (hostOps0_7 : List (HloOp τ sig (Elt F))).Forall fun op => op.writes ⊆ (wr0_7.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers the operations of `hostOps0_8` write. -/
abbrev wr0_8 : List (Ref sig .tc) := [main_cst_9, main_v47, main_v48, main_v49, main_cst_10, main_v50, main_cst_11, main_v51, main_v52, main_v53, main_cst_12, main_v54, main_v55, main_v56, main_v57, main_v58, main_v59, main_v60, main_v61, main_v62, main_v63, main_v64, main_v65, main_cst_13, main_v66, main_v67, main_v68, main_cst_14, main_v69, main_cst_15, main_v70, main_v71, main_v72, main_cst_16, main_v73, main_v74, main_v75, main_v76, main_v77, main_v78]
theorem wr0_8_writes : (hostOps0_8 : List (HloOp τ sig (Elt F))).Forall fun op => op.writes ⊆ (wr0_8.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-! ## The buffers after each stretch

`valJ V0` is what the buffers hold once the first `J` stretches have run from contents `V0`. A buffer that stretch `J`
does not write holds after it what it held before (`valJ_keep`): this is how a value computed early, or an argument,
is carried unchanged to the stretch that reads it. -/

/-- The buffers after the first 1 stretch. -/
def val1 (V0 : Valuation τ sig (Elt F)) : Valuation τ sig (Elt F) := after hostOps0 (V0)
theorem val1_keep (V0 : Valuation τ sig (Elt F)) (r : Ref sig .tc) (h : r ∉ wr0) :
    val1 V0 (no_index (Proc.devRef .tc r)) = V0 (Proc.devRef .tc r) :=
  Cert.SeqChain.keep hostOps0 _ wr0_writes r h
/-- The buffers after the first 2 stretches. -/
def val2 (V0 : Valuation τ sig (Elt F)) : Valuation τ sig (Elt F) := after hostOps0_1 (val1 V0)
theorem val2_keep (V0 : Valuation τ sig (Elt F)) (r : Ref sig .tc) (h : r ∉ wr0_1) :
    val2 V0 (no_index (Proc.devRef .tc r)) = val1 V0 (Proc.devRef .tc r) :=
  Cert.SeqChain.keep hostOps0_1 _ wr0_1_writes r h
/-- The buffers after the first 3 stretches. -/
def val3 (V0 : Valuation τ sig (Elt F)) : Valuation τ sig (Elt F) := after hostOps0_2 (val2 V0)
theorem val3_keep (V0 : Valuation τ sig (Elt F)) (r : Ref sig .tc) (h : r ∉ wr0_2) :
    val3 V0 (no_index (Proc.devRef .tc r)) = val2 V0 (Proc.devRef .tc r) :=
  Cert.SeqChain.keep hostOps0_2 _ wr0_2_writes r h
/-- The buffers after the first 4 stretches. -/
def val4 (V0 : Valuation τ sig (Elt F)) : Valuation τ sig (Elt F) := after hostOps0_3 (val3 V0)
theorem val4_keep (V0 : Valuation τ sig (Elt F)) (r : Ref sig .tc) (h : r ∉ wr0_3) :
    val4 V0 (no_index (Proc.devRef .tc r)) = val3 V0 (Proc.devRef .tc r) :=
  Cert.SeqChain.keep hostOps0_3 _ wr0_3_writes r h
/-- The buffers after the first 5 stretches. -/
def val5 (V0 : Valuation τ sig (Elt F)) : Valuation τ sig (Elt F) := after hostOps0_4 (val4 V0)
theorem val5_keep (V0 : Valuation τ sig (Elt F)) (r : Ref sig .tc) (h : r ∉ wr0_4) :
    val5 V0 (no_index (Proc.devRef .tc r)) = val4 V0 (Proc.devRef .tc r) :=
  Cert.SeqChain.keep hostOps0_4 _ wr0_4_writes r h
/-- The buffers after the first 6 stretches. -/
def val6 (V0 : Valuation τ sig (Elt F)) : Valuation τ sig (Elt F) := after hostOps0_5 (val5 V0)
theorem val6_keep (V0 : Valuation τ sig (Elt F)) (r : Ref sig .tc) (h : r ∉ wr0_5) :
    val6 V0 (no_index (Proc.devRef .tc r)) = val5 V0 (Proc.devRef .tc r) :=
  Cert.SeqChain.keep hostOps0_5 _ wr0_5_writes r h
/-- The buffers after the first 7 stretches. -/
def val7 (V0 : Valuation τ sig (Elt F)) : Valuation τ sig (Elt F) := after hostOps0_6 (val6 V0)
theorem val7_keep (V0 : Valuation τ sig (Elt F)) (r : Ref sig .tc) (h : r ∉ wr0_6) :
    val7 V0 (no_index (Proc.devRef .tc r)) = val6 V0 (Proc.devRef .tc r) :=
  Cert.SeqChain.keep hostOps0_6 _ wr0_6_writes r h
/-- The buffers after the first 8 stretches. -/
def val8 (V0 : Valuation τ sig (Elt F)) : Valuation τ sig (Elt F) := after hostOps0_7 (val7 V0)
theorem val8_keep (V0 : Valuation τ sig (Elt F)) (r : Ref sig .tc) (h : r ∉ wr0_7) :
    val8 V0 (no_index (Proc.devRef .tc r)) = val7 V0 (Proc.devRef .tc r) :=
  Cert.SeqChain.keep hostOps0_7 _ wr0_7_writes r h
/-- The buffers after the first 9 stretches. -/
def val9 (V0 : Valuation τ sig (Elt F)) : Valuation τ sig (Elt F) := after hostOps0_8 (val8 V0)
theorem val9_keep (V0 : Valuation τ sig (Elt F)) (r : Ref sig .tc) (h : r ∉ wr0_8) :
    val9 V0 (no_index (Proc.devRef .tc r)) = val8 V0 (Proc.devRef .tc r) :=
  Cert.SeqChain.keep hostOps0_8 _ wr0_8_writes r h

/-- The whole line's fold is the last of these. -/
theorem after_all (V0 : Valuation τ sig (Elt F)) : after (List.flatten [hostOps0, hostOps0_1, hostOps0_2, hostOps0_3, hostOps0_4, hostOps0_5, hostOps0_6, hostOps0_7, hostOps0_8]) V0 = val9 V0 := by
  simp only [val1, val2, val3, val4, val5, val6, val7, val8, val9, Cert.SeqChain.after_flatten_cons, Cert.SeqChain.after_flatten_nil]

end Cert.KernelIdeal.HostVal

end
-- ==== Proof.KernelOut.lean ====
/-
  What the kernel program's result array holds after its run.

  The launch has one grid point and every window is its whole array at block index 0: the pooled array `[128, 8]`,
  the classifier's weight row `[1, 8]`, the bias as a `[1, 1]` array, and the result `[128, 1]`. So each input block
  is the whole array as the launch finds it, the one point writes back the body's value of those three arrays, and
  that block is the whole result array: after the run the result is the body's function of the three arrays.
  The pooled array and the bias are themselves values the host side computed before the launch: they are read at
  the last of the host stretches' contents, where the bias is the `[1]` argument reshaped to `[1, 1]`.
-/
import proofs.«138927_g26774826123929_cont_8to1_2001_3_alg».proof.Proof.Gen.KernelIdeal.Value
import proofs.«138927_g26774826123929_cont_8to1_2001_3_alg».proof.Proof.KernelHost
import Idealize.ShloMosaic.Lib.Pipeline.Value

noncomputable section

namespace Cert.KernelIdeal.OutValue

open Cert.KernelIdeal Cert.KernelIdeal.Gen Cert.KernelIdeal.Value Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- At the one grid point every window's block index is 0 on both axes. -/
theorem idx_zero : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-- The pooled array's block at the point is the whole pooled array. -/
theorem block_pooled (c : Dev nD) (t : Fin cfg0.N) : iblk m c 0 t = V m c main_v77 := by
  obtain ⟨e0, e1, -, -, -, -, -, -⟩ := idx_zero t
  funext j
  show V m c main_v77 (((cfg0.win 0).blk t).view.emb j) = V m c main_v77 j
  refine congrArg _ ?_
  funext a; apply Fin.ext
  match a with
  | ⟨0, _⟩ => show win0_0.index t (0 : Fin 2) * 128 + 1 * (j 0).val = (j 0).val; omega
  | ⟨1, _⟩ => show win0_0.index t (1 : Fin 2) * 8 + 1 * (j 1).val = (j 1).val; omega

/-- The weight row's block at the point is the whole weight row. -/
theorem block_weights (c : Dev nD) (t : Fin cfg0.N) : iblk m c 1 t = V m c main_arg12 := by
  obtain ⟨-, -, e0, e1, -, -, -, -⟩ := idx_zero t
  funext j
  show V m c main_arg12 (((cfg0.win 1).blk t).view.emb j) = V m c main_arg12 j
  refine congrArg _ ?_
  funext a; apply Fin.ext
  match a with
  | ⟨0, _⟩ => show win0_1.index t (0 : Fin 2) * 1 + 1 * (j 0).val = (j 0).val; omega
  | ⟨1, _⟩ => show win0_1.index t (1 : Fin 2) * 8 + 1 * (j 1).val = (j 1).val; omega

/-- The bias array's block at the point is the whole bias array. -/
theorem block_bias (c : Dev nD) (t : Fin cfg0.N) : iblk m c 2 t = V m c main_v78 := by
  obtain ⟨-, -, -, -, e0, e1, -, -⟩ := idx_zero t
  funext j
  show V m c main_v78 (((cfg0.win 2).blk t).view.emb j) = V m c main_v78 j
  refine congrArg _ ?_
  funext a; apply Fin.ext
  match a with
  | ⟨0, _⟩ => show win0_2.index t (0 : Fin 2) * 1 + 1 * (j 0).val = (j 0).val; omega
  | ⟨1, _⟩ => show win0_2.index t (1 : Fin 2) * 1 + 1 * (j 1).val = (j 1).val; omega

/-- What the point writes back is the body's value of the three whole arrays, read through the result's block. -/
theorem flushed_eq (c : Dev nD) (t : Fin cfg0.N) :
    (dats m 0 c).flushed 3 t
      = ((cfg0.win 3).blk t).view.read (Elt F) (k0_pay1 (V m c main_v77) (V m c main_arg12) (V m c main_v78)) := by
  rw [flushed3]
  unfold out0_3
  rw [View.canon_unit_zero hz]
  simp only [View.ld_unit_zero (S := S128x8) hz, View.ld_unit_zero (S := S1x8) hz, View.ld_unit_zero (S := S1x1) hz]
  rw [block_pooled, block_weights, block_bias]
  obtain ⟨-, -, -, -, -, -, e0, e1⟩ := idx_zero t
  funext j
  show k0_pay1 (V m c main_v77) (V m c main_arg12) (V m c main_v78) j
    = k0_pay1 (V m c main_v77) (V m c main_arg12) (V m c main_v78) (((cfg0.win 3).blk t).view.emb j)
  refine congrArg _ ?_
  funext a; apply Fin.ext
  match a with
  | ⟨0, _⟩ => show (j 0).val = win0_3.index t (0 : Fin 2) * 128 + 1 * (j 0).val; omega
  | ⟨1, _⟩ => show (j 1).val = win0_3.index t (1 : Fin 2) * 1 + 1 * (j 1).val; omega

/-- An index of the result array is in the point's block iff each coordinate is in the block's range on its axis. -/
theorem mem_blk (t : Fin cfg0.N) (i : S128x1.Idx) :
    i ∈ ((cfg0.win 3).blk t).view.set ↔ ∀ a : Fin 2, win0_3.index t a * S128x1.size a ≤ (i a).val ∧ (i a).val < win0_3.index t a * S128x1.size a + S128x1.size a := by
  show i ∈ ((View.whole main_v79).slice (win0_3.rect t)).set ↔ _
  rw [View.set_slice_whole, Rect.mem_set_unit]
  exact Iff.rfl

/-- THE RESULT ARRAY after the run: the body's value of the pooled array, the weight row and the bias array as the
    launch finds them (the one block is the whole array). -/
theorem final (c : Dev nD) :
    (dats m 0 c).arrAt 3 cfg0.N = k0_pay1 (V m c main_v77) (V m c main_arg12) (V m c main_v78) :=
  (dats m 0 c).arrAt_eq_of_cover 3 _ (fun t _ => flushed_eq m c t) (fun i => ⟨t0_0, flush0_3 t0_0, by
    rw [mem_blk]
    obtain ⟨-, -, -, -, -, -, e0, e1⟩ := idx_zero t0_0
    intro a
    match a with
    | ⟨0, _⟩ =>
      show win0_3.index t0_0 (0 : Fin 2) * 128 ≤ (i 0).val ∧ (i 0).val < win0_3.index t0_0 (0 : Fin 2) * 128 + 128
      have h : (i 0).val < 128 := (i 0).isLt
      omega
    | ⟨1, _⟩ =>
      show win0_3.index t0_0 (1 : Fin 2) * 1 ≤ (i 1).val ∧ (i 1).val < win0_3.index t0_0 (1 : Fin 2) * 1 + 1
      have h : (i 1).val < 1 := (i 1).isLt
      omega⟩)

/-! ## The launch's operands as the host side left them -/

/-- What the launch finds in a buffer is what the last host stretch left there. -/
theorem V_eq_val (c : Dev nD) (b : Ref sig .tc) :
    V m c b = HostVal.val9 (fun b => m (c, b)) (Proc.devRef .tc b) := by
  show StableHlo.after (List.flatten [hostOps0, hostOps0_1, hostOps0_2, hostOps0_3, hostOps0_4, hostOps0_5, hostOps0_6, hostOps0_7, hostOps0_8]) (fun b => m (c, b)) (Proc.devRef .tc b) = _
  rw [HostVal.after_all]

/-- The bias array the launch finds is the `[1]` bias argument reshaped to `[1, 1]`. -/
theorem val9_bias (V0 : Valuation τ sig (Elt F)) :
    HostVal.val9 V0 (Proc.devRef .tc main_v78)
      = shapeCast S1x1 (V0 (Proc.devRef .tc main_arg13)) shapeCasts_S1_S1x1 := by
  unfold HostVal.val9
  simp only [hostOps0_8]
  after_results_simp
  simp (disch := decide) only [HostVal.val8_keep, HostVal.val7_keep, HostVal.val6_keep, HostVal.val5_keep, HostVal.val4_keep,
    HostVal.val3_keep, HostVal.val2_keep, HostVal.val1_keep]
  rfl

/-! ## The run, read -/

/-- The frame run re-posted: the result array at the body's value of the launch's operands, the arguments unchanged. -/
theorem run : θ_run defs (onTc (τ := τ) (main (F := F))) ⟨m, fun _ => 0, ρ⟩ fun r => ∀ c : Dev nD,
      r.2.mem ((c : Thread nD τ).loc main_v79) = k0_pay1 (V m c main_v77) (V m c main_arg12) (V m c main_v78)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨(h c).1.trans (final m c), (h c).2⟩) (run_blocks m ρ)

end Cert.KernelIdeal.OutValue

end
-- ==== Proof.RefRun.lean ====
/-
  The reference program read as one straight line of tensor operations, stretch by stretch.

  The reference is a three-layer graph network on 100000 nodes and 3200000 edges, a pooling over 128 graphs, and a
  linear classifier. Its entry function is a sequence of tensor operations and five calls (three gathers of node
  rows at the edge sources, two leaky thresholds); a call runs the callee's operations on the caller's buffers, so
  the whole program is one line of 187 operations. It is cut here into twelve stretches at the places where the
  mathematics turns: each slicing of the edge list, each gather, each layer, each threshold, the pooling, and the
  classifier. The program is that line (`main_eq`); every operation touches only tensor buffers and determines its
  result, so every fair execution ends with each buffer at the line's fold over the launch contents (`run`).
  For each stretch the list of the buffers it writes is recorded, so that any other buffer is known to pass
  through the stretch unchanged.
-/
import proofs.«138927_g26774826123929_cont_8to1_2001_3_alg».proof.Proof.Gen.ReferenceIdeal
import proofs.«138927_g26774826123929_cont_8to1_2001_3_alg».proof.Proof.LibSeqChain
import Idealize.ShloMosaic.Lib.StableHlo.Run
import Idealize.ShloMosaic.Lib.Pipeline.Regions

set_option maxRecDepth 8192

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The source and target rows of edge_index, sliced out and flattened: 4 operations, in order. -/
abbrev edges1 : List (HloOp τ sig (Elt F)) :=
  [ StableHlo.unary main_arg1 main_v0 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v0 main_v1 rfl shapeCasts_S1x3200000_S3200000,
    StableHlo.unary main_arg1 main_v2 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v2 main_v3 rfl shapeCasts_S1x3200000_S3200000 ]
theorem edges1_sub : (edges1 : List (HloOp τ sig (Elt F))).Forall fun op => op.bufs ⊆ tcRefs τ sig :=
  ⟨unary_bufs_sub .., reshape_bufs_sub .., unary_bufs_sub .., reshape_bufs_sub ..⟩
theorem edges1_fresh : (edges1 : List (HloOp τ sig (Elt F))).Forall fun op => op.fresh = ∅ := by
  simp only [List.Forall]; repeat' constructor
/-- The buffers those operations write. -/
abbrev edges1_W : List (Ref sig .tc) := [main_v0, main_v1, main_v2, main_v3]
theorem edges1_writes : (edges1 : List (HloOp τ sig (Elt F))).Forall fun op => op.writes ⊆ (edges1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 1's gather of the node rows at the edge sources (jnp.take, with its range check): 23 operations, in order. -/
abbrev take1 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S3200000, .i32⟩) (broadcastInDim S3200000 ![] bcast_S_S3200000),
    StableHlo.TRef.binary (.of main_v1 : StableHlo.TRef sig ⟨S3200000, .i32⟩) (.of main_call0_v0 : StableHlo.TRef sig ⟨S3200000, .i32⟩) (.of main_call0_v1 : StableHlo.TRef sig ⟨S3200000, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S3200000, .i32⟩) (broadcastInDim S3200000 ![] bcast_S_S3200000),
    StableHlo.TRef.binary (.of main_v1 : StableHlo.TRef sig ⟨S3200000, .i32⟩) (.of main_call0_v2 : StableHlo.TRef sig ⟨S3200000, .i32⟩) (.of main_call0_v3 : StableHlo.TRef sig ⟨S3200000, .i32⟩) addi,
    StableHlo.TRef.ternary (.of main_call0_v1 : StableHlo.TRef sig ⟨S3200000, .i1⟩) (.of main_call0_v3 : StableHlo.TRef sig ⟨S3200000, .i32⟩) (.of main_v1 : StableHlo.TRef sig ⟨S3200000, .i32⟩) (.of main_call0_v4 : StableHlo.TRef sig ⟨S3200000, .i32⟩) select,
    StableHlo.TRef.unary (.of main_call0_v4 : StableHlo.TRef sig ⟨S3200000, .i32⟩) (.of main_call0_v5 : StableHlo.TRef sig ⟨S3200000x1, .i32⟩) (broadcastInDim S3200000x1 ![0] bcast_S3200000_S3200000x1_0),
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S3200000x1, .i32⟩) (broadcastInDim S3200000x1 ![] bcast_S_S3200000x1),
    StableHlo.TRef.binary (.of main_call0_v5 : StableHlo.TRef sig ⟨S3200000x1, .i32⟩) (.of main_call0_v6 : StableHlo.TRef sig ⟨S3200000x1, .i32⟩) (.of main_call0_v7 : StableHlo.TRef sig ⟨S3200000x1, .i1⟩) (cmpi .sge),
    StableHlo.TRef.unary (.of main_call0_c_1 : StableHlo.TRef sig ⟨S1, .i32⟩) (.of main_call0_v8 : StableHlo.TRef sig ⟨S1x1, .i32⟩) (broadcastInDim S1x1 ![1] bcast_S1_S1x1_1),
    StableHlo.TRef.unary (.of main_call0_v8 : StableHlo.TRef sig ⟨S1x1, .i32⟩) (.of main_call0_v9 : StableHlo.TRef sig ⟨S3200000x1, .i32⟩) (broadcastInDim S3200000x1 ![0, 1] bcast_S1x1_S3200000x1_0_1),
    StableHlo.TRef.binary (.of main_call0_v5 : StableHlo.TRef sig ⟨S3200000x1, .i32⟩) (.of main_call0_v9 : StableHlo.TRef sig ⟨S3200000x1, .i32⟩) (.of main_call0_v10 : StableHlo.TRef sig ⟨S3200000x1, .i1⟩) (cmpi .sle),
    StableHlo.TRef.binary (.of main_call0_v7 : StableHlo.TRef sig ⟨S3200000x1, .i1⟩) (.of main_call0_v10 : StableHlo.TRef sig ⟨S3200000x1, .i1⟩) (.of main_call0_v11 : StableHlo.TRef sig ⟨S3200000x1, .i1⟩) andi,
    StableHlo.TRef.nullary (.of main_call0_c_3 : StableHlo.TRef sig ⟨S_, .i1⟩) (constantI S_ 1 1#1),
    StableHlo.TRef.binary (.of main_call0_v11 : StableHlo.TRef sig ⟨S3200000x1, .i1⟩) (.of main_call0_c_3 : StableHlo.TRef sig ⟨S_, .i1⟩) (.of main_call0_v12 : StableHlo.TRef sig ⟨S3200000, .i1⟩) (fun x v => Host.reduce IntOp.andi x v reducesTo_S3200000x1_S3200000_d1 h_S_),
    StableHlo.TRef.binary (.of main_arg0 : StableHlo.TRef sig ⟨S100000x13, .f32⟩) (.of main_call0_v5 : StableHlo.TRef sig ⟨S3200000x1, .i32⟩) (.of main_call0_v13 : StableHlo.TRef sig ⟨S3200000x13, .f32⟩) (fun x i => Host.gather gather_S100000x13_S3200000x1_S3200000x13_1_0_n_n_0_1_113 x i),
    StableHlo.TRef.unary (.of main_call0_v12 : StableHlo.TRef sig ⟨S3200000, .i1⟩) (.of main_call0_v14 : StableHlo.TRef sig ⟨S3200000x13, .i1⟩) (broadcastInDim S3200000x13 ![0] bcast_S3200000_S3200000x13_0),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v15 : StableHlo.TRef sig ⟨S3200000x13, .f32⟩) (broadcastInDim S3200000x13 ![] bcast_S_S3200000x13),
    StableHlo.TRef.ternary (.of main_call0_v14 : StableHlo.TRef sig ⟨S3200000x13, .i1⟩) (.of main_call0_v13 : StableHlo.TRef sig ⟨S3200000x13, .f32⟩) (.of main_call0_v15 : StableHlo.TRef sig ⟨S3200000x13, .f32⟩) (.of main_v4 : StableHlo.TRef sig ⟨S3200000x13, .f32⟩) select ]
theorem take1_sub : (take1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take1_fresh : (take1 : List (HloOp τ sig (Elt F))).Forall fun op => op.fresh = ∅ := by
  simp only [List.Forall]; repeat' constructor
/-- The buffers those operations write. -/
abbrev take1_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v4]
theorem take1_writes : (take1 : List (HloOp τ sig (Elt F))).Forall fun op => op.writes ⊆ (take1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 1: the edge sums, the degrees, the mean, the two products and the bias: 24 operations, in order. -/
abbrev layer1 : List (HloOp τ sig (Elt F)) :=
  [ StableHlo.nullary main_cst (constant S_ .f32 0x00000000#32),
    StableHlo.unary main_cst main_v5 (broadcastInDim S100000x13 ![] bcast_S_S100000x13 : (⟨S_, .f32⟩ : BufTy).Contents (Elt F) → (⟨S100000x13, .f32⟩ : BufTy).Contents (Elt F)),
    StableHlo.unary main_v3 main_v6 (broadcastInDim S3200000x1 ![0] bcast_S3200000_S3200000x1_0 : (⟨S3200000, .i32⟩ : BufTy).Contents (Elt F) → (⟨S3200000x1, .i32⟩ : BufTy).Contents (Elt F)),
    StableHlo.ternary main_v5 main_v6 main_v4 main_v7 ((fun x i u => Host.scatterAdd scatter_S100000x13_S3200000x1_S3200000x13_1_0_0_1 x i u) : (⟨S100000x13, .f32⟩ : BufTy).Contents (Elt F) → (⟨S3200000x1, .i32⟩ : BufTy).Contents (Elt F) → (⟨S3200000x13, .f32⟩ : BufTy).Contents (Elt F) → (⟨S100000x13, .f32⟩ : BufTy).Contents (Elt F)),
    StableHlo.nullary main_cst_0 (constant S_ .f32 0x3F800000#32),
    StableHlo.unary main_cst_0 main_v8 (broadcastInDim S3200000x1 ![] bcast_S_S3200000x1 : (⟨S_, .f32⟩ : BufTy).Contents (Elt F) → (⟨S3200000x1, .f32⟩ : BufTy).Contents (Elt F)),
    StableHlo.nullary main_cst_1 (constant S_ .f32 0x00000000#32),
    StableHlo.unary main_cst_1 main_v9 (broadcastInDim S100000x1 ![] bcast_S_S100000x1 : (⟨S_, .f32⟩ : BufTy).Contents (Elt F) → (⟨S100000x1, .f32⟩ : BufTy).Contents (Elt F)),
    StableHlo.unary main_v3 main_v10 (broadcastInDim S3200000x1 ![0] bcast_S3200000_S3200000x1_0 : (⟨S3200000, .i32⟩ : BufTy).Contents (Elt F) → (⟨S3200000x1, .i32⟩ : BufTy).Contents (Elt F)),
    StableHlo.ternary main_v9 main_v10 main_v8 main_v11 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_2 (constant S_ .f32 0x3F800000#32),
    StableHlo.unary main_cst_2 main_v12 (broadcastInDim S100000x1 ![] bcast_S_S100000x1 : (⟨S_, .f32⟩ : BufTy).Contents (Elt F) → (⟨S100000x1, .f32⟩ : BufTy).Contents (Elt F)),
    StableHlo.binary main_v11 main_v12 main_v13 (maximumf : (⟨S100000x1, .f32⟩ : BufTy).Contents (Elt F) → (⟨S100000x1, .f32⟩ : BufTy).Contents (Elt F) → (⟨S100000x1, .f32⟩ : BufTy).Contents (Elt F)),
    StableHlo.unary main_v13 main_v14 (broadcastInDim S100000x13 ![0, 1] bcast_S100000x1_S100000x13_0_1 : (⟨S100000x1, .f32⟩ : BufTy).Contents (Elt F) → (⟨S100000x13, .f32⟩ : BufTy).Contents (Elt F)),
    StableHlo.binary main_v7 main_v14 main_v15 (Host.divf : (⟨S100000x13, .f32⟩ : BufTy).Contents (Elt F) → (⟨S100000x13, .f32⟩ : BufTy).Contents (Elt F) → (⟨S100000x13, .f32⟩ : BufTy).Contents (Elt F)),
    StableHlo.unary main_arg3 main_v16 ((transpose S13x16 [1, 0] · transposes_S16x13_S13x16_1_0) : (⟨S16x13, .f32⟩ : BufTy).Contents (Elt F) → (⟨S13x16, .f32⟩ : BufTy).Contents (Elt F)),
    StableHlo.binary main_v15 main_v16 main_v17 ((fun l r => Host.dotGeneral dot_S100000x13_S13x16_S100000x16_1_0_0_1_n_n none l r) : (⟨S100000x13, .f32⟩ : BufTy).Contents (Elt F) → (⟨S13x16, .f32⟩ : BufTy).Contents (Elt F) → (⟨S100000x16, .f32⟩ : BufTy).Contents (Elt F)),
    StableHlo.unary main_arg4 main_v18 (broadcastInDim S1x16 ![1] bcast_S16_S1x16_1 : (⟨S16, .f32⟩ : BufTy).Contents (Elt F) → (⟨S1x16, .f32⟩ : BufTy).Contents (Elt F)),
    StableHlo.unary main_v18 main_v19 (broadcastInDim S100000x16 ![0, 1] bcast_S1x16_S100000x16_0_1 : (⟨S1x16, .f32⟩ : BufTy).Contents (Elt F) → (⟨S100000x16, .f32⟩ : BufTy).Contents (Elt F)),
    StableHlo.binary main_v17 main_v19 main_v20 (addf : (⟨S100000x16, .f32⟩ : BufTy).Contents (Elt F) → (⟨S100000x16, .f32⟩ : BufTy).Contents (Elt F) → (⟨S100000x16, .f32⟩ : BufTy).Contents (Elt F)),
    StableHlo.unary main_arg5 main_v21 ((transpose S13x16 [1, 0] · transposes_S16x13_S13x16_1_0) : (⟨S16x13, .f32⟩ : BufTy).Contents (Elt F) → (⟨S13x16, .f32⟩ : BufTy).Contents (Elt F)),
    StableHlo.binary main_arg0 main_v21 main_v22 ((fun l r => Host.dotGeneral dot_S100000x13_S13x16_S100000x16_1_0_0_1_n_n none l r) : (⟨S100000x13, .f32⟩ : BufTy).Contents (Elt F) → (⟨S13x16, .f32⟩ : BufTy).Contents (Elt F) → (⟨S100000x16, .f32⟩ : BufTy).Contents (Elt F)),
    StableHlo.binary main_v20 main_v22 main_v23 (addf : (⟨S100000x16, .f32⟩ : BufTy).Contents (Elt F) → (⟨S100000x16, .f32⟩ : BufTy).Contents (Elt F) → (⟨S100000x16, .f32⟩ : BufTy).Contents (Elt F)),
    StableHlo.nullary main_cst_3 (constant S_ .f32 0x3C23D70A#32) ]
theorem layer1_sub : (layer1 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub ..⟩
theorem layer1_fresh : (layer1 : List (HloOp τ sig (Elt F))).Forall fun op => op.fresh = ∅ := by
  simp only [List.Forall]; repeat' constructor
/-- The buffers those operations write. -/
abbrev layer1_W : List (Ref sig .tc) := [main_cst, main_v5, main_v6, main_v7, main_cst_0, main_v8, main_cst_1, main_v9, main_v10, main_v11, main_cst_2, main_v12, main_v13, main_v14, main_v15, main_v16, main_v17, main_v18, main_v19, main_v20, main_v21, main_v22, main_v23, main_cst_3]
theorem layer1_writes : (layer1 : List (HloOp τ sig (Elt F))).Forall fun op => op.writes ⊆ (layer1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The leaky threshold after layer 1: 7 operations, in order. -/
abbrev relu1 : List (HloOp τ sig (Elt F)) :=
  [ StableHlo.TRef.nullary (.of main_call1_cst : StableHlo.TRef sig ⟨S_, .f32⟩) (constant S_ .f32 0x00000000#32),
    StableHlo.TRef.unary (.of main_call1_cst : StableHlo.TRef sig ⟨S_, .f32⟩) (.of main_call1_v0 : StableHlo.TRef sig ⟨S100000x16, .f32⟩) (broadcastInDim S100000x16 ![] bcast_S_S100000x16),
    StableHlo.TRef.binary (.of main_v23 : StableHlo.TRef sig ⟨S100000x16, .f32⟩) (.of main_call1_v0 : StableHlo.TRef sig ⟨S100000x16, .f32⟩) (.of main_call1_v1 : StableHlo.TRef sig ⟨S100000x16, .i1⟩) (cmpf .oge),
    StableHlo.TRef.unary (.of main_cst_3 : StableHlo.TRef sig ⟨S_, .f32⟩) (.of main_call1_v2 : StableHlo.TRef sig ⟨S_, .f32⟩) id,
    StableHlo.TRef.unary (.of main_call1_v2 : StableHlo.TRef sig ⟨S_, .f32⟩) (.of main_call1_v3 : StableHlo.TRef sig ⟨S100000x16, .f32⟩) (broadcastInDim S100000x16 ![] bcast_S_S100000x16),
    StableHlo.TRef.binary (.of main_call1_v3 : StableHlo.TRef sig ⟨S100000x16, .f32⟩) (.of main_v23 : StableHlo.TRef sig ⟨S100000x16, .f32⟩) (.of main_call1_v4 : StableHlo.TRef sig ⟨S100000x16, .f32⟩) mulf,
    StableHlo.TRef.ternary (.of main_call1_v1 : StableHlo.TRef sig ⟨S100000x16, .i1⟩) (.of main_v23 : StableHlo.TRef sig ⟨S100000x16, .f32⟩) (.of main_call1_v4 : StableHlo.TRef sig ⟨S100000x16, .f32⟩) (.of main_v24 : StableHlo.TRef sig ⟨S100000x16, .f32⟩) select ]
theorem relu1_sub : (relu1 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem relu1_fresh : (relu1 : List (HloOp τ sig (Elt F))).Forall fun op => op.fresh = ∅ := by
  simp only [List.Forall]; repeat' constructor
/-- The buffers those operations write. -/
abbrev relu1_W : List (Ref sig .tc) := [main_call1_cst, main_call1_v0, main_call1_v1, main_call1_v2, main_call1_v3, main_call1_v4, main_v24]
theorem relu1_writes : (relu1 : List (HloOp τ sig (Elt F))).Forall fun op => op.writes ⊆ (relu1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Edge_index sliced and flattened again, for layer 2: 4 operations, in order. -/
abbrev edges2 : List (HloOp τ sig (Elt F)) :=
  [ StableHlo.unary main_arg1 main_v25 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v25 main_v26 rfl shapeCasts_S1x3200000_S3200000,
    StableHlo.unary main_arg1 main_v27 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v27 main_v28 rfl shapeCasts_S1x3200000_S3200000 ]
theorem edges2_sub : (edges2 : List (HloOp τ sig (Elt F))).Forall fun op => op.bufs ⊆ tcRefs τ sig :=
  ⟨unary_bufs_sub .., reshape_bufs_sub .., unary_bufs_sub .., reshape_bufs_sub ..⟩
theorem edges2_fresh : (edges2 : List (HloOp τ sig (Elt F))).Forall fun op => op.fresh = ∅ := by
  simp only [List.Forall]; repeat' constructor
/-- The buffers those operations write. -/
abbrev edges2_W : List (Ref sig .tc) := [main_v25, main_v26, main_v27, main_v28]
theorem edges2_writes : (edges2 : List (HloOp τ sig (Elt F))).Forall fun op => op.writes ⊆ (edges2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 2's gather: 23 operations, in order. -/
abbrev take2 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S3200000, .i32⟩) (broadcastInDim S3200000 ![] bcast_S_S3200000),
    StableHlo.TRef.binary (.of main_v26 : StableHlo.TRef sig ⟨S3200000, .i32⟩) (.of main_call2_v0 : StableHlo.TRef sig ⟨S3200000, .i32⟩) (.of main_call2_v1 : StableHlo.TRef sig ⟨S3200000, .i1⟩) (cmpi .slt),
    StableHlo.TRef.nullary (.of main_call2_c_0 : StableHlo.TRef sig ⟨S_, .i32⟩) (constantI S_ 32 100000#32),
    StableHlo.TRef.unary (.of main_call2_c_0 : StableHlo.TRef sig ⟨S_, .i32⟩) (.of main_call2_v2 : StableHlo.TRef sig ⟨S3200000, .i32⟩) (broadcastInDim S3200000 ![] bcast_S_S3200000),
    StableHlo.TRef.binary (.of main_v26 : StableHlo.TRef sig ⟨S3200000, .i32⟩) (.of main_call2_v2 : StableHlo.TRef sig ⟨S3200000, .i32⟩) (.of main_call2_v3 : StableHlo.TRef sig ⟨S3200000, .i32⟩) addi,
    StableHlo.TRef.ternary (.of main_call2_v1 : StableHlo.TRef sig ⟨S3200000, .i1⟩) (.of main_call2_v3 : StableHlo.TRef sig ⟨S3200000, .i32⟩) (.of main_v26 : StableHlo.TRef sig ⟨S3200000, .i32⟩) (.of main_call2_v4 : StableHlo.TRef sig ⟨S3200000, .i32⟩) select,
    StableHlo.TRef.unary (.of main_call2_v4 : StableHlo.TRef sig ⟨S3200000, .i32⟩) (.of main_call2_v5 : StableHlo.TRef sig ⟨S3200000x1, .i32⟩) (broadcastInDim S3200000x1 ![0] bcast_S3200000_S3200000x1_0),
    StableHlo.TRef.nullary (.of main_call2_c_1 : StableHlo.TRef sig ⟨S1, .i32⟩) (constantI S1 32 99999#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S3200000x1, .i32⟩) (broadcastInDim S3200000x1 ![] bcast_S_S3200000x1),
    StableHlo.TRef.binary (.of main_call2_v5 : StableHlo.TRef sig ⟨S3200000x1, .i32⟩) (.of main_call2_v6 : StableHlo.TRef sig ⟨S3200000x1, .i32⟩) (.of main_call2_v7 : StableHlo.TRef sig ⟨S3200000x1, .i1⟩) (cmpi .sge),
    StableHlo.TRef.unary (.of main_call2_c_1 : StableHlo.TRef sig ⟨S1, .i32⟩) (.of main_call2_v8 : StableHlo.TRef sig ⟨S1x1, .i32⟩) (broadcastInDim S1x1 ![1] bcast_S1_S1x1_1),
    StableHlo.TRef.unary (.of main_call2_v8 : StableHlo.TRef sig ⟨S1x1, .i32⟩) (.of main_call2_v9 : StableHlo.TRef sig ⟨S3200000x1, .i32⟩) (broadcastInDim S3200000x1 ![0, 1] bcast_S1x1_S3200000x1_0_1),
    StableHlo.TRef.binary (.of main_call2_v5 : StableHlo.TRef sig ⟨S3200000x1, .i32⟩) (.of main_call2_v9 : StableHlo.TRef sig ⟨S3200000x1, .i32⟩) (.of main_call2_v10 : StableHlo.TRef sig ⟨S3200000x1, .i1⟩) (cmpi .sle),
    StableHlo.TRef.binary (.of main_call2_v7 : StableHlo.TRef sig ⟨S3200000x1, .i1⟩) (.of main_call2_v10 : StableHlo.TRef sig ⟨S3200000x1, .i1⟩) (.of main_call2_v11 : StableHlo.TRef sig ⟨S3200000x1, .i1⟩) andi,
    StableHlo.TRef.nullary (.of main_call2_c_3 : StableHlo.TRef sig ⟨S_, .i1⟩) (constantI S_ 1 1#1),
    StableHlo.TRef.binary (.of main_call2_v11 : StableHlo.TRef sig ⟨S3200000x1, .i1⟩) (.of main_call2_c_3 : StableHlo.TRef sig ⟨S_, .i1⟩) (.of main_call2_v12 : StableHlo.TRef sig ⟨S3200000, .i1⟩) (fun x v => Host.reduce IntOp.andi x v reducesTo_S3200000x1_S3200000_d1 h_S_),
    StableHlo.TRef.binary (.of main_v24 : StableHlo.TRef sig ⟨S100000x16, .f32⟩) (.of main_call2_v5 : StableHlo.TRef sig ⟨S3200000x1, .i32⟩) (.of main_call2_v13 : StableHlo.TRef sig ⟨S3200000x16, .f32⟩) (fun x i => Host.gather gather_S100000x16_S3200000x1_S3200000x16_1_0_n_n_0_1_116 x i),
    StableHlo.TRef.unary (.of main_call2_v12 : StableHlo.TRef sig ⟨S3200000, .i1⟩) (.of main_call2_v14 : StableHlo.TRef sig ⟨S3200000x16, .i1⟩) (broadcastInDim S3200000x16 ![0] bcast_S3200000_S3200000x16_0),
    StableHlo.TRef.nullary (.of main_call2_cst : StableHlo.TRef sig ⟨S_, .f32⟩) (constant S_ .f32 0x7FC00000#32),
    StableHlo.TRef.unary (.of main_call2_cst : StableHlo.TRef sig ⟨S_, .f32⟩) (.of main_call2_v15 : StableHlo.TRef sig ⟨S3200000x16, .f32⟩) (broadcastInDim S3200000x16 ![] bcast_S_S3200000x16),
    StableHlo.TRef.ternary (.of main_call2_v14 : StableHlo.TRef sig ⟨S3200000x16, .i1⟩) (.of main_call2_v13 : StableHlo.TRef sig ⟨S3200000x16, .f32⟩) (.of main_call2_v15 : StableHlo.TRef sig ⟨S3200000x16, .f32⟩) (.of main_v29 : StableHlo.TRef sig ⟨S3200000x16, .f32⟩) select ]
theorem take2_sub : (take2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take2_fresh : (take2 : List (HloOp τ sig (Elt F))).Forall fun op => op.fresh = ∅ := by
  simp only [List.Forall]; repeat' constructor
/-- The buffers those operations write. -/
abbrev take2_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v29]
theorem take2_writes : (take2 : List (HloOp τ sig (Elt F))).Forall fun op => op.writes ⊆ (take2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 2: 24 operations, in order. -/
abbrev layer2 : List (HloOp τ sig (Elt F)) :=
  [ StableHlo.nullary main_cst_4 (constant S_ .f32 0x00000000#32),
    StableHlo.unary main_cst_4 main_v30 (broadcastInDim S100000x16 ![] bcast_S_S100000x16 : (⟨S_, .f32⟩ : BufTy).Contents (Elt F) → (⟨S100000x16, .f32⟩ : BufTy).Contents (Elt F)),
    StableHlo.unary main_v28 main_v31 (broadcastInDim S3200000x1 ![0] bcast_S3200000_S3200000x1_0 : (⟨S3200000, .i32⟩ : BufTy).Contents (Elt F) → (⟨S3200000x1, .i32⟩ : BufTy).Contents (Elt F)),
    StableHlo.ternary main_v30 main_v31 main_v29 main_v32 ((fun x i u => Host.scatterAdd scatter_S100000x16_S3200000x1_S3200000x16_1_0_0_1 x i u) : (⟨S100000x16, .f32⟩ : BufTy).Contents (Elt F) → (⟨S3200000x1, .i32⟩ : BufTy).Contents (Elt F) → (⟨S3200000x16, .f32⟩ : BufTy).Contents (Elt F) → (⟨S100000x16, .f32⟩ : BufTy).Contents (Elt F)),
    StableHlo.nullary main_cst_5 (constant S_ .f32 0x3F800000#32),
    StableHlo.unary main_cst_5 main_v33 (broadcastInDim S3200000x1 ![] bcast_S_S3200000x1 : (⟨S_, .f32⟩ : BufTy).Contents (Elt F) → (⟨S3200000x1, .f32⟩ : BufTy).Contents (Elt F)),
    StableHlo.nullary main_cst_6 (constant S_ .f32 0x00000000#32),
    StableHlo.unary main_cst_6 main_v34 (broadcastInDim S100000x1 ![] bcast_S_S100000x1 : (⟨S_, .f32⟩ : BufTy).Contents (Elt F) → (⟨S100000x1, .f32⟩ : BufTy).Contents (Elt F)),
    StableHlo.unary main_v28 main_v35 (broadcastInDim S3200000x1 ![0] bcast_S3200000_S3200000x1_0 : (⟨S3200000, .i32⟩ : BufTy).Contents (Elt F) → (⟨S3200000x1, .i32⟩ : BufTy).Contents (Elt F)),
    StableHlo.ternary main_v34 main_v35 main_v33 main_v36 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_7 (constant S_ .f32 0x3F800000#32),
    StableHlo.unary main_cst_7 main_v37 (broadcastInDim S100000x1 ![] bcast_S_S100000x1 : (⟨S_, .f32⟩ : BufTy).Contents (Elt F) → (⟨S100000x1, .f32⟩ : BufTy).Contents (Elt F)),
    StableHlo.binary main_v36 main_v37 main_v38 (maximumf : (⟨S100000x1, .f32⟩ : BufTy).Contents (Elt F) → (⟨S100000x1, .f32⟩ : BufTy).Contents (Elt F) → (⟨S100000x1, .f32⟩ : BufTy).Contents (Elt F)),
    StableHlo.unary main_v38 main_v39 (broadcastInDim S100000x16 ![0, 1] bcast_S100000x1_S100000x16_0_1 : (⟨S100000x1, .f32⟩ : BufTy).Contents (Elt F) → (⟨S100000x16, .f32⟩ : BufTy).Contents (Elt F)),
    StableHlo.binary main_v32 main_v39 main_v40 (Host.divf : (⟨S100000x16, .f32⟩ : BufTy).Contents (Elt F) → (⟨S100000x16, .f32⟩ : BufTy).Contents (Elt F) → (⟨S100000x16, .f32⟩ : BufTy).Contents (Elt F)),
    StableHlo.unary main_arg6 main_v41 ((transpose S16x8 [1, 0] · transposes_S8x16_S16x8_1_0) : (⟨S8x16, .f32⟩ : BufTy).Contents (Elt F) → (⟨S16x8, .f32⟩ : BufTy).Contents (Elt F)),
    StableHlo.binary main_v40 main_v41 main_v42 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    StableHlo.unary main_arg7 main_v43 (broadcastInDim S1x8 ![1] bcast_S8_S1x8_1 : (⟨S8, .f32⟩ : BufTy).Contents (Elt F) → (⟨S1x8, .f32⟩ : BufTy).Contents (Elt F)),
    StableHlo.unary main_v43 main_v44 (broadcastInDim S100000x8 ![0, 1] bcast_S1x8_S100000x8_0_1 : (⟨S1x8, .f32⟩ : BufTy).Contents (Elt F) → (⟨S100000x8, .f32⟩ : BufTy).Contents (Elt F)),
    StableHlo.binary main_v42 main_v44 main_v45 (addf : (⟨S100000x8, .f32⟩ : BufTy).Contents (Elt F) → (⟨S100000x8, .f32⟩ : BufTy).Contents (Elt F) → (⟨S100000x8, .f32⟩ : BufTy).Contents (Elt F)),
    StableHlo.unary main_arg8 main_v46 ((transpose S16x8 [1, 0] · transposes_S8x16_S16x8_1_0) : (⟨S8x16, .f32⟩ : BufTy).Contents (Elt F) → (⟨S16x8, .f32⟩ : BufTy).Contents (Elt F)),
    StableHlo.binary main_v24 main_v46 main_v47 ((fun l r => Host.dotGeneral dot_S100000x16_S16x8_S100000x8_1_0_0_1_n_n none l r) : (⟨S100000x16, .f32⟩ : BufTy).Contents (Elt F) → (⟨S16x8, .f32⟩ : BufTy).Contents (Elt F) → (⟨S100000x8, .f32⟩ : BufTy).Contents (Elt F)),
    StableHlo.binary main_v45 main_v47 main_v48 (addf : (⟨S100000x8, .f32⟩ : BufTy).Contents (Elt F) → (⟨S100000x8, .f32⟩ : BufTy).Contents (Elt F) → (⟨S100000x8, .f32⟩ : BufTy).Contents (Elt F)),
    StableHlo.nullary main_cst_8 (constant S_ .f32 0x3C23D70A#32) ]
theorem layer2_sub : (layer2 : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub ..⟩
theorem layer2_fresh : (layer2 : List (HloOp τ sig (Elt F))).Forall fun op => op.fresh = ∅ := by
  simp only [List.Forall]; repeat' constructor
/-- The buffers those operations write. -/
abbrev layer2_W : List (Ref sig .tc) := [main_cst_4, main_v30, main_v31, main_v32, main_cst_5, main_v33, main_cst_6, main_v34, main_v35, main_v36, main_cst_7, main_v37, main_v38, main_v39, main_v40, main_v41, main_v42, main_v43, main_v44, main_v45, main_v46, main_v47, main_v48, main_cst_8]
theorem layer2_writes : (layer2 : List (HloOp τ sig (Elt F))).Forall fun op => op.writes ⊆ (layer2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The leaky threshold after layer 2: 7 operations, in order. -/
abbrev relu2 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S100000x8, .f32⟩) (broadcastInDim S100000x8 ![] bcast_S_S100000x8),
    StableHlo.TRef.binary (.of main_v48 : StableHlo.TRef sig ⟨S100000x8, .f32⟩) (.of main_call3_v0 : StableHlo.TRef sig ⟨S100000x8, .f32⟩) (.of main_call3_v1 : StableHlo.TRef sig ⟨S100000x8, .i1⟩) (cmpf .oge),
    StableHlo.TRef.unary (.of main_cst_8 : StableHlo.TRef sig ⟨S_, .f32⟩) (.of main_call3_v2 : StableHlo.TRef sig ⟨S_, .f32⟩) id,
    StableHlo.TRef.unary (.of main_call3_v2 : StableHlo.TRef sig ⟨S_, .f32⟩) (.of main_call3_v3 : StableHlo.TRef sig ⟨S100000x8, .f32⟩) (broadcastInDim S100000x8 ![] bcast_S_S100000x8),
    StableHlo.TRef.binary (.of main_call3_v3 : StableHlo.TRef sig ⟨S100000x8, .f32⟩) (.of main_v48 : StableHlo.TRef sig ⟨S100000x8, .f32⟩) (.of main_call3_v4 : StableHlo.TRef sig ⟨S100000x8, .f32⟩) mulf,
    StableHlo.TRef.ternary (.of main_call3_v1 : StableHlo.TRef sig ⟨S100000x8, .i1⟩) (.of main_v48 : StableHlo.TRef sig ⟨S100000x8, .f32⟩) (.of main_call3_v4 : StableHlo.TRef sig ⟨S100000x8, .f32⟩) (.of main_v49 : StableHlo.TRef sig ⟨S100000x8, .f32⟩) select ]
theorem relu2_sub : (relu2 : List (HloOp τ sig (Elt F))).Forall fun op => op.bufs ⊆ tcRefs τ sig :=
  ⟨nullary_bufs_sub .., unary_bufs_sub .., binary_bufs_sub .., unary_bufs_sub .., unary_bufs_sub .., binary_bufs_sub .., ternary_bufs_sub ..⟩
theorem relu2_fresh : (relu2 : List (HloOp τ sig (Elt F))).Forall fun op => op.fresh = ∅ := by
  simp only [List.Forall]; repeat' constructor
/-- The buffers those operations write. -/
abbrev relu2_W : List (Ref sig .tc) := [main_call3_cst, main_call3_v0, main_call3_v1, main_call3_v2, main_call3_v3, main_call3_v4, main_v49]
theorem relu2_writes : (relu2 : List (HloOp τ sig (Elt F))).Forall fun op => op.writes ⊆ (relu2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Edge_index sliced and flattened again, for layer 3: 4 operations, in order. -/
abbrev edges3 : List (HloOp τ sig (Elt F)) :=
  [ StableHlo.unary main_arg1 main_v50 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v50 main_v51 rfl shapeCasts_S1x3200000_S3200000,
    StableHlo.unary main_arg1 main_v52 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v52 main_v53 rfl shapeCasts_S1x3200000_S3200000 ]
theorem edges3_sub : (edges3 : List (HloOp τ sig (Elt F))).Forall fun op => op.bufs ⊆ tcRefs τ sig :=
  ⟨unary_bufs_sub .., reshape_bufs_sub .., unary_bufs_sub .., reshape_bufs_sub ..⟩
theorem edges3_fresh : (edges3 : List (HloOp τ sig (Elt F))).Forall fun op => op.fresh = ∅ := by
  simp only [List.Forall]; repeat' constructor
/-- The buffers those operations write. -/
abbrev edges3_W : List (Ref sig .tc) := [main_v50, main_v51, main_v52, main_v53]
theorem edges3_writes : (edges3 : List (HloOp τ sig (Elt F))).Forall fun op => op.writes ⊆ (edges3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 3's gather: 23 operations, in order. -/
abbrev take3 : List (HloOp τ sig (Elt F)) :=
  [ StableHlo.TRef.nullary (.of main_call4_c : StableHlo.TRef sig ⟨S_, .i32⟩) (constantI S_ 32 0#32),
    StableHlo.TRef.unary (.of main_call4_c : StableHlo.TRef sig ⟨S_, .i32⟩) (.of main_call4_v0 : StableHlo.TRef sig ⟨S3200000, .i32⟩) (broadcastInDim S3200000 ![] bcast_S_S3200000),
    StableHlo.TRef.binary (.of main_v51 : StableHlo.TRef sig ⟨S3200000, .i32⟩) (.of main_call4_v0 : StableHlo.TRef sig ⟨S3200000, .i32⟩) (.of main_call4_v1 : StableHlo.TRef sig ⟨S3200000, .i1⟩) (cmpi .slt),
    StableHlo.TRef.nullary (.of main_call4_c_0 : StableHlo.TRef sig ⟨S_, .i32⟩) (constantI S_ 32 100000#32),
    StableHlo.TRef.unary (.of main_call4_c_0 : StableHlo.TRef sig ⟨S_, .i32⟩) (.of main_call4_v2 : StableHlo.TRef sig ⟨S3200000, .i32⟩) (broadcastInDim S3200000 ![] bcast_S_S3200000),
    StableHlo.TRef.binary (.of main_v51 : StableHlo.TRef sig ⟨S3200000, .i32⟩) (.of main_call4_v2 : StableHlo.TRef sig ⟨S3200000, .i32⟩) (.of main_call4_v3 : StableHlo.TRef sig ⟨S3200000, .i32⟩) addi,
    StableHlo.TRef.ternary (.of main_call4_v1 : StableHlo.TRef sig ⟨S3200000, .i1⟩) (.of main_call4_v3 : StableHlo.TRef sig ⟨S3200000, .i32⟩) (.of main_v51 : StableHlo.TRef sig ⟨S3200000, .i32⟩) (.of main_call4_v4 : StableHlo.TRef sig ⟨S3200000, .i32⟩) select,
    StableHlo.TRef.unary (.of main_call4_v4 : StableHlo.TRef sig ⟨S3200000, .i32⟩) (.of main_call4_v5 : StableHlo.TRef sig ⟨S3200000x1, .i32⟩) (broadcastInDim S3200000x1 ![0] bcast_S3200000_S3200000x1_0),
    StableHlo.TRef.nullary (.of main_call4_c_1 : StableHlo.TRef sig ⟨S1, .i32⟩) (constantI S1 32 99999#32),
    StableHlo.TRef.nullary (.of main_call4_c_2 : StableHlo.TRef sig ⟨S_, .i32⟩) (constantI S_ 32 0#32),
    StableHlo.TRef.unary (.of main_call4_c_2 : StableHlo.TRef sig ⟨S_, .i32⟩) (.of main_call4_v6 : StableHlo.TRef sig ⟨S3200000x1, .i32⟩) (broadcastInDim S3200000x1 ![] bcast_S_S3200000x1),
    StableHlo.TRef.binary (.of main_call4_v5 : StableHlo.TRef sig ⟨S3200000x1, .i32⟩) (.of main_call4_v6 : StableHlo.TRef sig ⟨S3200000x1, .i32⟩) (.of main_call4_v7 : StableHlo.TRef sig ⟨S3200000x1, .i1⟩) (cmpi .sge),
    StableHlo.TRef.unary (.of main_call4_c_1 : StableHlo.TRef sig ⟨S1, .i32⟩) (.of main_call4_v8 : StableHlo.TRef sig ⟨S1x1, .i32⟩) (broadcastInDim S1x1 ![1] bcast_S1_S1x1_1),
    StableHlo.TRef.unary (.of main_call4_v8 : StableHlo.TRef sig ⟨S1x1, .i32⟩) (.of main_call4_v9 : StableHlo.TRef sig ⟨S3200000x1, .i32⟩) (broadcastInDim S3200000x1 ![0, 1] bcast_S1x1_S3200000x1_0_1),
    StableHlo.TRef.binary (.of main_call4_v5 : StableHlo.TRef sig ⟨S3200000x1, .i32⟩) (.of main_call4_v9 : StableHlo.TRef sig ⟨S3200000x1, .i32⟩) (.of main_call4_v10 : StableHlo.TRef sig ⟨S3200000x1, .i1⟩) (cmpi .sle),
    StableHlo.TRef.binary (.of main_call4_v7 : StableHlo.TRef sig ⟨S3200000x1, .i1⟩) (.of main_call4_v10 : StableHlo.TRef sig ⟨S3200000x1, .i1⟩) (.of main_call4_v11 : StableHlo.TRef sig ⟨S3200000x1, .i1⟩) andi,
    StableHlo.TRef.nullary (.of main_call4_c_3 : StableHlo.TRef sig ⟨S_, .i1⟩) (constantI S_ 1 1#1),
    StableHlo.TRef.binary (.of main_call4_v11 : StableHlo.TRef sig ⟨S3200000x1, .i1⟩) (.of main_call4_c_3 : StableHlo.TRef sig ⟨S_, .i1⟩) (.of main_call4_v12 : StableHlo.TRef sig ⟨S3200000, .i1⟩) (fun x v => Host.reduce IntOp.andi x v reducesTo_S3200000x1_S3200000_d1 h_S_),
    StableHlo.TRef.binary (.of main_v49 : StableHlo.TRef sig ⟨S100000x8, .f32⟩) (.of main_call4_v5 : StableHlo.TRef sig ⟨S3200000x1, .i32⟩) (.of main_call4_v13 : StableHlo.TRef sig ⟨S3200000x8, .f32⟩) (fun x i => Host.gather gather_S100000x8_S3200000x1_S3200000x8_1_0_n_n_0_1_18 x i),
    StableHlo.TRef.unary (.of main_call4_v12 : StableHlo.TRef sig ⟨S3200000, .i1⟩) (.of main_call4_v14 : StableHlo.TRef sig ⟨S3200000x8, .i1⟩) (broadcastInDim S3200000x8 ![0] bcast_S3200000_S3200000x8_0),
    StableHlo.TRef.nullary (.of main_call4_cst : StableHlo.TRef sig ⟨S_, .f32⟩) (constant S_ .f32 0x7FC00000#32),
    StableHlo.TRef.unary (.of main_call4_cst : StableHlo.TRef sig ⟨S_, .f32⟩) (.of main_call4_v15 : StableHlo.TRef sig ⟨S3200000x8, .f32⟩) (broadcastInDim S3200000x8 ![] bcast_S_S3200000x8),
    StableHlo.TRef.ternary (.of main_call4_v14 : StableHlo.TRef sig ⟨S3200000x8, .i1⟩) (.of main_call4_v13 : StableHlo.TRef sig ⟨S3200000x8, .f32⟩) (.of main_call4_v15 : StableHlo.TRef sig ⟨S3200000x8, .f32⟩) (.of main_v54 : StableHlo.TRef sig ⟨S3200000x8, .f32⟩) select ]
theorem take3_sub : (take3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub ..⟩
theorem take3_fresh : (take3 : List (HloOp τ sig (Elt F))).Forall fun op => op.fresh = ∅ := by
  simp only [List.Forall]; repeat' constructor
/-- The buffers those operations write. -/
abbrev take3_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v54]
theorem take3_writes : (take3 : List (HloOp τ sig (Elt F))).Forall fun op => op.writes ⊆ (take3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- Layer 3, the per-graph sums and counts, the means, and the two joined along the lanes: 39 operations, in order. -/
abbrev pool : List (HloOp τ sig (Elt F)) :=
  [ StableHlo.nullary main_cst_9 (constant S_ .f32 0x00000000#32),
    StableHlo.unary main_cst_9 main_v55 (broadcastInDim S100000x8 ![] bcast_S_S100000x8 : (⟨S_, .f32⟩ : BufTy).Contents (Elt F) → (⟨S100000x8, .f32⟩ : BufTy).Contents (Elt F)),
    StableHlo.unary main_v53 main_v56 (broadcastInDim S3200000x1 ![0] bcast_S3200000_S3200000x1_0 : (⟨S3200000, .i32⟩ : BufTy).Contents (Elt F) → (⟨S3200000x1, .i32⟩ : BufTy).Contents (Elt F)),
    StableHlo.ternary main_v55 main_v56 main_v54 main_v57 ((fun x i u => Host.scatterAdd scatter_S100000x8_S3200000x1_S3200000x8_1_0_0_1 x i u) : (⟨S100000x8, .f32⟩ : BufTy).Contents (Elt F) → (⟨S3200000x1, .i32⟩ : BufTy).Contents (Elt F) → (⟨S3200000x8, .f32⟩ : BufTy).Contents (Elt F) → (⟨S100000x8, .f32⟩ : BufTy).Contents (Elt F)),
    StableHlo.nullary main_cst_10 (constant S_ .f32 0x3F800000#32),
    StableHlo.unary main_cst_10 main_v58 (broadcastInDim S3200000x1 ![] bcast_S_S3200000x1 : (⟨S_, .f32⟩ : BufTy).Contents (Elt F) → (⟨S3200000x1, .f32⟩ : BufTy).Contents (Elt F)),
    StableHlo.nullary main_cst_11 (constant S_ .f32 0x00000000#32),
    StableHlo.unary main_cst_11 main_v59 (broadcastInDim S100000x1 ![] bcast_S_S100000x1 : (⟨S_, .f32⟩ : BufTy).Contents (Elt F) → (⟨S100000x1, .f32⟩ : BufTy).Contents (Elt F)),
    StableHlo.unary main_v53 main_v60 (broadcastInDim S3200000x1 ![0] bcast_S3200000_S3200000x1_0 : (⟨S3200000, .i32⟩ : BufTy).Contents (Elt F) → (⟨S3200000x1, .i32⟩ : BufTy).Contents (Elt F)),
    StableHlo.ternary main_v59 main_v60 main_v58 main_v61 ((fun x i u => Host.scatterAdd scatter_S100000x1_S3200000x1_S3200000x1_1_0_0_1 x i u) : (⟨S100000x1, .f32⟩ : BufTy).Contents (Elt F) → (⟨S3200000x1, .i32⟩ : BufTy).Contents (Elt F) → (⟨S3200000x1, .f32⟩ : BufTy).Contents (Elt F) → (⟨S100000x1, .f32⟩ : BufTy).Contents (Elt F)),
    StableHlo.nullary main_cst_12 (constant S_ .f32 0x3F800000#32),
    StableHlo.unary main_cst_12 main_v62 (broadcastInDim S100000x1 ![] bcast_S_S100000x1 : (⟨S_, .f32⟩ : BufTy).Contents (Elt F) → (⟨S100000x1, .f32⟩ : BufTy).Contents (Elt F)),
    StableHlo.binary main_v61 main_v62 main_v63 (maximumf : (⟨S100000x1, .f32⟩ : BufTy).Contents (Elt F) → (⟨S100000x1, .f32⟩ : BufTy).Contents (Elt F) → (⟨S100000x1, .f32⟩ : BufTy).Contents (Elt F)),
    StableHlo.unary main_v63 main_v64 (broadcastInDim S100000x8 ![0, 1] bcast_S100000x1_S100000x8_0_1 : (⟨S100000x1, .f32⟩ : BufTy).Contents (Elt F) → (⟨S100000x8, .f32⟩ : BufTy).Contents (Elt F)),
    StableHlo.binary main_v57 main_v64 main_v65 (Host.divf : (⟨S100000x8, .f32⟩ : BufTy).Contents (Elt F) → (⟨S100000x8, .f32⟩ : BufTy).Contents (Elt F) → (⟨S100000x8, .f32⟩ : BufTy).Contents (Elt F)),
    StableHlo.unary main_arg9 main_v66 ((transpose S8x4 [1, 0] · transposes_S4x8_S8x4_1_0) : (⟨S4x8, .f32⟩ : BufTy).Contents (Elt F) → (⟨S8x4, .f32⟩ : BufTy).Contents (Elt F)),
    StableHlo.binary main_v65 main_v66 main_v67 ((fun l r => Host.dotGeneral dot_S100000x8_S8x4_S100000x4_1_0_0_1_n_n none l r) : (⟨S100000x8, .f32⟩ : BufTy).Contents (Elt F) → (⟨S8x4, .f32⟩ : BufTy).Contents (Elt F) → (⟨S100000x4, .f32⟩ : BufTy).Contents (Elt F)),
    StableHlo.unary main_arg10 main_v68 (broadcastInDim S1x4 ![1] bcast_S4_S1x4_1 : (⟨S4, .f32⟩ : BufTy).Contents (Elt F) → (⟨S1x4, .f32⟩ : BufTy).Contents (Elt F)),
    StableHlo.unary main_v68 main_v69 (broadcastInDim S100000x4 ![0, 1] bcast_S1x4_S100000x4_0_1 : (⟨S1x4, .f32⟩ : BufTy).Contents (Elt F) → (⟨S100000x4, .f32⟩ : BufTy).Contents (Elt F)),
    StableHlo.binary main_v67 main_v69 main_v70 (addf : (⟨S100000x4, .f32⟩ : BufTy).Contents (Elt F) → (⟨S100000x4, .f32⟩ : BufTy).Contents (Elt F) → (⟨S100000x4, .f32⟩ : BufTy).Contents (Elt F)),
    StableHlo.unary main_arg11 main_v71 ((transpose S8x4 [1, 0] · transposes_S4x8_S8x4_1_0) : (⟨S4x8, .f32⟩ : BufTy).Contents (Elt F) → (⟨S8x4, .f32⟩ : BufTy).Contents (Elt F)),
    StableHlo.binary main_v49 main_v71 main_v72 ((fun l r => Host.dotGeneral dot_S100000x8_S8x4_S100000x4_1_0_0_1_n_n none l r) : (⟨S100000x8, .f32⟩ : BufTy).Contents (Elt F) → (⟨S8x4, .f32⟩ : BufTy).Contents (Elt F) → (⟨S100000x4, .f32⟩ : BufTy).Contents (Elt F)),
    StableHlo.binary main_v70 main_v72 main_v73 (addf : (⟨S100000x4, .f32⟩ : BufTy).Contents (Elt F) → (⟨S100000x4, .f32⟩ : BufTy).Contents (Elt F) → (⟨S100000x4, .f32⟩ : BufTy).Contents (Elt F)),
    StableHlo.nullary main_cst_13 (constant S_ .f32 0x00000000#32),
    StableHlo.unary main_cst_13 main_v74 (broadcastInDim S128x4 ![] bcast_S_S128x4 : (⟨S_, .f32⟩ : BufTy).Contents (Elt F) → (⟨S128x4, .f32⟩ : BufTy).Contents (Elt F)),
    StableHlo.unary main_arg2 main_v75 (broadcastInDim S100000x1 ![0] bcast_S100000_S100000x1_0 : (⟨S100000, .i32⟩ : BufTy).Contents (Elt F) → (⟨S100000x1, .i32⟩ : BufTy).Contents (Elt F)),
    StableHlo.ternary main_v74 main_v75 main_v73 main_v76 ((fun x i u => Host.scatterAdd scatter_S128x4_S100000x1_S100000x4_1_0_0_1 x i u) : (⟨S128x4, .f32⟩ : BufTy).Contents (Elt F) → (⟨S100000x1, .i32⟩ : BufTy).Contents (Elt F) → (⟨S100000x4, .f32⟩ : BufTy).Contents (Elt F) → (⟨S128x4, .f32⟩ : BufTy).Contents (Elt F)),
    StableHlo.nullary main_cst_14 (constant S_ .f32 0x3F800000#32),
    StableHlo.unary main_cst_14 main_v77 (broadcastInDim S100000x1 ![] bcast_S_S100000x1 : (⟨S_, .f32⟩ : BufTy).Contents (Elt F) → (⟨S100000x1, .f32⟩ : BufTy).Contents (Elt F)),
    StableHlo.nullary main_cst_15 (constant S_ .f32 0x00000000#32),
    StableHlo.unary main_cst_15 main_v78 (broadcastInDim S128x1 ![] bcast_S_S128x1 : (⟨S_, .f32⟩ : BufTy).Contents (Elt F) → (⟨S128x1, .f32⟩ : BufTy).Contents (Elt F)),
    StableHlo.unary main_arg2 main_v79 (broadcastInDim S100000x1 ![0] bcast_S100000_S100000x1_0 : (⟨S100000, .i32⟩ : BufTy).Contents (Elt F) → (⟨S100000x1, .i32⟩ : BufTy).Contents (Elt F)),
    StableHlo.ternary main_v78 main_v79 main_v77 main_v80 ((fun x i u => Host.scatterAdd scatter_S128x1_S100000x1_S100000x1_1_0_0_1 x i u) : (⟨S128x1, .f32⟩ : BufTy).Contents (Elt F) → (⟨S100000x1, .i32⟩ : BufTy).Contents (Elt F) → (⟨S100000x1, .f32⟩ : BufTy).Contents (Elt F) → (⟨S128x1, .f32⟩ : BufTy).Contents (Elt F)),
    StableHlo.nullary main_cst_16 (constant S_ .f32 0x3F800000#32),
    StableHlo.unary main_cst_16 main_v81 (broadcastInDim S128x1 ![] bcast_S_S128x1 : (⟨S_, .f32⟩ : BufTy).Contents (Elt F) → (⟨S128x1, .f32⟩ : BufTy).Contents (Elt F)),
    StableHlo.binary main_v80 main_v81 main_v82 (maximumf : (⟨S128x1, .f32⟩ : BufTy).Contents (Elt F) → (⟨S128x1, .f32⟩ : BufTy).Contents (Elt F) → (⟨S128x1, .f32⟩ : BufTy).Contents (Elt F)),
    StableHlo.unary main_v82 main_v83 (broadcastInDim S128x4 ![0, 1] bcast_S128x1_S128x4_0_1 : (⟨S128x1, .f32⟩ : BufTy).Contents (Elt F) → (⟨S128x4, .f32⟩ : BufTy).Contents (Elt F)),
    StableHlo.binary main_v76 main_v83 main_v84 (Host.divf : (⟨S128x4, .f32⟩ : BufTy).Contents (Elt F) → (⟨S128x4, .f32⟩ : BufTy).Contents (Elt F) → (⟨S128x4, .f32⟩ : BufTy).Contents (Elt F)),
    StableHlo.binary main_v84 main_v76 main_v85 ((fun a b => concatenate S128x8 1 [⟨S128x4, a⟩, ⟨S128x4, b⟩] concatenates_S128x4_S128x4_S128x8_d1) : (⟨S128x4, .f32⟩ : BufTy).Contents (Elt F) → (⟨S128x4, .f32⟩ : BufTy).Contents (Elt F) → (⟨S128x8, .f32⟩ : BufTy).Contents (Elt F)) ]
theorem pool_sub : (pool : List (HloOp τ sig (Elt F))).Forall fun op => op.bufs ⊆ tcRefs τ sig :=
  ⟨nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., unary_bufs_sub .., binary_bufs_sub .., unary_bufs_sub .., unary_bufs_sub .., binary_bufs_sub .., unary_bufs_sub .., binary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub ..⟩
theorem pool_fresh : (pool : List (HloOp τ sig (Elt F))).Forall fun op => op.fresh = ∅ := by
  simp only [List.Forall]; repeat' constructor
/-- The buffers those operations write. -/
abbrev pool_W : List (Ref sig .tc) := [main_cst_9, main_v55, main_v56, main_v57, main_cst_10, main_v58, main_cst_11, main_v59, main_v60, main_v61, main_cst_12, main_v62, main_v63, main_v64, main_v65, main_v66, main_v67, main_v68, main_v69, main_v70, main_v71, main_v72, main_v73, main_cst_13, main_v74, main_v75, main_v76, main_cst_14, main_v77, main_cst_15, main_v78, main_v79, main_v80, main_cst_16, main_v81, main_v82, main_v83, main_v84, main_v85]
theorem pool_writes : (pool : List (HloOp τ sig (Elt F))).Forall fun op => op.writes ⊆ (pool_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The classifier: the pooled rows against the transposed weight row, plus the bias: 5 operations, in order. -/
abbrev classify : List (HloOp τ sig (Elt F)) :=
  [ StableHlo.unary main_arg12 main_v86 ((transpose S8x1 [1, 0] · transposes_S1x8_S8x1_1_0) : (⟨S1x8, .f32⟩ : BufTy).Contents (Elt F) → (⟨S8x1, .f32⟩ : BufTy).Contents (Elt F)),
    StableHlo.binary main_v85 main_v86 main_v87 ((fun l r => Host.dotGeneral dot_S128x8_S8x1_S128x1_1_0_0_1_n_n none l r) : (⟨S128x8, .f32⟩ : BufTy).Contents (Elt F) → (⟨S8x1, .f32⟩ : BufTy).Contents (Elt F) → (⟨S128x1, .f32⟩ : BufTy).Contents (Elt F)),
    StableHlo.unary main_arg13 main_v88 (broadcastInDim S1x1 ![1] bcast_S1_S1x1_1 : (⟨S1, .f32⟩ : BufTy).Contents (Elt F) → (⟨S1x1, .f32⟩ : BufTy).Contents (Elt F)),
    StableHlo.unary main_v88 main_v89 (broadcastInDim S128x1 ![0, 1] bcast_S1x1_S128x1_0_1 : (⟨S1x1, .f32⟩ : BufTy).Contents (Elt F) → (⟨S128x1, .f32⟩ : BufTy).Contents (Elt F)),
    StableHlo.binary main_v87 main_v89 main_v90 (addf : (⟨S128x1, .f32⟩ : BufTy).Contents (Elt F) → (⟨S128x1, .f32⟩ : BufTy).Contents (Elt F) → (⟨S128x1, .f32⟩ : BufTy).Contents (Elt F)) ]
theorem classify_sub : (classify : List (HloOp τ sig (Elt F))).Forall fun op => op.bufs ⊆ tcRefs τ sig :=
  ⟨unary_bufs_sub .., binary_bufs_sub .., unary_bufs_sub .., unary_bufs_sub .., binary_bufs_sub ..⟩
theorem classify_fresh : (classify : List (HloOp τ sig (Elt F))).Forall fun op => op.fresh = ∅ := by
  simp only [List.Forall]; repeat' constructor
/-- The buffers those operations write. -/
abbrev classify_W : List (Ref sig .tc) := [main_v86, main_v87, main_v88, main_v89, main_v90]
theorem classify_writes : (classify : List (HloOp τ sig (Elt F))).Forall fun op => op.writes ⊆ (classify_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-! ## The program is the line -/

/-- The first sixty statements of the entry function are the first eight stretches in order, the last of them in
    tail position. -/
theorem main_part0_chain (c : Dev nD) : main_part0 (F := F) c = Pipeline.chainK
    [seq edges1, seq take1, seq layer1, seq relu1, seq edges2, seq take2, seq layer2] (seq relu2) := by
  chain_rfl

/-- The remaining statements are the last four stretches in order. -/
theorem main_part1_chain (c : Dev nD) : main_part1 (F := F) c = Pipeline.chain
    [seq edges3, seq take3, seq pool, seq classify] := by
  chain_rfl

/-- The twelve stretches. -/
abbrev parts : List (List (HloOp τ sig (Elt F))) := [edges1, take1, layer1, relu1, edges2, take2, layer2, relu2, edges3, take3, pool, classify]

/-- The whole line. -/
abbrev ops : List (HloOp τ sig (Elt F)) := List.flatten parts

theorem main_eq (c : Dev nD) : main (F := F) c = seq ops := by
  show (main_part0 (F := F) c >>= fun _ => main_part1 (F := F) c) = _
  rw [main_part1_chain, main_part0_chain, Pipeline.chainK_bind_chain]
  exact Cert.SeqChain.chain_map_seq parts

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  Cert.SeqChain.forall_flatten parts (by
    simp only [List.Forall]
    exact ⟨edges1_sub, take1_sub, layer1_sub, relu1_sub, edges2_sub, take2_sub, layer2_sub, relu2_sub, edges3_sub, take3_sub, pool_sub, classify_sub⟩)

theorem ops_fresh : ∀ op ∈ (ops : List (HloOp τ sig (Elt F))), op.fresh = ∅ :=
  List.forall_iff_forall_mem.mp (Cert.SeqChain.forall_flatten parts (by
    simp only [List.Forall]
    exact ⟨edges1_fresh, take1_fresh, layer1_fresh, relu1_fresh, edges2_fresh, take2_fresh, layer2_fresh, relu2_fresh, edges3_fresh, take3_fresh, pool_fresh, classify_fresh⟩))

/-- On every device, for any float values, from any memory with zero counters: every weakly fair execution of the
    reference terminates with each tensor buffer at the fold of the line's operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

/-! ## The buffers after each stretch

`valJ V0` is what the buffers hold once the first `J` stretches have run from contents `V0`. A buffer that stretch `J`
does not write holds after it what it held before (`valJ_keep`): this is how a value computed early, or an argument,
is carried unchanged to the stretch that reads it. -/

/-- The buffers after the first 1 stretch. -/
def val1 (V0 : Valuation τ sig (Elt F)) : Valuation τ sig (Elt F) := after edges1 (V0)
theorem val1_keep (V0 : Valuation τ sig (Elt F)) (r : Ref sig .tc) (h : r ∉ edges1_W) :
    val1 V0 (no_index (Proc.devRef .tc r)) = V0 (Proc.devRef .tc r) :=
  Cert.SeqChain.keep edges1 _ edges1_writes r h
/-- The buffers after the first 2 stretches. -/
def val2 (V0 : Valuation τ sig (Elt F)) : Valuation τ sig (Elt F) := after take1 (val1 V0)
theorem val2_keep (V0 : Valuation τ sig (Elt F)) (r : Ref sig .tc) (h : r ∉ take1_W) :
    val2 V0 (no_index (Proc.devRef .tc r)) = val1 V0 (Proc.devRef .tc r) :=
  Cert.SeqChain.keep take1 _ take1_writes r h
/-- The buffers after the first 3 stretches. -/
def val3 (V0 : Valuation τ sig (Elt F)) : Valuation τ sig (Elt F) := after layer1 (val2 V0)
theorem val3_keep (V0 : Valuation τ sig (Elt F)) (r : Ref sig .tc) (h : r ∉ layer1_W) :
    val3 V0 (no_index (Proc.devRef .tc r)) = val2 V0 (Proc.devRef .tc r) :=
  Cert.SeqChain.keep layer1 _ layer1_writes r h
/-- The buffers after the first 4 stretches. -/
def val4 (V0 : Valuation τ sig (Elt F)) : Valuation τ sig (Elt F) := after relu1 (val3 V0)
theorem val4_keep (V0 : Valuation τ sig (Elt F)) (r : Ref sig .tc) (h : r ∉ relu1_W) :
    val4 V0 (no_index (Proc.devRef .tc r)) = val3 V0 (Proc.devRef .tc r) :=
  Cert.SeqChain.keep relu1 _ relu1_writes r h
/-- The buffers after the first 5 stretches. -/
def val5 (V0 : Valuation τ sig (Elt F)) : Valuation τ sig (Elt F) := after edges2 (val4 V0)
theorem val5_keep (V0 : Valuation τ sig (Elt F)) (r : Ref sig .tc) (h : r ∉ edges2_W) :
    val5 V0 (no_index (Proc.devRef .tc r)) = val4 V0 (Proc.devRef .tc r) :=
  Cert.SeqChain.keep edges2 _ edges2_writes r h
/-- The buffers after the first 6 stretches. -/
def val6 (V0 : Valuation τ sig (Elt F)) : Valuation τ sig (Elt F) := after take2 (val5 V0)
theorem val6_keep (V0 : Valuation τ sig (Elt F)) (r : Ref sig .tc) (h : r ∉ take2_W) :
    val6 V0 (no_index (Proc.devRef .tc r)) = val5 V0 (Proc.devRef .tc r) :=
  Cert.SeqChain.keep take2 _ take2_writes r h
/-- The buffers after the first 7 stretches. -/
def val7 (V0 : Valuation τ sig (Elt F)) : Valuation τ sig (Elt F) := after layer2 (val6 V0)
theorem val7_keep (V0 : Valuation τ sig (Elt F)) (r : Ref sig .tc) (h : r ∉ layer2_W) :
    val7 V0 (no_index (Proc.devRef .tc r)) = val6 V0 (Proc.devRef .tc r) :=
  Cert.SeqChain.keep layer2 _ layer2_writes r h
/-- The buffers after the first 8 stretches. -/
def val8 (V0 : Valuation τ sig (Elt F)) : Valuation τ sig (Elt F) := after relu2 (val7 V0)
theorem val8_keep (V0 : Valuation τ sig (Elt F)) (r : Ref sig .tc) (h : r ∉ relu2_W) :
    val8 V0 (no_index (Proc.devRef .tc r)) = val7 V0 (Proc.devRef .tc r) :=
  Cert.SeqChain.keep relu2 _ relu2_writes r h
/-- The buffers after the first 9 stretches. -/
def val9 (V0 : Valuation τ sig (Elt F)) : Valuation τ sig (Elt F) := after edges3 (val8 V0)
theorem val9_keep (V0 : Valuation τ sig (Elt F)) (r : Ref sig .tc) (h : r ∉ edges3_W) :
    val9 V0 (no_index (Proc.devRef .tc r)) = val8 V0 (Proc.devRef .tc r) :=
  Cert.SeqChain.keep edges3 _ edges3_writes r h
/-- The buffers after the first 10 stretches. -/
def val10 (V0 : Valuation τ sig (Elt F)) : Valuation τ sig (Elt F) := after take3 (val9 V0)
theorem val10_keep (V0 : Valuation τ sig (Elt F)) (r : Ref sig .tc) (h : r ∉ take3_W) :
    val10 V0 (no_index (Proc.devRef .tc r)) = val9 V0 (Proc.devRef .tc r) :=
  Cert.SeqChain.keep take3 _ take3_writes r h
/-- The buffers after the first 11 stretches. -/
def val11 (V0 : Valuation τ sig (Elt F)) : Valuation τ sig (Elt F) := after pool (val10 V0)
theorem val11_keep (V0 : Valuation τ sig (Elt F)) (r : Ref sig .tc) (h : r ∉ pool_W) :
    val11 V0 (no_index (Proc.devRef .tc r)) = val10 V0 (Proc.devRef .tc r) :=
  Cert.SeqChain.keep pool _ pool_writes r h
/-- The buffers after the first 12 stretches. -/
def val12 (V0 : Valuation τ sig (Elt F)) : Valuation τ sig (Elt F) := after classify (val11 V0)
theorem val12_keep (V0 : Valuation τ sig (Elt F)) (r : Ref sig .tc) (h : r ∉ classify_W) :
    val12 V0 (no_index (Proc.devRef .tc r)) = val11 V0 (Proc.devRef .tc r) :=
  Cert.SeqChain.keep classify _ classify_writes r h

/-- The whole line's fold is the last of these. -/
theorem after_all (V0 : Valuation τ sig (Elt F)) : after (List.flatten [edges1, take1, layer1, relu1, edges2, take2, layer2, relu2, edges3, take3, pool, classify]) V0 = val12 V0 := by
  simp only [val1, val2, val3, val4, val5, val6, val7, val8, val9, val10, val11, val12, Cert.SeqChain.after_flatten_cons, Cert.SeqChain.after_flatten_nil]

end Cert.ReferenceIdeal.HostRun

end
-- ==== Proof.LibRowLayout.lean ====
/-
  Row layouts read at an index: the handful of re-arrangements a row-wise kernel and a row-wise host program make of a
  `[B, n]` array and its `[B]` / `[B, 1]` companions, each read at explicit coordinates.

  * a flat vector `[B]` cast to a column `[B, 1]`, and a column cast back to a flat vector: the same entry, row by row;
  * a column `[B, 1]` broadcast along the lanes to `[B, n]`: every lane of row `p` holds the column's entry `p`;
  * a rotation of the lanes by `k`: lane `q` holds what lane `q - k` held, around the end;
  * the same rotation spelt as a host program spells it, the last `k` lanes sliced off and joined in front of the rest;
  * a sum over the lanes on the vector unit: the sum of the row's entries, with no initial value in front;
  * a row divided by its own lane sum, the sum cast to a column and broadcast back: each entry's share of its row's total.

  All are statements about indices only; the element type is arbitrary except for the sum and the share, which are over
  extended reals. Nothing here mentions a program.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.KernelVsHost

noncomputable section

open scoped BigOperators

namespace Cert.RowLayout

open Idealize.ShloMosaic Idealize.ShloMosaic.ValueIdx

variable {α : Type}

/-! ## Casts between a flat vector and a column -/

/-- A flat vector cast to a column holds, in row `p`, the vector's entry `p`: both sit at row-major position `p`. -/
theorem castCol_apply {B : Nat} (v : (⟨1, ![B]⟩ : Shape).Idx → α)
    (h : Shape.ShapeCasts (⟨1, ![B]⟩ : Shape) (⟨2, ![B, 1]⟩ : Shape)) (p : Fin B) :
    shapeCast (⟨2, ![B, 1]⟩ : Shape) v h (ix2 p (0 : Fin 1)) = v (ix1 p) :=
  shapeCast_apply v h (ix2 p (0 : Fin 1)) (ix1 p) (by
    rw [Shape.rowMajor_val_one, Shape.rowMajor_val_two]
    show p.val = p.val * 1 + 0
    omega)

/-- A column cast to a flat vector holds, at `p`, the column's row `p`. -/
theorem castFlat_apply {B : Nat} (v : (⟨2, ![B, 1]⟩ : Shape).Idx → α)
    (h : Shape.ShapeCasts (⟨2, ![B, 1]⟩ : Shape) (⟨1, ![B]⟩ : Shape)) (p : Fin B) :
    shapeCast (⟨1, ![B]⟩ : Shape) v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-! ## A column broadcast along the lanes -/

/-- A column broadcast to `n` lanes holds the column's entry of row `p` in every lane of row `p`. -/
theorem bcastCol_apply {B n : Nat} (y : (⟨2, ![B, 1]⟩ : Shape).Idx → α)
    (h : Shape.Broadcasts (⟨2, ![B, 1]⟩ : Shape) (⟨2, ![B, n]⟩ : Shape)) (p : Fin B) (q : Fin n) :
    broadcastTo (⟨2, ![B, n]⟩ : Shape) y h (ix2 p q) = y (ix2 p (0 : Fin 1)) :=
  broadcastTo_apply y h (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-! ## A rotation of the lanes -/

/-- The lane `k` steps behind `q` among `n` lanes, around the end. -/
def behind {n : Nat} (k : Nat) (q : Fin n) : Fin n := ⟨(q.val + n - k % n) % n, Nat.mod_lt _ (Fin.pos q)⟩

/-- The vector unit's rotation of the lanes by the amount `sb`: lane `q` of the result holds what lane
    `q - sb` of the operand held (around the end), in the same row. -/
theorem rotLanes_apply {B n : Nat} (sb : BitVec 32) (x : (⟨2, ![B, n]⟩ : Shape).Idx → α)
    (h : Shape.Rotates (⟨2, ![B, n]⟩ : Shape) (1 : Fin 2) none) (p : Fin B) (q : Fin n) :
    dynamicRotate (s := (⟨2, ![B, n]⟩ : Shape)) (1 : Fin 2) sb none x h (ix2 p q) = x (ix2 p (behind sb.toNat q)) :=
  dynamicRotate_apply (1 : Fin 2) sb x h (ix2 p q) (ix2 p (behind sb.toNat q)) (fun b => match b with
    | ⟨0, _⟩ => by
        show p.val = if (⟨0, _⟩ : Fin 2) = (1 : Fin 2) then _ else p.val
        rw [if_neg (Fin.ne_of_val_ne Nat.zero_ne_one)]
    | ⟨1, _⟩ => by
        show (q.val + n - sb.toNat % n) % n = if (⟨1, _⟩ : Fin 2) = (1 : Fin 2) then (q.val + n - sb.toNat % n) % n else _
        exact (if_pos (Fin.ext rfl)).symm)

/-- Behind a lane among the first `k`: the rotation wraps, and the lane is `n - k` further on. -/
theorem behind_val_of_lt {n k : Nat} (hk : k < n) (q : Fin n) (hq : q.val < k) : (behind k q).val = q.val + n - k := by
  show (q.val + n - k % n) % n = _
  rw [Nat.mod_eq_of_lt hk, Nat.mod_eq_of_lt (by omega)]

/-- Behind a lane past the first `k`: no wrap, the lane is `k` back. -/
theorem behind_val_of_ge {n k : Nat} (hk : k < n) (q : Fin n) (hq : k ≤ q.val) : (behind k q).val = q.val - k := by
  have hqn : q.val < n := q.isLt
  show (q.val + n - k % n) % n = _
  rw [Nat.mod_eq_of_lt hk, show q.val + n - k = (q.val - k) + n by omega, Nat.add_mod_right, Nat.mod_eq_of_lt (by omega)]

/-- The same rotation as a host program spells it: the last `k` lanes (a slice at lane offset `r = n - k`) joined in
    front of the first `r` lanes (a slice at offset `0`). Lane `q` of the join holds what lane `q - k` of the operand
    held, around the end: a lane among the first `k` comes from the first piece, `r` further on; a later lane from the
    second piece, `k` back. -/
theorem rollConcat_apply {B n k r : Nat} (hkr : k + r = n) (hk0 : 0 < k) (hr0 : 0 < r)
    (x : (⟨2, ![B, n]⟩ : Shape).Idx → α)
    (hs₁ : Shape.Slices (⟨2, ![B, n]⟩ : Shape) ![0, r] (⟨2, ![B, k]⟩ : Shape))
    (hs₂ : Shape.Slices (⟨2, ![B, n]⟩ : Shape) ![0, 0] (⟨2, ![B, r]⟩ : Shape))
    (hc : Shape.Concatenates [(⟨2, ![B, k]⟩ : Shape), (⟨2, ![B, r]⟩ : Shape)] (⟨2, ![B, n]⟩ : Shape) (1 : Fin 2))
    (p : Fin B) (q : Fin n) :
    concatenate (⟨2, ![B, n]⟩ : Shape) (1 : Fin 2)
        [⟨(⟨2, ![B, k]⟩ : Shape), extractStridedSlice (⟨2, ![B, k]⟩ : Shape) ![0, r] x hs₁⟩,
         ⟨(⟨2, ![B, r]⟩ : Shape), extractStridedSlice (⟨2, ![B, r]⟩ : Shape) ![0, 0] x hs₂⟩] hc (ix2 p q)
      = x (ix2 p (behind k q)) := by
  have hkn : k < n := by omega
  have hqn : q.val < n := q.isLt
  by_cases hq : q.val < k
  · -- a lane of the first piece
    refine (concatenate_pair_apply_left (t := (⟨2, ![B, n]⟩ : Shape)) (s₁ := (⟨2, ![B, k]⟩ : Shape)) (s₂ := (⟨2, ![B, r]⟩ : Shape))
      (1 : Fin 2) _ _ hc (ix2 p q) rfl (ix2 p (⟨q.val, hq⟩ : Fin k))
      (fun b => match b with | ⟨0, _⟩ => rfl | ⟨1, _⟩ => rfl)).trans ?_
    refine extractStridedSlice_apply ![0, r] x hs₁ (ix2 p (⟨q.val, hq⟩ : Fin k)) (ix2 p (behind k q)) (fun a => match a with
      | ⟨0, _⟩ => by show p.val = 0 + p.val; omega
      | ⟨1, _⟩ => by
          show (behind k q).val = r + q.val
          rw [behind_val_of_lt hkn q hq]; omega)
  · -- a lane of the second piece
    have hq' : k ≤ q.val := Nat.le_of_not_lt hq
    refine (concatenate_pair_apply_right (t := (⟨2, ![B, n]⟩ : Shape)) (s₁ := (⟨2, ![B, k]⟩ : Shape)) (s₂ := (⟨2, ![B, r]⟩ : Shape))
      (1 : Fin 2) _ _ hc (ix2 p q) rfl rfl (ix2 p (⟨q.val - k, by omega⟩ : Fin r))
      (fun b => match b with
        | ⟨0, _⟩ => fun _ => rfl
        | ⟨1, _⟩ => fun hne => absurd (Fin.ext rfl) hne)
      (by show (q.val - k) + k = q.val; omega)).trans ?_
    refine extractStridedSlice_apply ![0, 0] x hs₂ (ix2 p (⟨q.val - k, by omega⟩ : Fin r)) (ix2 p (behind k q)) (fun a => match a with
      | ⟨0, _⟩ => by show p.val = 0 + p.val; omega
      | ⟨1, _⟩ => by
          show (behind k q).val = 0 + (q.val - k)
          rw [behind_val_of_ge hkn q hq']; omega)

/-! ## A sum over the lanes -/

/-- The vector unit's sum over the lanes (its accumulator the zero word, the sum's neutral element) is, in row `p`,
    the sum of the row's `n` entries. -/
theorem laneSum_apply {B n : Nat} (v : FVec Ideal (⟨2, ![B, n]⟩ : Shape) .f32)
    (h : Shape.Reduces (⟨2, ![B, n]⟩ : Shape) [(1 : Fin 2)] (⟨1, ![B]⟩ : Shape)) (hφ : FKind.Formats .f32)
    (hacc : (0x00000000#32 : BitVec 32) = FKind.add.neutral .f32 hφ) (p : Fin B) :
    multiReduction .add [(1 : Fin 2)] (⟨1, ![B]⟩ : Shape) v 0x00000000#32 h hφ hacc (ix1 p) = ∑ k : Fin n, v (ix2 p k) := by
  refine (Ideal.multiReduction_add_single v 0x00000000#32 h hφ hacc (ix1 p)).trans ?_
  refine Finset.sum_congr rfl fun k _ => ?_
  exact congrArg v (funext fun a => Fin.ext (by match a with | ⟨0, _⟩ => rfl | ⟨1, _⟩ => rfl))

/-- A ROW'S SHARE OF ITS OWN TOTAL: a `[B, n]` vector divided by its lane sums — the sums taken on the vector unit, cast
    to a column and broadcast back along the lanes, as a `keepdims` sum is — holds at `(p, q)` the entry divided by the
    sum of row `p`. -/
theorem rowShare_apply {B n : Nat} (U : FVec Ideal (⟨2, ![B, n]⟩ : Shape) .f32)
    (hred : Shape.Reduces (⟨2, ![B, n]⟩ : Shape) [(1 : Fin 2)] (⟨1, ![B]⟩ : Shape)) (hφ : FKind.Formats .f32)
    (hacc : (0x00000000#32 : BitVec 32) = FKind.add.neutral .f32 hφ)
    (hcast : Shape.ShapeCasts (⟨1, ![B]⟩ : Shape) (⟨2, ![B, 1]⟩ : Shape))
    (hbc : Shape.Broadcasts (⟨2, ![B, 1]⟩ : Shape) (⟨2, ![B, n]⟩ : Shape)) (p : Fin B) (q : Fin n) :
    divf U (broadcastTo (⟨2, ![B, n]⟩ : Shape)
        (shapeCast (⟨2, ![B, 1]⟩ : Shape) (multiReduction .add [(1 : Fin 2)] (⟨1, ![B]⟩ : Shape) U 0x00000000#32 hred hφ hacc) hcast)
        hbc) (ix2 p q)
      = Ideal.div (U (ix2 p q)) (∑ k : Fin n, U (ix2 p k)) := by
  refine congrArg (Ideal.div (U (ix2 p q))) ?_
  exact (bcastCol_apply _ hbc p q).trans ((castCol_apply _ hcast p).trans (laneSum_apply U hred hφ hacc p))

end Cert.RowLayout

end
-- ==== Proof.LibHostRowOps.lean ====
/-
  Two operations a host program makes on a `[B, n]` array, each read at an entry.

  * A column `[B, 1]` laid along both axes of `[B, n]` by the host's broadcast: every lane of row `p` holds the
    column's entry of row `p`. This is how a host program spells a per-row factor kept as a column.
  * The host's product of an `M x K` matrix by a `K x N` matrix at the exact extended reals: entry `(p, c)` is the sum
    over `k` of left `(p, k)` times right `(k, c)`. Nothing is rounded and no order of accumulation is left. The
    product's dimension record enters only through how it places the coordinates: the left operand is read at
    (row of the result, k), the right operand at (k, column of the result); these placement facts are hypotheses, so
    the lemma serves any record of that pattern.

  Nothing here mentions a program.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.HostRowOps

open Idealize.ShloMosaic Idealize.ShloMosaic.ValueIdx

variable {α : Type}

/-- A column laid along both axes of `[B, n]` holds the column's entry of row `p` in every lane of row `p`. -/
theorem bcastColHost_apply {B n : Nat} (y : (⟨2, ![B, 1]⟩ : Shape).Idx → α)
    (h : (⟨2, ![B, 1]⟩ : Shape).BroadcastsInDim (⟨2, ![B, n]⟩ : Shape) ![0, 1]) (p : Fin B) (q : Fin n) :
    broadcastInDim (⟨2, ![B, n]⟩ : Shape) ![0, 1] h y (ix2 p q) = y (ix2 p (0 : Fin 1)) :=
  broadcastInDim_apply _ h y (ix2 p q) (ix2 p (0 : Fin 1)) (fun a => match a with
    | ⟨0, _⟩ => by
        show p.val = if B = 1 then 0 else p.val
        split
        · have := p.isLt; omega
        · rfl
    | ⟨1, _⟩ => by
        show 0 = if (1 : Nat) = 1 then 0 else q.val
        rw [if_pos rfl])

/-- Entry (p, c) of the host's M x K by K x N product is the sum over k of left (p, k) * right (k, c). -/
theorem hostDot_apply {M K N : Nat} {φ₁ φ₂ : FTy}
    (D : DotDims (⟨2, ![M, K]⟩ : Shape) (⟨2, ![K, N]⟩ : Shape) (⟨2, ![M, N]⟩ : Shape))
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision)
    (l : FVec Ideal (⟨2, ![M, K]⟩ : Shape) φ₁) (r : FVec Ideal (⟨2, ![K, N]⟩ : Shape) φ₂) (p : Fin M) (c : Fin N) :
    Host.dotGeneral (F := Ideal) D prec l r (ix2 p c) = ∑ k : Fin K, l (ix2 p k) * r (ix2 k c) := by
  refine (Ideal.dotGeneral_apply D prec .single l r (ix2 p c)).trans ?_
  rw [← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.HostRowOps

end
-- ==== Proof.Classifier.lean ====
/-
  The classifier in its two spellings, read at an entry.

  The kernel multiplies the pooled array `[128, 8]` by the weight row `[1, 8]` broadcast down the rows, sums each row's
  eight lanes on the vector unit, keeps the sums as a column, and adds the bias read out of a `[1, 1]` array.
  The reference multiplies the pooled array by the transposed weight row (an `[8, 1]` matrix) with the host's matrix
  product and adds the `[1]` bias broadcast to `[128, 1]`. On the extended reals both hold, in row `p`,

      (sum over k of pooled (p, k) * weight (0, k)) + bias 0,

  with nothing rounded and no order of accumulation left; the kernel's sum starts from the zero word, the sum's
  neutral element. No finiteness is needed: the two sides are the same sum of the same products.
-/
import proofs.«138927_g26774826123929_cont_8to1_2001_3_alg».proof.Proof.Gen.KernelIdeal.Skeleton
import proofs.«138927_g26774826123929_cont_8to1_2001_3_alg».proof.Proof.Gen.ReferenceIdeal
import proofs.«138927_g26774826123929_cont_8to1_2001_3_alg».proof.Proof.LibRowLayout
import proofs.«138927_g26774826123929_cont_8to1_2001_3_alg».proof.Proof.LibHostRowOps
import Idealize.ShloMosaic.Lib.ValueLayout

noncomputable section

open scoped BigOperators

namespace Cert.Classifier

open Idealize.ShloMosaic Idealize.ShloMosaic.ValueIdx

/-- Row `p` of the kernel's result: the row's eight products summed, plus the bias array's one entry. -/
theorem kernel_apply (P : FVec Ideal Cert.KernelIdeal.S128x8 .f32) (W : FVec Ideal Cert.KernelIdeal.S1x8 .f32)
    (B : FVec Ideal Cert.KernelIdeal.S1x1 .f32) (p : Fin 128) :
    Cert.KernelIdeal.Gen.k0_pay1 (F := Ideal) P W B (ix2 p (0 : Fin 1))
      = (∑ k : Fin 8, P (ix2 p k) * W (ix2 (0 : Fin 1) k)) + B (ix2 (0 : Fin 1) (0 : Fin 1)) := by
  unfold Cert.KernelIdeal.Gen.k0_pay1
  refine (addf_apply _ _ _).trans (congrArg₂ (· + ·) ?_ ?_)
  · refine (Cert.RowLayout.castCol_apply _ _ p).trans ((Cert.RowLayout.laneSum_apply _ _ _ _ p).trans
      (Finset.sum_congr rfl fun k _ => ?_))
    refine (mulf_apply _ _ _).trans (congrArg₂ (· * ·) ?_ ?_)
    · exact congrFun (shapeCast_self P _) (ix2 p k)
    · exact broadcastTo_1b_ab_apply W _ p k
  · show B (fun a => ⟨(![0, 0] : Fin 2 → Nat) a, _⟩) = B (ix2 (0 : Fin 1) (0 : Fin 1))
    exact congrArg B (funext fun a => Fin.ext (by match a with | ⟨0, _⟩ => rfl | ⟨1, _⟩ => rfl))

/-- The reference's classifier as one function of the pooled array, the weight row and the bias: the host's product
    with the transposed weight row, plus the bias broadcast to a column. -/
def hostClassifier {F : FTy → Type} [FloatOps F] (P : FVec F Cert.ReferenceIdeal.S128x8 .f32) (W : FVec F Cert.ReferenceIdeal.S1x8 .f32)
    (bias : FVec F Cert.ReferenceIdeal.S1 .f32) : FVec F Cert.ReferenceIdeal.S128x1 .f32 :=
  addf (Host.dotGeneral Cert.ReferenceIdeal.dot_S128x8_S8x1_S128x1_1_0_0_1_n_n none P
      (transpose Cert.ReferenceIdeal.S8x1 [1, 0] W Cert.ReferenceIdeal.Gen.transposes_S1x8_S8x1_1_0))
    (broadcastInDim Cert.ReferenceIdeal.S128x1 ![0, 1] Cert.ReferenceIdeal.Gen.bcast_S1x1_S128x1_0_1
      (broadcastInDim Cert.ReferenceIdeal.S1x1 ![1] Cert.ReferenceIdeal.Gen.bcast_S1_S1x1_1 bias))

/-- How the reference's product places its coordinates: the left operand is read at (row, k), the right at (k, column). -/
theorem dot_lhs0 (j : Cert.ReferenceIdeal.S128x1.Idx) (q : Cert.ReferenceIdeal.dot_S128x8_S8x1_S128x1_1_0_0_1_n_n.contr.Idx) :
    (Cert.ReferenceIdeal.dot_S128x8_S8x1_S128x1_1_0_0_1_n_n.lhsIdx j q 0).val = (j 0).val := by
  simp [DotDims.lhsIdx, Cert.ReferenceIdeal.dot_S128x8_S8x1_S128x1_1_0_0_1_n_n]; try rfl
theorem dot_lhs1 (j : Cert.ReferenceIdeal.S128x1.Idx) (q : Cert.ReferenceIdeal.dot_S128x8_S8x1_S128x1_1_0_0_1_n_n.contr.Idx) :
    (Cert.ReferenceIdeal.dot_S128x8_S8x1_S128x1_1_0_0_1_n_n.lhsIdx j q 1).val = (q ⟨0, by decide⟩).val := by
  simp [DotDims.lhsIdx, Cert.ReferenceIdeal.dot_S128x8_S8x1_S128x1_1_0_0_1_n_n]; try rfl
theorem dot_rhs0 (j : Cert.ReferenceIdeal.S128x1.Idx) (q : Cert.ReferenceIdeal.dot_S128x8_S8x1_S128x1_1_0_0_1_n_n.contr.Idx) :
    (Cert.ReferenceIdeal.dot_S128x8_S8x1_S128x1_1_0_0_1_n_n.rhsIdx j q 0).val = (q ⟨0, by decide⟩).val := by
  simp [DotDims.rhsIdx, Cert.ReferenceIdeal.dot_S128x8_S8x1_S128x1_1_0_0_1_n_n]; try rfl
theorem dot_rhs1 (j : Cert.ReferenceIdeal.S128x1.Idx) (q : Cert.ReferenceIdeal.dot_S128x8_S8x1_S128x1_1_0_0_1_n_n.contr.Idx) :
    (Cert.ReferenceIdeal.dot_S128x8_S8x1_S128x1_1_0_0_1_n_n.rhsIdx j q 1).val = (j 1).val := by
  simp [DotDims.rhsIdx, Cert.ReferenceIdeal.dot_S128x8_S8x1_S128x1_1_0_0_1_n_n]
  all_goals first | rfl | exact (Nat.lt_one_iff.mp (show (j 1).val < 1 from (j 1).isLt)).symm

/-- Row `p` of the reference's result: the same eight products summed, plus the bias vector's one entry. -/
theorem reference_apply (P : FVec Ideal Cert.ReferenceIdeal.S128x8 .f32) (W : FVec Ideal Cert.ReferenceIdeal.S1x8 .f32)
    (bias : FVec Ideal Cert.ReferenceIdeal.S1 .f32) (p : Fin 128) :
    hostClassifier (F := Ideal) P W bias (ix2 p (0 : Fin 1))
      = (∑ k : Fin 8, P (ix2 p k) * W (ix2 (0 : Fin 1) k)) + bias (ix1 (0 : Fin 1)) := by
  unfold hostClassifier
  refine (addf_apply _ _ _).trans (congrArg₂ (· + ·) ?_ ?_)
  · refine (Cert.HostRowOps.hostDot_apply Cert.ReferenceIdeal.dot_S128x8_S8x1_S128x1_1_0_0_1_n_n rfl rfl
      dot_lhs0 dot_lhs1 dot_rhs0 dot_rhs1 none P _ p (0 : Fin 1)).trans (Finset.sum_congr rfl fun k _ => ?_)
    exact congrArg (P (ix2 p k) * ·) (transpose_ix2_apply W _ k (0 : Fin 1))
  · refine (broadcastInDim_apply _ _ _ (ix2 p (0 : Fin 1)) (ix2 (0 : Fin 1) (0 : Fin 1)) (fun a => ?_)).trans ?_
    · match a with
      | ⟨0, _⟩ => rfl
      | ⟨1, _⟩ => rfl
    · refine broadcastInDim_apply _ _ bias (ix2 (0 : Fin 1) (0 : Fin 1)) (ix1 (0 : Fin 1)) (fun a => ?_)
      match a with
      | ⟨0, _⟩ => rfl

/-- THE TWO SPELLINGS ARE ONE FUNCTION of the pooled array, the weight row and the bias (the kernel's bias array is
    the bias vector reshaped to `[1, 1]`). -/
theorem kernel_eq_reference (P : FVec Ideal Cert.KernelIdeal.S128x8 .f32) (W : FVec Ideal Cert.KernelIdeal.S1x8 .f32)
    (bias : FVec Ideal Cert.KernelIdeal.S1 .f32) :
    Cert.KernelIdeal.Gen.k0_pay1 (F := Ideal) P W (shapeCast Cert.KernelIdeal.S1x1 bias Cert.KernelIdeal.Gen.shapeCasts_S1_S1x1)
      = hostClassifier (F := Ideal) P W bias := by
  funext i
  obtain ⟨p, q, rfl⟩ : ∃ (p : Fin 128) (q : Fin 1), i = ix2 p q := ⟨i 0, i 1, eq_ix2 i⟩
  obtain rfl : q = 0 := Subsingleton.elim _ _
  rw [kernel_apply, reference_apply]
  exact congrArg _ (Cert.RowLayout.castCol_apply bias _ (0 : Fin 1))

end Cert.Classifier

end
-- ==== Proof.RefOut.lean ====
/-
  The reference's result, read off its last stretch.

  The last five operations of the reference are the classifier: the weight row transposed, the host's matrix product
  of the pooled array with it, the bias broadcast to a column, and their sum. The pooled array is what the stretch
  before left; the weight row and the bias are arguments, which no stretch writes.
-/
import proofs.«138927_g26774826123929_cont_8to1_2001_3_alg».proof.Proof.RefRun
import proofs.«138927_g26774826123929_cont_8to1_2001_3_alg».proof.Proof.Classifier

set_option maxRecDepth 8192

noncomputable section

namespace Cert.ReferenceIdeal.HostRun

open Cert.ReferenceIdeal Cert.ReferenceIdeal.Gen Idealize.ShloMosaic Idealize.ShloMosaic.TcCoe Idealize.SL.Sem Idealize.ShloMosaic.StableHlo

variable {F : FTy → Type} [FloatOps F]

/-- The reference's result is the classifier of the pooled array (as the eleventh stretch left it), the weight row
    and the bias (as launched). -/
theorem val12_result (V0 : Valuation τ sig (Elt F)) :
    val12 V0 (Proc.devRef .tc main_v90)
      = Cert.Classifier.hostClassifier (val11 V0 (Proc.devRef .tc main_v85)) (V0 (Proc.devRef .tc main_arg12)) (V0 (Proc.devRef .tc main_arg13)) := by
  unfold val12 Cert.Classifier.hostClassifier
  simp only [classify]
  after_results_simp
  simp (disch := decide) only [val11_keep, val10_keep, val9_keep, val8_keep, val7_keep, val6_keep, val5_keep, val4_keep,
    val3_keep, val2_keep, val1_keep]
  all_goals (try rfl)

/-- No stretch writes an argument: each ends as launched. -/
theorem val12_arg (V0 : Valuation τ sig (Elt F)) (r : Ref sig .tc)
    (h : r ∈ [main_arg0, main_arg1, main_arg2, main_arg3, main_arg4, main_arg5, main_arg6, main_arg7, main_arg8, main_arg9,
      main_arg10, main_arg11, main_arg12, main_arg13]) :
    val12 V0 (Proc.devRef .tc r) = V0 (Proc.devRef .tc r) := by
  simp only [List.mem_cons, List.not_mem_nil, or_false] at h
  rcases h with rfl | rfl | rfl | rfl | rfl | rfl | rfl | rfl | rfl | rfl | rfl | rfl | rfl | rfl <;>
    simp (disch := decide) only [val12_keep, val11_keep, val10_keep, val9_keep, val8_keep, val7_keep, val6_keep, val5_keep,
      val4_keep, val3_keep, val2_keep, val1_keep]

/-- The run, read: on every device the reference ends with its result at the classifier of the pooled array the
    eleventh stretch leaves (from the launch contents), the launched weight row and bias, and every argument as
    launched. -/
theorem run_read (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90)
        = Cert.Classifier.hostClassifier (val11 (launchContents m c) (Proc.devRef .tc main_v85))
            (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun r h c => ⟨((h c main_v90).trans (congrFun (after_all _) _)).trans (val12_result _),
      ((h c main_arg0).trans (congrFun (after_all _) _)).trans (val12_arg _ main_arg0 (by decide)),
      ((h c main_arg1).trans (congrFun (after_all _) _)).trans (val12_arg _ main_arg1 (by decide)),
      ((h c main_arg2).trans (congrFun (after_all _) _)).trans (val12_arg _ main_arg2 (by decide)),
      ((h c main_arg3).trans (congrFun (after_all _) _)).trans (val12_arg _ main_arg3 (by decide)),
      ((h c main_arg4).trans (congrFun (after_all _) _)).trans (val12_arg _ main_arg4 (by decide)),
      ((h c main_arg5).trans (congrFun (after_all _) _)).trans (val12_arg _ main_arg5 (by decide)),
      ((h c main_arg6).trans (congrFun (after_all _) _)).trans (val12_arg _ main_arg6 (by decide)),
      ((h c main_arg7).trans (congrFun (after_all _) _)).trans (val12_arg _ main_arg7 (by decide)),
      ((h c main_arg8).trans (congrFun (after_all _) _)).trans (val12_arg _ main_arg8 (by decide)),
      ((h c main_arg9).trans (congrFun (after_all _) _)).trans (val12_arg _ main_arg9 (by decide)),
      ((h c main_arg10).trans (congrFun (after_all _) _)).trans (val12_arg _ main_arg10 (by decide)),
      ((h c main_arg11).trans (congrFun (after_all _) _)).trans (val12_arg _ main_arg11 (by decide)),
      ((h c main_arg12).trans (congrFun (after_all _) _)).trans (val12_arg _ main_arg12 (by decide)),
      ((h c main_arg13).trans (congrFun (after_all _) _)).trans (val12_arg _ main_arg13 (by decide))⟩)
    (run m ρ)

end Cert.ReferenceIdeal.HostRun

end
-- ==== Proof.AgreeEdges.lean ====
/-
  The two programs' host computations agree, stretch by stretch: the slicings of the edge list and the leaky thresholds.

  Both programs run the same graph network on the host; the kernel program slices the edge list once where the
  reference slices it three times, so the two lines of operations name their buffers differently, but each stretch of
  one is the same operations as a stretch of the other. For each pair of matching stretches: if the buffers the stretch
  reads hold equal contents in the two programs, so do the buffers it leaves for the later stretches. Each is read
  off by running the stretch's operations on both sides; the two terms are then the same term.
-/
import proofs.«138927_g26774826123929_cont_8to1_2001_3_alg».proof.Proof.KernelHost
import proofs.«138927_g26774826123929_cont_8to1_2001_3_alg».proof.Proof.RefRun

set_option maxRecDepth 8192

noncomputable section

namespace Cert.HostAgree

open Idealize.ShloMosaic Idealize.ShloMosaic.TcCoe Idealize.SL.Sem Idealize.ShloMosaic.StableHlo

variable {F : FTy → Type} [FloatOps F]

/-- The edge list's source row and target row, sliced out and flattened, are the same arrays in both programs when the edge lists are (the reference's first slicing). -/
theorem agree_edgesA (WK : Valuation Cert.KernelIdeal.τ Cert.KernelIdeal.sig (Elt F)) (WR : Valuation Cert.ReferenceIdeal.τ Cert.ReferenceIdeal.sig (Elt F))
    (h0 : WK (Proc.devRef .tc Cert.KernelIdeal.main_arg1) = WR (Proc.devRef .tc Cert.ReferenceIdeal.main_arg1)) :
    after Cert.KernelIdeal.Gen.hostOps0 WK (Proc.devRef .tc Cert.KernelIdeal.main_v1) = after Cert.ReferenceIdeal.HostRun.edges1 WR (Proc.devRef .tc Cert.ReferenceIdeal.main_v1)
    ∧ after Cert.KernelIdeal.Gen.hostOps0 WK (Proc.devRef .tc Cert.KernelIdeal.main_v3) = after Cert.ReferenceIdeal.HostRun.edges1 WR (Proc.devRef .tc Cert.ReferenceIdeal.main_v3) := by
  refine ⟨?_, ?_⟩
  all_goals simp only [Cert.KernelIdeal.Gen.hostOps0, Cert.ReferenceIdeal.HostRun.edges1]
  all_goals after_results_simp
  all_goals (try simp only [h0])
  all_goals (try rfl)

/-- The same for the reference's second slicing of the edge list: it recomputes what the kernel program computed once. -/
theorem agree_edgesB (WK : Valuation Cert.KernelIdeal.τ Cert.KernelIdeal.sig (Elt F)) (WR : Valuation Cert.ReferenceIdeal.τ Cert.ReferenceIdeal.sig (Elt F))
    (h0 : WK (Proc.devRef .tc Cert.KernelIdeal.main_arg1) = WR (Proc.devRef .tc Cert.ReferenceIdeal.main_arg1)) :
    after Cert.KernelIdeal.Gen.hostOps0 WK (Proc.devRef .tc Cert.KernelIdeal.main_v1) = after Cert.ReferenceIdeal.HostRun.edges2 WR (Proc.devRef .tc Cert.ReferenceIdeal.main_v26)
    ∧ after Cert.KernelIdeal.Gen.hostOps0 WK (Proc.devRef .tc Cert.KernelIdeal.main_v3) = after Cert.ReferenceIdeal.HostRun.edges2 WR (Proc.devRef .tc Cert.ReferenceIdeal.main_v28) := by
  refine ⟨?_, ?_⟩
  all_goals simp only [Cert.KernelIdeal.Gen.hostOps0, Cert.ReferenceIdeal.HostRun.edges2]
  all_goals after_results_simp
  all_goals (try simp only [h0])
  all_goals (try rfl)

/-- The same for the reference's third slicing. -/
theorem agree_edgesC (WK : Valuation Cert.KernelIdeal.τ Cert.KernelIdeal.sig (Elt F)) (WR : Valuation Cert.ReferenceIdeal.τ Cert.ReferenceIdeal.sig (Elt F))
    (h0 : WK (Proc.devRef .tc Cert.KernelIdeal.main_arg1) = WR (Proc.devRef .tc Cert.ReferenceIdeal.main_arg1)) :
    after Cert.KernelIdeal.Gen.hostOps0 WK (Proc.devRef .tc Cert.KernelIdeal.main_v1) = after Cert.ReferenceIdeal.HostRun.edges3 WR (Proc.devRef .tc Cert.ReferenceIdeal.main_v51)
    ∧ after Cert.KernelIdeal.Gen.hostOps0 WK (Proc.devRef .tc Cert.KernelIdeal.main_v3) = after Cert.ReferenceIdeal.HostRun.edges3 WR (Proc.devRef .tc Cert.ReferenceIdeal.main_v53) := by
  refine ⟨?_, ?_⟩
  all_goals simp only [Cert.KernelIdeal.Gen.hostOps0, Cert.ReferenceIdeal.HostRun.edges3]
  all_goals after_results_simp
  all_goals (try simp only [h0])
  all_goals (try rfl)

/-- The leaky threshold of equal arrays with equal slopes. -/
theorem agree_leaky1 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v23) = WR (Proc.devRef .tc Cert.ReferenceIdeal.main_v23))
    (h1 : WK (Proc.devRef .tc Cert.KernelIdeal.main_cst_3) = WR (Proc.devRef .tc Cert.ReferenceIdeal.main_cst_3)) :
    after Cert.KernelIdeal.Gen.hostOps0_3 WK (Proc.devRef .tc Cert.KernelIdeal.main_v24) = after Cert.ReferenceIdeal.HostRun.relu1 WR (Proc.devRef .tc Cert.ReferenceIdeal.main_v24) := by
  all_goals simp only [Cert.KernelIdeal.Gen.hostOps0_3, Cert.ReferenceIdeal.HostRun.relu1]
  all_goals after_results_simp
  all_goals (try simp only [h0, h1])
  all_goals (try rfl)

/-- The leaky threshold after layer 2. -/
theorem agree_leaky2 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v44) = WR (Proc.devRef .tc Cert.ReferenceIdeal.main_v48))
    (h1 : WK (Proc.devRef .tc Cert.KernelIdeal.main_cst_8) = WR (Proc.devRef .tc Cert.ReferenceIdeal.main_cst_8)) :
    after Cert.KernelIdeal.Gen.hostOps0_6 WK (Proc.devRef .tc Cert.KernelIdeal.main_v45) = after Cert.ReferenceIdeal.HostRun.relu2 WR (Proc.devRef .tc Cert.ReferenceIdeal.main_v49) := by
  all_goals simp only [Cert.KernelIdeal.Gen.hostOps0_6, Cert.ReferenceIdeal.HostRun.relu2]
  all_goals after_results_simp
  all_goals (try simp only [h0, h1])
  all_goals (try rfl)

end Cert.HostAgree

end
-- ==== Proof.AgreeGather.lean ====
/-
  The two programs' host computations agree, stretch by stretch: the three gathers of node rows at the edge sources.

  Both programs run the same graph network on the host; the kernel program slices the edge list once where the
  reference slices it three times, so the two lines of operations name their buffers differently, but each stretch of
  one is the same operations as a stretch of the other. For each pair of matching stretches: if the buffers the stretch
  reads hold equal contents in the two programs, so do the buffers it leaves for the later stretches. Each is read
  off by running the stretch's operations on both sides; the two terms are then the same term.
-/
import proofs.«138927_g26774826123929_cont_8to1_2001_3_alg».proof.Proof.KernelHost
import proofs.«138927_g26774826123929_cont_8to1_2001_3_alg».proof.Proof.RefRun

set_option maxRecDepth 8192

noncomputable section

namespace Cert.HostAgree

open Idealize.ShloMosaic Idealize.ShloMosaic.TcCoe Idealize.SL.Sem Idealize.ShloMosaic.StableHlo

variable {F : FTy → Type} [FloatOps F]

/-- Layer 1's gathered rows agree when the node features and the source indices do. -/
theorem agree_gather1 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v1) = WR (Proc.devRef .tc Cert.ReferenceIdeal.main_v1))
    (h1 : WK (Proc.devRef .tc Cert.KernelIdeal.main_arg0) = WR (Proc.devRef .tc Cert.ReferenceIdeal.main_arg0)) :
    after Cert.KernelIdeal.Gen.hostOps0_1 WK (Proc.devRef .tc Cert.KernelIdeal.main_v4) = after Cert.ReferenceIdeal.HostRun.take1 WR (Proc.devRef .tc Cert.ReferenceIdeal.main_v4) := by
  all_goals simp only [Cert.KernelIdeal.Gen.hostOps0_1, Cert.ReferenceIdeal.HostRun.take1]
  all_goals after_results_simp
  all_goals (try simp only [h0, h1])
  all_goals (try rfl)

/-- Layer 2's gathered rows agree when layer 1's output and the source indices do. -/
theorem agree_gather2 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v1) = WR (Proc.devRef .tc Cert.ReferenceIdeal.main_v26))
    (h1 : WK (Proc.devRef .tc Cert.KernelIdeal.main_v24) = WR (Proc.devRef .tc Cert.ReferenceIdeal.main_v24)) :
    after Cert.KernelIdeal.Gen.hostOps0_4 WK (Proc.devRef .tc Cert.KernelIdeal.main_v25) = after Cert.ReferenceIdeal.HostRun.take2 WR (Proc.devRef .tc Cert.ReferenceIdeal.main_v29) := by
  all_goals simp only [Cert.KernelIdeal.Gen.hostOps0_4, Cert.ReferenceIdeal.HostRun.take2]
  all_goals after_results_simp
  all_goals (try simp only [h0, h1])
  all_goals (try rfl)

/-- Layer 3's gathered rows. -/
theorem agree_gather3 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v1) = WR (Proc.devRef .tc Cert.ReferenceIdeal.main_v51))
    (h1 : WK (Proc.devRef .tc Cert.KernelIdeal.main_v45) = WR (Proc.devRef .tc Cert.ReferenceIdeal.main_v49)) :
    after Cert.KernelIdeal.Gen.hostOps0_7 WK (Proc.devRef .tc Cert.KernelIdeal.main_v46) = after Cert.ReferenceIdeal.HostRun.take3 WR (Proc.devRef .tc Cert.ReferenceIdeal.main_v54) := by
  all_goals simp only [Cert.KernelIdeal.Gen.hostOps0_7, Cert.ReferenceIdeal.HostRun.take3]
  all_goals after_results_simp
  all_goals (try simp only [h0, h1])
  all_goals (try rfl)

end Cert.HostAgree

end
-- ==== Proof.AgreeLayers.lean ====
/-
  The two programs' host computations agree, stretch by stretch: the first two layers before their thresholds.

  Both programs run the same graph network on the host; the kernel program slices the edge list once where the
  reference slices it three times, so the two lines of operations name their buffers differently, but each stretch of
  one is the same operations as a stretch of the other. For each pair of matching stretches: if the buffers the stretch
  reads hold equal contents in the two programs, so do the buffers it leaves for the later stretches. Each is read
  off by running the stretch's operations on both sides; the two terms are then the same term.
-/
import proofs.«138927_g26774826123929_cont_8to1_2001_3_alg».proof.Proof.KernelHost
import proofs.«138927_g26774826123929_cont_8to1_2001_3_alg».proof.Proof.RefRun

set_option maxRecDepth 8192

noncomputable section

namespace Cert.HostAgree

open Idealize.ShloMosaic Idealize.ShloMosaic.TcCoe Idealize.SL.Sem Idealize.ShloMosaic.StableHlo

variable {F : FTy → Type} [FloatOps F]

/-- Layer 1 before its threshold (the mean of the gathered rows per target, times one weight matrix, plus the bias, plus the node's own features times the other) and the threshold's slope agree when the gathered rows, the target indices, the features and the layer's parameters do. -/
theorem agree_sage1 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v3) = WR (Proc.devRef .tc Cert.ReferenceIdeal.main_v3))
    (h1 : WK (Proc.devRef .tc Cert.KernelIdeal.main_v4) = WR (Proc.devRef .tc Cert.ReferenceIdeal.main_v4))
    (h2 : WK (Proc.devRef .tc Cert.KernelIdeal.main_arg3) = WR (Proc.devRef .tc Cert.ReferenceIdeal.main_arg3))
    (h3 : WK (Proc.devRef .tc Cert.KernelIdeal.main_arg4) = WR (Proc.devRef .tc Cert.ReferenceIdeal.main_arg4))
    (h4 : WK (Proc.devRef .tc Cert.KernelIdeal.main_arg5) = WR (Proc.devRef .tc Cert.ReferenceIdeal.main_arg5))
    (h5 : WK (Proc.devRef .tc Cert.KernelIdeal.main_arg0) = WR (Proc.devRef .tc Cert.ReferenceIdeal.main_arg0)) :
    after Cert.KernelIdeal.Gen.hostOps0_2 WK (Proc.devRef .tc Cert.KernelIdeal.main_v23) = after Cert.ReferenceIdeal.HostRun.layer1 WR (Proc.devRef .tc Cert.ReferenceIdeal.main_v23)
    ∧ after Cert.KernelIdeal.Gen.hostOps0_2 WK (Proc.devRef .tc Cert.KernelIdeal.main_cst_3) = after Cert.ReferenceIdeal.HostRun.layer1 WR (Proc.devRef .tc Cert.ReferenceIdeal.main_cst_3) := by
  refine ⟨?_, ?_⟩
  all_goals simp only [Cert.KernelIdeal.Gen.hostOps0_2, Cert.ReferenceIdeal.HostRun.layer1]
  all_goals after_results_simp
  all_goals (try simp only [h0, h1, h2, h3, h4, h5])
  all_goals (try rfl)

/-- Layer 2 before its threshold, as layer 1. -/
theorem agree_sage2 (WK : Valuation Cert.KernelIdeal.τ Cert.KernelIdeal.sig (Elt F)) (WR : Valuation Cert.ReferenceIdeal.τ Cert.ReferenceIdeal.sig (Elt F))
    (h0 : WK (Proc.devRef .tc Cert.KernelIdeal.main_v3) = WR (Proc.devRef .tc Cert.ReferenceIdeal.main_v28))
    (h1 : WK (Proc.devRef .tc Cert.KernelIdeal.main_v25) = WR (Proc.devRef .tc Cert.ReferenceIdeal.main_v29))
    (h2 : WK (Proc.devRef .tc Cert.KernelIdeal.main_arg6) = WR (Proc.devRef .tc Cert.ReferenceIdeal.main_arg6))
    (h3 : WK (Proc.devRef .tc Cert.KernelIdeal.main_arg7) = WR (Proc.devRef .tc Cert.ReferenceIdeal.main_arg7))
    (h4 : WK (Proc.devRef .tc Cert.KernelIdeal.main_arg8) = WR (Proc.devRef .tc Cert.ReferenceIdeal.main_arg8))
    (h5 : WK (Proc.devRef .tc Cert.KernelIdeal.main_v24) = WR (Proc.devRef .tc Cert.ReferenceIdeal.main_v24)) :
    after Cert.KernelIdeal.Gen.hostOps0_5 WK (Proc.devRef .tc Cert.KernelIdeal.main_v44) = after Cert.ReferenceIdeal.HostRun.layer2 WR (Proc.devRef .tc Cert.ReferenceIdeal.main_v48)
    ∧ after Cert.KernelIdeal.Gen.hostOps0_5 WK (Proc.devRef .tc Cert.KernelIdeal.main_cst_8) = after Cert.ReferenceIdeal.HostRun.layer2 WR (Proc.devRef .tc Cert.ReferenceIdeal.main_cst_8) := by
  refine ⟨?_, ?_⟩
  all_goals simp only [Cert.KernelIdeal.Gen.hostOps0_5, Cert.ReferenceIdeal.HostRun.layer2]
  all_goals after_results_simp
  all_goals (try simp only [h0, h1, h2, h3, h4, h5])
  all_goals (try rfl)

end Cert.HostAgree

end
-- ==== Proof.AgreePool.lean ====
/-
  The two programs' host computations agree, stretch by stretch: the third layer and the pooling.

  Both programs run the same graph network on the host; the kernel program slices the edge list once where the
  reference slices it three times, so the two lines of operations name their buffers differently, but each stretch of
  one is the same operations as a stretch of the other. For each pair of matching stretches: if the buffers the stretch
  reads hold equal contents in the two programs, so do the buffers it leaves for the later stretches. Each is read
  off by running the stretch's operations on both sides; the two terms are then the same term.
-/
import proofs.«138927_g26774826123929_cont_8to1_2001_3_alg».proof.Proof.KernelHost
import proofs.«138927_g26774826123929_cont_8to1_2001_3_alg».proof.Proof.RefRun

set_option maxRecDepth 8192

noncomputable section

namespace Cert.HostAgree

open Idealize.ShloMosaic Idealize.ShloMosaic.TcCoe Idealize.SL.Sem Idealize.ShloMosaic.StableHlo

variable {F : FTy → Type} [FloatOps F]

/-- Two arrays joined along an axis: equal pieces give equal joins. -/
theorem concat_pair_congr {α : Type} {t s : Shape} {ax : Fin t.rank} {a a' b b' : s.Idx → α}
    {h : Shape.Concatenates (([⟨s, a⟩, ⟨s, b⟩] : List ((s : Shape) × (s.Idx → α))).map (·.1)) t ax}
    {h' : Shape.Concatenates (([⟨s, a'⟩, ⟨s, b'⟩] : List ((s : Shape) × (s.Idx → α))).map (·.1)) t ax}
    (ha : a = a') (hb : b = b') :
    concatenate t ax [⟨s, a⟩, ⟨s, b⟩] h = concatenate t ax [⟨s, a'⟩, ⟨s, b'⟩] h' := by
  subst ha hb; rfl

/-- Layer 3, the per-graph sums and counts, the means, and their join along the lanes: the pooled array agrees when layer 2's output, the gathered rows, the target indices, the graph index of each node and the layer's parameters do. -/
theorem agree_pooling (WK : Valuation Cert.KernelIdeal.τ Cert.KernelIdeal.sig (Elt F)) (WR : Valuation Cert.ReferenceIdeal.τ Cert.ReferenceIdeal.sig (Elt F))
    (h0 : WK (Proc.devRef .tc Cert.KernelIdeal.main_v3) = WR (Proc.devRef .tc Cert.ReferenceIdeal.main_v53))
    (h1 : WK (Proc.devRef .tc Cert.KernelIdeal.main_v46) = WR (Proc.devRef .tc Cert.ReferenceIdeal.main_v54))
    (h2 : WK (Proc.devRef .tc Cert.KernelIdeal.main_arg9) = WR (Proc.devRef .tc Cert.ReferenceIdeal.main_arg9))
    (h3 : WK (Proc.devRef .tc Cert.KernelIdeal.main_arg10) = WR (Proc.devRef .tc Cert.ReferenceIdeal.main_arg10))
    (h4 : WK (Proc.devRef .tc Cert.KernelIdeal.main_arg11) = WR (Proc.devRef .tc Cert.ReferenceIdeal.main_arg11))
    (h5 : WK (Proc.devRef .tc Cert.KernelIdeal.main_v45) = WR (Proc.devRef .tc Cert.ReferenceIdeal.main_v49))
    (h6 : WK (Proc.devRef .tc Cert.KernelIdeal.main_arg2) = WR (Proc.devRef .tc Cert.ReferenceIdeal.main_arg2)) :
    after Cert.KernelIdeal.Gen.hostOps0_8 WK (Proc.devRef .tc Cert.KernelIdeal.main_v77) = after Cert.ReferenceIdeal.HostRun.pool WR (Proc.devRef .tc Cert.ReferenceIdeal.main_v85) := by
  all_goals simp only [Cert.KernelIdeal.Gen.hostOps0_8, Cert.ReferenceIdeal.HostRun.pool]
  all_goals after_results_simp
  all_goals apply concat_pair_congr
  all_goals after_results_simp
  all_goals (try simp only [h0, h1, h2, h3, h4, h5, h6])
  all_goals (try rfl)

end Cert.HostAgree

end
-- ==== Proof.HostChain.lean ====
/-
  The pooled array is the same in the two programs.

  From argument arrays that agree, the matching stretches are walked in order. The kernel program's source and target
  index arrays, computed once, serve all three of its layers; the reference recomputes them before each layer from the
  same edge list, and nothing in between writes the edge list or, on the kernel side, the two index arrays. Each
  layer's gathered rows, its output before and after the threshold, and at the end the pooled array then agree, each
  from the agreement of what its stretch reads: values computed earlier and arguments are carried to the stretch
  that reads them by the fact that no stretch in between writes them.
-/
import proofs.«138927_g26774826123929_cont_8to1_2001_3_alg».proof.Proof.AgreeEdges
import proofs.«138927_g26774826123929_cont_8to1_2001_3_alg».proof.Proof.AgreeGather
import proofs.«138927_g26774826123929_cont_8to1_2001_3_alg».proof.Proof.AgreeLayers
import proofs.«138927_g26774826123929_cont_8to1_2001_3_alg».proof.Proof.AgreePool

set_option maxRecDepth 8192

noncomputable section

namespace Cert.HostAgree

open Idealize.ShloMosaic Idealize.ShloMosaic.TcCoe Idealize.SL.Sem Idealize.ShloMosaic.StableHlo

variable {F : FTy → Type} [FloatOps F]

/-- Carry a buffer's contents back, on either side, through the stretches that do not write it. -/
local macro "keeps" : tactic =>
  `(tactic| simp (disch := decide) only [Cert.KernelIdeal.HostVal.val9_keep, Cert.KernelIdeal.HostVal.val8_keep, Cert.KernelIdeal.HostVal.val7_keep, Cert.KernelIdeal.HostVal.val6_keep, Cert.KernelIdeal.HostVal.val5_keep, Cert.KernelIdeal.HostVal.val4_keep, Cert.KernelIdeal.HostVal.val3_keep, Cert.KernelIdeal.HostVal.val2_keep, Cert.KernelIdeal.HostVal.val1_keep,
      Cert.ReferenceIdeal.HostRun.val12_keep, Cert.ReferenceIdeal.HostRun.val11_keep, Cert.ReferenceIdeal.HostRun.val10_keep, Cert.ReferenceIdeal.HostRun.val9_keep, Cert.ReferenceIdeal.HostRun.val8_keep, Cert.ReferenceIdeal.HostRun.val7_keep, Cert.ReferenceIdeal.HostRun.val6_keep, Cert.ReferenceIdeal.HostRun.val5_keep, Cert.ReferenceIdeal.HostRun.val4_keep, Cert.ReferenceIdeal.HostRun.val3_keep, Cert.ReferenceIdeal.HostRun.val2_keep, Cert.ReferenceIdeal.HostRun.val1_keep])

/-- THE POOLED ARRAYS AGREE: what the kernel program's ninth stretch leaves in its pooled buffer is what the
    reference's eleventh leaves in its own, when the fourteen argument arrays agree. -/
theorem pooled_agree (V0K : Valuation Cert.KernelIdeal.τ Cert.KernelIdeal.sig (Elt F))
    (V0R : Valuation Cert.ReferenceIdeal.τ Cert.ReferenceIdeal.sig (Elt F))
    (a0 : V0K (Proc.devRef .tc Cert.KernelIdeal.main_arg0) = V0R (Proc.devRef .tc Cert.ReferenceIdeal.main_arg0))
    (a1 : V0K (Proc.devRef .tc Cert.KernelIdeal.main_arg1) = V0R (Proc.devRef .tc Cert.ReferenceIdeal.main_arg1))
    (a2 : V0K (Proc.devRef .tc Cert.KernelIdeal.main_arg2) = V0R (Proc.devRef .tc Cert.ReferenceIdeal.main_arg2))
    (a3 : V0K (Proc.devRef .tc Cert.KernelIdeal.main_arg3) = V0R (Proc.devRef .tc Cert.ReferenceIdeal.main_arg3))
    (a4 : V0K (Proc.devRef .tc Cert.KernelIdeal.main_arg4) = V0R (Proc.devRef .tc Cert.ReferenceIdeal.main_arg4))
    (a5 : V0K (Proc.devRef .tc Cert.KernelIdeal.main_arg5) = V0R (Proc.devRef .tc Cert.ReferenceIdeal.main_arg5))
    (a6 : V0K (Proc.devRef .tc Cert.KernelIdeal.main_arg6) = V0R (Proc.devRef .tc Cert.ReferenceIdeal.main_arg6))
    (a7 : V0K (Proc.devRef .tc Cert.KernelIdeal.main_arg7) = V0R (Proc.devRef .tc Cert.ReferenceIdeal.main_arg7))
    (a8 : V0K (Proc.devRef .tc Cert.KernelIdeal.main_arg8) = V0R (Proc.devRef .tc Cert.ReferenceIdeal.main_arg8))
    (a9 : V0K (Proc.devRef .tc Cert.KernelIdeal.main_arg9) = V0R (Proc.devRef .tc Cert.ReferenceIdeal.main_arg9))
    (a10 : V0K (Proc.devRef .tc Cert.KernelIdeal.main_arg10) = V0R (Proc.devRef .tc Cert.ReferenceIdeal.main_arg10))
    (a11 : V0K (Proc.devRef .tc Cert.KernelIdeal.main_arg11) = V0R (Proc.devRef .tc Cert.ReferenceIdeal.main_arg11))
    (a12 : V0K (Proc.devRef .tc Cert.KernelIdeal.main_arg12) = V0R (Proc.devRef .tc Cert.ReferenceIdeal.main_arg12))
    (a13 : V0K (Proc.devRef .tc Cert.KernelIdeal.main_arg13) = V0R (Proc.devRef .tc Cert.ReferenceIdeal.main_arg13)) :
    Cert.KernelIdeal.HostVal.val9 V0K (Proc.devRef .tc Cert.KernelIdeal.main_v77) = Cert.ReferenceIdeal.HostRun.val11 V0R (Proc.devRef .tc Cert.ReferenceIdeal.main_v85) := by
  -- the source and target index arrays, first slicing
  have e1 : (Cert.KernelIdeal.HostVal.val1 V0K) (Proc.devRef .tc Cert.KernelIdeal.main_v1) = (Cert.ReferenceIdeal.HostRun.val1 V0R) (Proc.devRef .tc Cert.ReferenceIdeal.main_v1) ∧ (Cert.KernelIdeal.HostVal.val1 V0K) (Proc.devRef .tc Cert.KernelIdeal.main_v3) = (Cert.ReferenceIdeal.HostRun.val1 V0R) (Proc.devRef .tc Cert.ReferenceIdeal.main_v3) :=
    agree_edgesA V0K V0R a1
  -- layer 1
  have g1 : (Cert.KernelIdeal.HostVal.val2 V0K) (Proc.devRef .tc Cert.KernelIdeal.main_v4) = (Cert.ReferenceIdeal.HostRun.val2 V0R) (Proc.devRef .tc Cert.ReferenceIdeal.main_v4) :=
    agree_gather1 (Cert.KernelIdeal.HostVal.val1 V0K) (Cert.ReferenceIdeal.HostRun.val1 V0R) e1.1 (by (try keeps); exact a0)
  have s1 : (Cert.KernelIdeal.HostVal.val3 V0K) (Proc.devRef .tc Cert.KernelIdeal.main_v23) = (Cert.ReferenceIdeal.HostRun.val3 V0R) (Proc.devRef .tc Cert.ReferenceIdeal.main_v23) ∧ (Cert.KernelIdeal.HostVal.val3 V0K) (Proc.devRef .tc Cert.KernelIdeal.main_cst_3) = (Cert.ReferenceIdeal.HostRun.val3 V0R) (Proc.devRef .tc Cert.ReferenceIdeal.main_cst_3) :=
    agree_sage1 (Cert.KernelIdeal.HostVal.val2 V0K) (Cert.ReferenceIdeal.HostRun.val2 V0R) (by (try keeps); exact e1.2) g1 (by (try keeps); exact a3) (by (try keeps); exact a4) (by (try keeps); exact a5) (by (try keeps); exact a0)
  have l1 : (Cert.KernelIdeal.HostVal.val4 V0K) (Proc.devRef .tc Cert.KernelIdeal.main_v24) = (Cert.ReferenceIdeal.HostRun.val4 V0R) (Proc.devRef .tc Cert.ReferenceIdeal.main_v24) :=
    agree_leaky1 (Cert.KernelIdeal.HostVal.val3 V0K) (Cert.ReferenceIdeal.HostRun.val3 V0R) s1.1 s1.2
  -- the reference's second slicing gives the kernel program's one
  have e2 : (Cert.KernelIdeal.HostVal.val1 V0K) (Proc.devRef .tc Cert.KernelIdeal.main_v1) = (Cert.ReferenceIdeal.HostRun.val5 V0R) (Proc.devRef .tc Cert.ReferenceIdeal.main_v26) ∧ (Cert.KernelIdeal.HostVal.val1 V0K) (Proc.devRef .tc Cert.KernelIdeal.main_v3) = (Cert.ReferenceIdeal.HostRun.val5 V0R) (Proc.devRef .tc Cert.ReferenceIdeal.main_v28) :=
    agree_edgesB V0K (Cert.ReferenceIdeal.HostRun.val4 V0R) (by (try keeps); exact a1)
  -- layer 2
  have g2 : (Cert.KernelIdeal.HostVal.val5 V0K) (Proc.devRef .tc Cert.KernelIdeal.main_v25) = (Cert.ReferenceIdeal.HostRun.val6 V0R) (Proc.devRef .tc Cert.ReferenceIdeal.main_v29) :=
    agree_gather2 (Cert.KernelIdeal.HostVal.val4 V0K) (Cert.ReferenceIdeal.HostRun.val5 V0R) (by (try keeps); exact e2.1) (by (try keeps); exact l1)
  have s2 : (Cert.KernelIdeal.HostVal.val6 V0K) (Proc.devRef .tc Cert.KernelIdeal.main_v44) = (Cert.ReferenceIdeal.HostRun.val7 V0R) (Proc.devRef .tc Cert.ReferenceIdeal.main_v48) ∧ (Cert.KernelIdeal.HostVal.val6 V0K) (Proc.devRef .tc Cert.KernelIdeal.main_cst_8) = (Cert.ReferenceIdeal.HostRun.val7 V0R) (Proc.devRef .tc Cert.ReferenceIdeal.main_cst_8) :=
    agree_sage2 (Cert.KernelIdeal.HostVal.val5 V0K) (Cert.ReferenceIdeal.HostRun.val6 V0R) (by (try keeps); exact e2.2) g2 (by (try keeps); exact a6) (by (try keeps); exact a7) (by (try keeps); exact a8) (by (try keeps); exact l1)
  have l2 : (Cert.KernelIdeal.HostVal.val7 V0K) (Proc.devRef .tc Cert.KernelIdeal.main_v45) = (Cert.ReferenceIdeal.HostRun.val8 V0R) (Proc.devRef .tc Cert.ReferenceIdeal.main_v49) :=
    agree_leaky2 (Cert.KernelIdeal.HostVal.val6 V0K) (Cert.ReferenceIdeal.HostRun.val7 V0R) s2.1 s2.2
  -- the third slicing
  have e3 : (Cert.KernelIdeal.HostVal.val1 V0K) (Proc.devRef .tc Cert.KernelIdeal.main_v1) = (Cert.ReferenceIdeal.HostRun.val9 V0R) (Proc.devRef .tc Cert.ReferenceIdeal.main_v51) ∧ (Cert.KernelIdeal.HostVal.val1 V0K) (Proc.devRef .tc Cert.KernelIdeal.main_v3) = (Cert.ReferenceIdeal.HostRun.val9 V0R) (Proc.devRef .tc Cert.ReferenceIdeal.main_v53) :=
    agree_edgesC V0K (Cert.ReferenceIdeal.HostRun.val8 V0R) (by (try keeps); exact a1)
  -- layer 3 and the pooling
  have g3 : (Cert.KernelIdeal.HostVal.val8 V0K) (Proc.devRef .tc Cert.KernelIdeal.main_v46) = (Cert.ReferenceIdeal.HostRun.val10 V0R) (Proc.devRef .tc Cert.ReferenceIdeal.main_v54) :=
    agree_gather3 (Cert.KernelIdeal.HostVal.val7 V0K) (Cert.ReferenceIdeal.HostRun.val9 V0R) (by (try keeps); exact e3.1) (by (try keeps); exact l2)
  exact agree_pooling (Cert.KernelIdeal.HostVal.val8 V0K) (Cert.ReferenceIdeal.HostRun.val10 V0R) (by (try keeps); exact e3.2) g3 (by (try keeps); exact a9) (by (try keeps); exact a10) (by (try keeps); exact a11) (by (try keeps); exact l2) (by (try keeps); exact a2)

end Cert.HostAgree

end
-- ==== Proof.Bridge.lean ====
/-
  The two programs' results are the same array.

  The kernel program's result is its body's value of the pooled array, the weight row and the `[1, 1]` bias array as
  the launch finds them; the reference's is its classifier of its own pooled array, the weight row and the bias.
  The pooled arrays agree (the host sides agree stretch by stretch), the weight row is an argument on both sides, the
  kernel's bias array is the bias argument reshaped, and the two spellings of the classifier are one function.
-/
import proofs.«138927_g26774826123929_cont_8to1_2001_3_alg».proof.Proof.KernelOut
import proofs.«138927_g26774826123929_cont_8to1_2001_3_alg».proof.Proof.RefOut
import proofs.«138927_g26774826123929_cont_8to1_2001_3_alg».proof.Proof.HostChain
import proofs.«138927_g26774826123929_cont_8to1_2001_3_alg».proof.Proof.Classifier
import proofs.«138927_g26774826123929_cont_8to1_2001_3_alg».proof.Defs

noncomputable section

namespace Cert.Bridge

open Idealize.ShloMosaic Idealize.ShloMosaic.TcCoe Idealize.SL.Sem Idealize.ShloMosaic.StableHlo

/-- From memories that agree on the fourteen arguments, the reference's result term is the kernel program's. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (a10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (a11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (a12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (a13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) :
    Cert.Classifier.hostClassifier (F := Ideal)
        (Cert.ReferenceIdeal.HostRun.val11 (launchContents m' c) (Proc.devRef .tc Cert.ReferenceIdeal.main_v85))
        (m' ((c.tc : Thread Cert.ReferenceIdeal.nD Cert.ReferenceIdeal.τ).loc Cert.ReferenceIdeal.main_arg12))
        (m' ((c.tc : Thread Cert.ReferenceIdeal.nD Cert.ReferenceIdeal.τ).loc Cert.ReferenceIdeal.main_arg13))
      = Cert.KernelIdeal.Gen.k0_pay1 (F := Ideal) (Cert.KernelIdeal.Gen.V m c Cert.KernelIdeal.main_v77)
          (Cert.KernelIdeal.Gen.V m c Cert.KernelIdeal.main_arg12) (Cert.KernelIdeal.Gen.V m c Cert.KernelIdeal.main_v78) := by
  have hp : Cert.KernelIdeal.Gen.V m c Cert.KernelIdeal.main_v77
      = Cert.ReferenceIdeal.HostRun.val11 (launchContents m' c) (Proc.devRef .tc Cert.ReferenceIdeal.main_v85) :=
    (Cert.KernelIdeal.OutValue.V_eq_val m c Cert.KernelIdeal.main_v77).trans
      (Cert.HostAgree.pooled_agree (fun b => m (c, b)) (launchContents m' c)
        a0.symm a1.symm a2.symm a3.symm a4.symm a5.symm a6.symm a7.symm a8.symm a9.symm a10.symm a11.symm a12.symm a13.symm)
  have hw : Cert.KernelIdeal.Gen.V m c Cert.KernelIdeal.main_arg12
      = m' ((c.tc : Thread Cert.ReferenceIdeal.nD Cert.ReferenceIdeal.τ).loc Cert.ReferenceIdeal.main_arg12) :=
    (Cert.KernelIdeal.Gen.V_main_arg12 m c).trans a12.symm
  have hb : Cert.KernelIdeal.Gen.V m c Cert.KernelIdeal.main_v78
      = shapeCast Cert.KernelIdeal.S1x1 (m' ((c.tc : Thread Cert.ReferenceIdeal.nD Cert.ReferenceIdeal.τ).loc Cert.ReferenceIdeal.main_arg13) : FVec Ideal Cert.KernelIdeal.S1 .f32)
          Cert.KernelIdeal.Gen.shapeCasts_S1_S1x1 :=
    (Cert.KernelIdeal.OutValue.V_eq_val m c Cert.KernelIdeal.main_v78).trans
      ((Cert.KernelIdeal.OutValue.val9_bias _).trans (congrArg (fun v => shapeCast Cert.KernelIdeal.S1x1 v Cert.KernelIdeal.Gen.shapeCasts_S1_S1x1) a13.symm))
  rw [hp, hw, hb]
  exact (Cert.Classifier.kernel_eq_reference _ _ _).symm

end Cert.Bridge

end
-- ==== Proof.lean ====
/-
  The certificate of a graph network's classifier kernel against its reference, on the extended reals.

  Both programs compute, on the host, three mean-aggregation graph layers over 100000 nodes and 3200000 edges (the
  first two followed by a leaky threshold), pool the node rows per graph into sums and means, and join the two into a
  `[128, 8]` array. They differ only in the last step: the kernel program hands the pooled array, the classifier's
  weight row and its bias to a kernel that multiplies, sums each row's lanes and adds the bias; the reference uses
  the host's matrix product with the transposed weight row and a broadcast bias. At the exact extended reals both are
  the row's sum of products plus the bias, with no order of accumulation left, so the results are equal entry by
  entry; the law needs no finiteness, and the precondition is never opened.

  The three frames: the two kernel programs' are the generated frame certificates; the reference has no kernel,
  and its frame is its run (a straight line of tensor operations, none of which writes an argument) with the result
  dropped. The idealization rewrote nothing, so `preserves` asks nothing.
-/
import proofs.«138927_g26774826123929_cont_8to1_2001_3_alg».proof.Defs
import proofs.«138927_g26774826123929_cont_8to1_2001_3_alg».proof.Proof.Gen.Kernel
import proofs.«138927_g26774826123929_cont_8to1_2001_3_alg».proof.Proof.Gen.Kernel.Skeleton
import proofs.«138927_g26774826123929_cont_8to1_2001_3_alg».proof.Proof.Gen.Kernel.Launch
import proofs.«138927_g26774826123929_cont_8to1_2001_3_alg».proof.Proof.Gen.Kernel.Points
import proofs.«138927_g26774826123929_cont_8to1_2001_3_alg».proof.Proof.Gen.Kernel.Frame
import proofs.«138927_g26774826123929_cont_8to1_2001_3_alg».proof.Proof.Gen.KernelIdeal
import proofs.«138927_g26774826123929_cont_8to1_2001_3_alg».proof.Proof.Gen.KernelIdeal.Skeleton
import proofs.«138927_g26774826123929_cont_8to1_2001_3_alg».proof.Proof.Gen.KernelIdeal.Launch
import proofs.«138927_g26774826123929_cont_8to1_2001_3_alg».proof.Proof.Gen.KernelIdeal.Points
import proofs.«138927_g26774826123929_cont_8to1_2001_3_alg».proof.Proof.Gen.KernelIdeal.Frame
import proofs.«138927_g26774826123929_cont_8to1_2001_3_alg».proof.Proof.Gen.KernelIdeal.Value
import proofs.«138927_g26774826123929_cont_8to1_2001_3_alg».proof.Proof.Gen.ReferenceIdeal
import proofs.«138927_g26774826123929_cont_8to1_2001_3_alg».proof.Proof.Gen.Pre_finite_inputs
import proofs.«138927_g26774826123929_cont_8to1_2001_3_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.HostRun.run_read (F := Ideal) m ρ)

/-- The idealization rewrote no operation. -/
theorem preserves : Cert.preserves_Kernel_KernelIdeal := trivial

/-- Both programs run, and from memories agreeing on the arguments the reference's result is the kernel program's:
    the kernel's value of the pooled array, the weight row and the reshaped bias. -/
theorem algebraic : Cert.algebraic_KernelIdeal_ReferenceIdeal := by
  intro m ρ m' ρ' _ hagree
  refine ⟨fun c => Cert.KernelIdeal.Gen.k0_pay1 (F := Ideal) (Cert.KernelIdeal.Gen.V m c Cert.KernelIdeal.main_v77)
      (Cert.KernelIdeal.Gen.V m c Cert.KernelIdeal.main_arg12) (Cert.KernelIdeal.Gen.V m c Cert.KernelIdeal.main_v78),
    Cert.KernelIdeal.OutValue.run (F := Ideal) m ρ, ?_⟩
  refine (θ_run Cert.ReferenceIdeal.defs _ _).mono (fun _ h c => ⟨(h c).1.trans ?_, (h c).2⟩)
    (Cert.ReferenceIdeal.HostRun.run_read (F := Ideal) m' ρ')
  exact Cert.Bridge.result_eq m m' c (hagree c).1 (hagree c).2.1 (hagree c).2.2.1 (hagree c).2.2.2.1 (hagree c).2.2.2.2.1 (hagree c).2.2.2.2.2.1 (hagree c).2.2.2.2.2.2.1 (hagree c).2.2.2.2.2.2.2.1 (hagree c).2.2.2.2.2.2.2.2.1 (hagree c).2.2.2.2.2.2.2.2.2.1 (hagree c).2.2.2.2.2.2.2.2.2.2.1 (hagree c).2.2.2.2.2.2.2.2.2.2.2.1 (hagree c).2.2.2.2.2.2.2.2.2.2.2.2.1 (hagree c).2.2.2.2.2.2.2.2.2.2.2.2.2

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
